-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S256x128 : Shape := ⟨2, ![256, 128]⟩
abbrev S256x1 : Shape := ⟨2, ![256, 1]⟩
abbrev S256x8192 : Shape := ⟨2, ![256, 8192]⟩
abbrev S1024x128 : Shape := ⟨2, ![1024, 128]⟩
abbrev S1x1024 : Shape := ⟨2, ![1, 1024]⟩
abbrev S128x1024 : Shape := ⟨2, ![128, 1024]⟩
abbrev S256x1024 : Shape := ⟨2, ![256, 1024]⟩
abbrev S256 : Shape := ⟨1, ![256]⟩
abbrev S64 : Shape := ⟨1, ![64]⟩

abbrev nBuf : Space → Nat
  | .hbm => 42
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .bf16⟩
  | .hbm, ⟨6, _⟩ => ⟨S8192x1, .f32⟩
  | .hbm, ⟨7, _⟩ => ⟨S1x8192, .f32⟩
  | .hbm, ⟨8, _⟩ => ⟨S8192x1, .i32⟩
  | .hbm, ⟨9, _⟩ => ⟨S1x8192, .i32⟩
  | .hbm, ⟨10, _⟩ => ⟨S8192x1, .f32⟩
  | .hbm, ⟨11, _⟩ => ⟨S8192x1, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S64, .f32⟩
  | .hbm, ⟨16, _⟩ => ⟨S8192x1, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S8192x1, .i32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .i1⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S256x1, .i32⟩
  | .local _ .vmem, ⟨7, _⟩ => ⟨S256x1, .i32⟩
  | .local _ .vmem, ⟨8, _⟩ => ⟨S1x8192, .i32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v19 : BitVec 32 := Scalar.muli arg10 c1024_i32
  v19
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v19 : BitVec 32 := Scalar.muli arg10 c1024_i32
  let v20 : BitVec 32 := v19
  let v21 : Index := Scalar.indexCast v20
  let c0_16 : Index := 0#32
  ![v21.toNat, 0]
def k0_off2 (k0_t1 : Fin k0_t1_loop.trips) : Fin 2 → Nat :=
  let c0_17 : Index := 0#32
  let c0_i32 : BitVec 32 := 0#32
  let c1_i32 : BitVec 32 := 1#32
  let arg10 : BitVec 32 := Scf.iv c0_i32 c1_i32 k0_t1
  let c1024_i32 : BitVec 32 := 1024#32
  let v19 : BitVec 32 := Scalar.muli arg10 c1024_i32
  let v20 : BitVec 32 := v19
  let v24 : Index := Scalar.indexCast v20
  ![0, v24.toNat]
def k0_off3 (k0_t1 : Fin k0_t1_loop.trips) : Fin 2 → Nat :=
  let c0_21 : Index := 0#32
  let c0_i32 : BitVec 32 := 0#32
  let c1_i32 : BitVec 32 := 1#32
  let arg10 : BitVec 32 := Scf.iv c0_i32 c1_i32 k0_t1
  let c1024_i32 : BitVec 32 := 1024#32
  let v19 : BitVec 32 := Scalar.muli arg10 c1024_i32
  let v20 : BitVec 32 := v19
  let v38 : Index := Scalar.indexCast v20
  ![0, v38.toNat]
@[reducible] def k0_t2_loop : Scf.Loop 32 :=
  let c0_i32_8 : BitVec 32 := 0#32
  let c8_i32_9 : BitVec 32 := 8#32
  let v15 : BitVec 32 := Scalar.addi c0_i32_8 c8_i32_9
  let c1_i32_10 : BitVec 32 := 1#32
  ⟨c0_i32_8, v15, c1_i32_10⟩
def k0_mult2 (k0_t2 : Fin k0_t2_loop.trips) : BitVec 32 :=
  let c0_i32_8 : BitVec 32 := 0#32
  let c1_i32_10 : BitVec 32 := 1#32
  let arg10 : BitVec 32 := Scf.iv c0_i32_8 c1_i32_10 k0_t2
  let c1024_i32 : BitVec 32 := 1024#32
  let v19 : BitVec 32 := Scalar.muli arg10 c1024_i32
  v19
def k0_off4 (k0_t2 : Fin k0_t2_loop.trips) : Fin 2 → Nat :=
  let c0_16 : Index := 0#32
  let c0_i32_8 : BitVec 32 := 0#32
  let c1_i32_10 : BitVec 32 := 1#32
  let arg10 : BitVec 32 := Scf.iv c0_i32_8 c1_i32_10 k0_t2
  let c1024_i32 : BitVec 32 := 1024#32
  let v19 : BitVec 32 := Scalar.muli arg10 c1024_i32
  let v20 : BitVec 32 := v19
  let v21 : Index := Scalar.indexCast v20
  ![0, v21.toNat]
def k0_off5 (k0_t2 : Fin k0_t2_loop.trips) : Fin 2 → Nat :=
  let c0_17 : Index := 0#32
  let c0_i32_8 : BitVec 32 := 0#32
  let c1_i32_10 : BitVec 32 := 1#32
  let arg10 : BitVec 32 := Scf.iv c0_i32_8 c1_i32_10 k0_t2
  let c1024_i32 : BitVec 32 := 1024#32
  let v19 : BitVec 32 := Scalar.muli arg10 c1024_i32
  let v20 : BitVec 32 := v19
  let v23 : Index := Scalar.indexCast v20
  ![0, v23.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S8192x128_S8192_d1 : S8192x128.ReducesTo [1] S8192
  h_S_ : 0 < S_.numel
  bitsLt_bf16_f32 : FTy.bits .bf16 < FTy.bits .f32
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1_d0_w32 : S256x1.Iotas .tc 32 [0]
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  transposes_S1024x128_p1_0_S128x1024 : S1024x128.Transposes [1, 0] S128x1024
  broadcasts_S256x1_S256x1024 : S256x1.Broadcasts S256x1024
  broadcasts_S1x1024_S256x1024 : S1x1024.Broadcasts S256x1024
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  iota_S1x1024_d1_w32 : S1x1024.Iotas .tc 32 [1]
  natLt_1_32 : 1 < 32
  shapeCasts_S8192x1_S8192 : S8192x1.ShapeCasts S8192
  bcast_S_S64 : S_.BroadcastsInDim S64 (![] : Fin 0 → Fin S64.rank)
  bcast_S8192_S8192x1_0 : S8192.BroadcastsInDim S8192x1 (![0] : Fin 1 → Fin S8192x1.rank)
  reducesTo_S64_S_d0 : S64.ReducesTo [0] S_
  dot_S256x128_S128x1024_S256x1024_1_0_0_1_n_n_wf : DotDims.WF S256x128 S128x1024 S256x1024 [1] [0] [0] [1] [] []
  scatter_S64_S8192x1_S8192_n_0_0_1_wf : ScatterDims.WF S64 S8192x1 S8192 [] [0] [0] 1
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1x1024.size a ≤ S1x8192.size a
  k0_off3_inb : ∀ k0_t1 : Fin k0_t1_loop.trips, ∀ a, (k0_off3 k0_t1) a + S256x1024.size a ≤ S256x8192.size a
  k0_t2_ok : k0_t2_loop.OK
  k0_mult2_dvd : ∀ k0_t2 : Fin k0_t2_loop.trips, 1024 ∣ (k0_mult2 k0_t2).toNat
  k0_off4_inb : ∀ k0_t2 : Fin k0_t2_loop.trips, ∀ a, (k0_off4 k0_t2) a + S256x1024.size a ≤ S256x8192.size a
  k0_off5_inb : ∀ k0_t2 : Fin k0_t2_loop.trips, ∀ a, (k0_off5 k0_t2) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .i32 = 32 ∨ (Rect.block (s := S8192x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8192x1.size a
  hwx0_6 : ∀ i : grid0.Coords, EltTy.bits .f32 = 32 ∨ (Rect.block (s := S8192x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

abbrev win0_0 : Pipeline.Window sig grid0 :=
  Pipeline.Window.ofSpec (Memref.whole main_v2) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S64 : Shape := ⟨1, ![64]⟩

abbrev nBuf : Space → Nat
  | .hbm => 80
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192, .i32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x8192, .i32⟩
  | .hbm, ⟨49, _⟩ => ⟨S_, .i32⟩
  | .hbm, ⟨50, _⟩ => ⟨S8192, .i32⟩
  | .hbm, ⟨51, _⟩ => ⟨S8192, .f32⟩
  | .hbm, ⟨52, _⟩ => ⟨S_, .f32⟩
  | .hbm, ⟨53, _⟩ => ⟨S64, .f32⟩
  | .hbm, ⟨54, _⟩ => ⟨S8192x1, .i32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S8192x1, .i32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .i1⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  natLt_1_32 : 1 < 32
  bcast_S_S64 : S_.BroadcastsInDim S64 (![] : Fin 0 → Fin S64.rank)
  reducesTo_S64_S_d0 : S64.ReducesTo [0] S_
  dot_S8192x128_S128x8192_S8192x8192_1_0_0_1_n_n_wf : DotDims.WF S8192x128 S128x8192 S8192x8192 [1] [0] [0] [1] [] []
  scatter_S64_S8192x1_S8192_n_0_0_1_wf : ScatterDims.WF S64 S8192x1 S8192 [] [0] [0] 1

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

class Facts : Prop extends Facts₀ where

variable [Facts]
-- ==== Proof.IdealBody.lean ====
/-
  The kernel body at one anchor row block, as far as a frame needs it. Holding the six input blocks — the 256 anchor rows
  and all 8192 rows of the embeddings, the anchors' squared norms as a column and all squared norms as a row, the anchors'
  labels as a column and all labels as a row —, the two output blocks and the 256 × 8192 distance scratch, the body runs
  two passes of eight column chunks each: the first stores chunk k of the distances ‖xᵢ‖² + ‖xⱼ‖² − 2 xᵢ·xⱼ into the
  scratch and adds the chunk's sum of exp over the differently labelled columns to a carried column; the second reads the
  chunk back and adds to two carried columns the chunk's sum of log1p(Z·exp(−D)) and its count over the same-label
  columns j > i; then the two columns are stored into the output blocks.
  Stated here: from those nine buffers the body runs to its end, nothing faulting, every access inside its buffer; the
  six inputs come back as they were, the two outputs and the scratch at some contents. Both loops go through their
  invariants (one trip at a symbolic chunk). What the outputs then hold is not named: the second pass reads the scratch
  as "the first pass's eight chunks written over whatever the scratch held", so a name for it would have to say that the
  eight chunks cover the scratch, which is a statement about values and not about the frame.
-/
import proofs.«119205_j1864015806540_2_alg».proof.Proof.Gen.KernelIdeal.Launch
import proofs.«119205_j1864015806540_2_alg».proof.Proof.Gen.KernelIdeal.Skeleton
import proofs.«119205_j1864015806540_2_alg».proof.Proof.Gen.KernelIdeal.Loops
import proofs.«119205_j1864015806540_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body runs: inputs back as they were, the outputs and the scratch at some contents. -/
theorem body_runs (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ f, arg7.view.loc (c : Thread nD τ) ↦[arg7.view.set]{fullShare} f)
            ∗ (∃ f, arg8.view.loc (c : Thread nD τ) ↦[arg8.view.set]{fullShare} f)
            ∗ (∃ f, arg9.view.loc (c : Thread nD τ) ↦[arg9.view.set]{fullShare} f)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; iexact H7
  isplitl [H8]
  · iexists _; iexact H8
  iexists _; iexact H9

end Cert.KernelIdeal.Hand

end
-- ==== Proof.IdealRun.lean ====
/-
  The kernel body at one anchor row block, with what it leaves in the two output blocks NAMED. As in the frame run the body
  goes through its two passes by their invariants; here the run also records the two pieces it stores at the end, each a
  whole 256 × 1 column: the carried sum and the carried count of the second pass. Those carried values are stated over the
  scratch as the first pass left it, "its eight chunks written over what the scratch held before". The eight chunks,
  columns [1024 k, 1024 k + 1024) for k < 8, tile the 256 × 8192 scratch, so what it held before does not matter: the
  scratch after the first pass is the chunks written over anything, and the names of the two pieces mention only the
  six input blocks and the grid point.
-/
import proofs.«119205_j1864015806540_2_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer filled by covering pieces holds the same whatever it held before. -/
theorem writes_of_cover {sp : Space} {S : Shape} {e : EltTy} (M : Memref sig .tc sp S e) (hM : M.IsWhole) (f : M.view.ty.Contents (Elt F))
    (L : List (View.Piece (Elt F) S e)) (h : ∀ y, ∃ p ∈ L, y ∈ p.1.set) :
    M.view.writes (Elt F) f L = hM.unread (M.view.read (Elt F) (M.view.writes (Elt F) M.view.junk L)) :=
  hM.eq_unread (View.read_writes_of_cover M.view f M.view M.view.junk L h)

set_option maxHeartbeats 4000000 in
/-- The pieces the body leaves in the two output blocks, with the run that finds them. -/
noncomputable def kernelRun (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) :
    Σ' (L7 : List (View.Piece (Elt F) S256x1 .f32)), { L8 : List (View.Piece (Elt F) S256x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} f)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨?_, ?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    -- the scratch after the first pass: its eight chunks cover it
    rw [writes_of_cover arg9 harg9 f9 _ (View.cover_of_tiledL _ S256x1024.size (by sl_kernel_rfl))]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.KernelIdeal.Hand

end
-- ==== Proof.IdealData.lean ====
/-
  The proof data of the kernel's one pipeline, for any contents `V` of the buffers when the region is entered: the windows'
  arrays are `V`'s; after the body at grid point t each input window's buffer still holds its block of the array (the 256
  anchor rows at t for the row windows, the whole array for the three resident ones), and the two output windows' buffers
  hold the column the run stored (read back over anything: the one piece covers the 256 × 1 block); the invariant is the
  scratch at some contents beside the generator register; the two windows on the embeddings' array hold it at the two halves
  of the full share. The body obligation at a point is the run at that point's buffers and blocks.
-/
import proofs.«119205_j1864015806540_2_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8192 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1 .f32 := win0_7.stage (cfg0.slots t 7)
abbrev hs7 (t : Fin cfg0.N) : (ms7 t).IsWhole := hstage0_7 ((cfg0.slots t 7).cast nbuf0_7)
/-- The distance scratch. -/
abbrev scM : Memref sig .tc .vmem S256x8192 .f32 := Memref.whole cc0_scratch0
abbrev hscM : (scM).IsWhole := Memref.isWhole_whole _
/-- One staging buffer of each output window, through which its contents are stated (the choice does not matter). -/
abbrev VO6 : View sig .tc .vmem S256x1 .f32 := (Memref.whole cc0_stg6_0 : Memref sig .tc .vmem S256x1 .f32).view
abbrev VO7 : View sig .tc .vmem S256x1 .f32 := (Memref.whole cc0_stg7_0 : Memref sig .tc .vmem S256x1 .f32).view

/-- The class invariant opened: the scratch whole at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body leaves in the output windows -/

/-- The one piece stored into each output block covers it. -/
theorem cover6 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) (y : S256x1.Idx) :
    ∃ pc ∈ (kernelRun c i arg1 harg1 arg2 harg2 arg3 harg3 arg4 harg4 arg5 harg5 arg6 harg6 arg7 harg7 arg8 harg8 arg9 harg9 x1 x2 x3 x4 x5 x6).1, y ∈ pc.1.set :=
  View.cover_of_tiledL (kernelRun c i arg1 harg1 arg2 harg2 arg3 harg3 arg4 harg4 arg5 harg5 arg6 harg6 arg7 harg7 arg8 harg8 arg9 harg9 x1 x2 x3 x4 x5 x6).1 S256x1.size (by sl_kernel_rfl) y
theorem cover7 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) (y : S256x1.Idx) :
    ∃ pc ∈ (kernelRun c i arg1 harg1 arg2 harg2 arg3 harg3 arg4 harg4 arg5 harg5 arg6 harg6 arg7 harg7 arg8 harg8 arg9 harg9 x1 x2 x3 x4 x5 x6).2.1, y ∈ pc.1.set :=
  View.cover_of_tiledL (kernelRun c i arg1 harg1 arg2 harg2 arg3 harg3 arg4 harg4 arg5 harg5 arg6 harg6 arg7 harg7 arg8 harg8 arg9 harg9 x1 x2 x3 x4 x5 x6).2.1 S256x1.size (by sl_kernel_rfl) y

/-- What the run leaves in each output block: its piece read back over anything. -/
def out6 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) : Vec F S256x1 .f32 :=
  VO6.read (Elt F) (VO6.writes (Elt F) VO6.junk (kernelRun c i arg1 harg1 arg2 harg2 arg3 harg3 arg4 harg4 arg5 harg5 arg6 harg6 arg7 harg7 arg8 harg8 arg9 harg9 x1 x2 x3 x4 x5 x6).1)
def out7 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) : Vec F S256x1 .f32 :=
  VO7.read (Elt F) (VO7.writes (Elt F) VO7.junk (kernelRun c i arg1 harg1 arg2 harg2 arg3 harg3 arg4 harg4 arg5 harg5 arg6 harg6 arg7 harg7 arg8 harg8 arg9 harg9 x1 x2 x3 x4 x5 x6).2.1)

/-- The two output blocks after the body at point t. -/
def outsAt6 (c : Dev nD) (t : Fin cfg0.N) : Vec F S256x1 .f32 :=
  out6 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM (iblk V c 0 t) (iblk V c 1 t) (iblk V c 2 t) (iblk V c 3 t) (iblk V c 4 t) (iblk V c 5 t)
def outsAt7 (c : Dev nD) (t : Fin cfg0.N) : Vec F S256x1 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM (iblk V c 0 t) (iblk V c 1 t) (iblk V c 2 t) (iblk V c 3 t) (iblk V c 4 t) (iblk V c 5 t)

/-! ## The proof data -/

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outsAt6 V c t
    | ⟨7, _⟩ => outsAt7 V c t
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats V c).A w = V c (Pipeline.arrRef spec0 w) := by dsimp only [dats]
theorem after0 (c : Dev nD) (t : Fin cfg0.N) : (dats V c).after 0 t = iblk V c 0 t := by dsimp only [dats]
theorem after1 (c : Dev nD) (t : Fin cfg0.N) : (dats V c).after 1 t = iblk V c 1 t := by dsimp only [dats]
theorem after2 (c : Dev nD) (t : Fin cfg0.N) : (dats V c).after 2 t = iblk V c 2 t := by dsimp only [dats]
theorem after3 (c : Dev nD) (t : Fin cfg0.N) : (dats V c).after 3 t = iblk V c 3 t := by dsimp only [dats]
theorem after4 (c : Dev nD) (t : Fin cfg0.N) : (dats V c).after 4 t = iblk V c 4 t := by dsimp only [dats]
theorem after5 (c : Dev nD) (t : Fin cfg0.N) : (dats V c).after 5 t = iblk V c 5 t := by dsimp only [dats]
theorem after6 (c : Dev nD) (t : Fin cfg0.N) : (dats V c).after 6 t = outsAt6 V c t := by dsimp only [dats]
theorem after7 (c : Dev nD) (t : Fin cfg0.N) : (dats V c).after 7 t = outsAt7 V c t := by dsimp only [dats]

/-- Each input window's current buffer holds its block at every point, fetched there or not. -/
theorem before0 (c : Dev nD) (t : Fin cfg0.N) (d) : (dats V c).before 0 t d = iblk V c 0 t :=
  ((dats V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats V c).before 1 t d = iblk V c 1 t :=
  ((dats V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats V c).before 2 t d = iblk V c 2 t :=
  ((dats V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats V c).before 3 t d = iblk V c 3 t :=
  ((dats V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats V c).before 4 t d = iblk V c 4 t :=
  ((dats V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats V c).before 5 t d = iblk V c 5 t :=
  ((dats V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats V c).Φ t.castSucc ∗ (dats V c).owesAt () t.castSucc
    ∗ (∃ d, owns (c : Thread nD τ) (ms0 t) fullShare ((dats V c).before 0 t d))
    ∗ (∃ d, owns (c : Thread nD τ) (ms1 t) fullShare ((dats V c).before 1 t d))
    ∗ (∃ d, owns (c : Thread nD τ) (ms2 t) fullShare ((dats V c).before 2 t d))
    ∗ (∃ d, owns (c : Thread nD τ) (ms3 t) fullShare ((dats V c).before 3 t d))
    ∗ (∃ d, owns (c : Thread nD τ) (ms4 t) fullShare ((dats V c).before 4 t d))
    ∗ (∃ d, owns (c : Thread nD τ) (ms5 t) fullShare ((dats V c).before 5 t d))
    ∗ (∃ d, owns (c : Thread nD τ) (ms6 t) fullShare ((dats V c).before 6 t d))
    ∗ (∃ d, owns (c : Thread nD τ) (ms7 t) fullShare ((dats V c).before 7 t d)))

def bodyPost (c : Dev nD) (t : Fin cfg0.N) : sProp 𝕄 :=
  iprop((dats V c).Φ t.succ ∗ (dats V c).owesAt () t.succ
    ∗ owns (c : Thread nD τ) (ms0 t) fullShare ((dats V c).after 0 t)
    ∗ owns (c : Thread nD τ) (ms1 t) fullShare ((dats V c).after 1 t)
    ∗ owns (c : Thread nD τ) (ms2 t) fullShare ((dats V c).after 2 t)
    ∗ owns (c : Thread nD τ) (ms3 t) fullShare ((dats V c).after 3 t)
    ∗ owns (c : Thread nD τ) (ms4 t) fullShare ((dats V c).after 4 t)
    ∗ owns (c : Thread nD τ) (ms5 t) fullShare ((dats V c).after 5 t)
    ∗ owns (c : Thread nD τ) (ms6 t) fullShare ((dats V c).after 6 t)
    ∗ owns (c : Thread nD τ) (ms7 t) fullShare ((dats V c).after 7 t))

set_option maxHeartbeats 2000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dats V c).Φ t.succ = (dats V c).Φ t.castSucc from rfl,
    show (dats V c).owesAt () t.succ = (dats V c).owesAt () t.castSucc from rfl,
    after0, after1, after2, after3, after4, after5, after6, after7,
    show (dats V c).Φ t.castSucc = Pipeline.ΦA spec0 c from rfl, PhiA_eq]
  unfold outsAt6 outsAt7
  unfold out6 out7
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ (iblk V c 0 t) (iblk V c 1 t) (iblk V c 2 t) (iblk V c 3 t) (iblk V c 4 t) (iblk V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, ⟨%e6, H6⟩, ⟨%e7, H7⟩, ⟨%e9, H9⟩⟩
  isplitl [H9 Hg]
  · isplitl [H9]
    · unfold owns; iexists _; iexists _; isplitr
      swap; · iexact H9
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 c _ _ _ _ _ _ _ _ _ _ _ _ _ _ _ _ _ _ _ _ _ _ _ _ _)
  unfold owns; iexists _; isplitr
  swap; · iexact H7
  ipureintro; exact View.read_writes_of_cover _ _ _ _ _ (cover7 c _ _ _ _ _ _ _ _ _ _ _ _ _ _ _ _ _ _ _ _ _ _ _ _ _)

/-- The library's body obligation, at every point. -/
theorem body_obligation (c : Dev nD) : BodyObligation (dats (F := F) V c) (defs₀ (F := F)) Variants.none () Set.univ := fun t => by
  rw [bigSep_W0, bigSep_W0]
  exact sound_body V c t

end Cert.KernelIdeal.Hand

end
-- ==== Proof.IdealLaunch.lean ====
/-
  The launch of the kernel's @main around its one kernel region, for any proof data of the region, when two windows of
  the region read one array.

  @main is a stretch of host operations, the kernel region, and three more stretches. The region's windows 0 and 1 are
  both on the embeddings' buffer (the row block and the resident column operand); its windows 6 and 7 are the two outputs.
  The run is stated segment by segment: every unscoped buffer of the core is held whole at a valuation of the buffers
  (the contents at that boundary), beside the generator register and the statement that the core owes nothing.

  * At the region's entry the buffers behind the windows' arrays are seven distinct buffers, each whole at the full share.
    They make the proof data's eight arrays when the embeddings' buffer is dealt by halves to windows 0 and 1: a full
    share is its left half joined with its right half.
  * At the region's exit the same equation read backwards puts the two halves together again (an input array is never
    written, so both windows hold it at the entry contents), and the two output buffers hold what the write-backs leave.
    Every other buffer holds what it held at entry.
  * The contents at the return are those after the three remaining stretches; the two arguments are written by no host
    operation and by no write-back, so they end as launched.
-/
import proofs.«119205_j1864015806540_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers when the kernel region is entered: the launch contents after the first stretch of host operations. -/
def W0 (c : Dev nD) : Valuation τ sig (Elt F) :=
  StableHlo.after (Gen.hostOps0 (F := F)) (fun b => m ((c : Dev nD), b))
/-- The same read at the TensorCore's references. -/
def V (c : Dev nD) (b : Ref sig .tc) : Buf (Elt F) ((c : Thread nD τ).loc b) := W0 m c (Proc.devRef .tc b)

variable (dat : (c : Dev nD) → Pipeline.Dat τ (Elt F) Unit ℕ (UR sig nD τ) ℕ cfg0 c)

/-- At the region's exit: the two output arrays at what the write-backs leave, every other buffer as entered. -/
def W1 (c : Dev nD) : Valuation τ sig (Elt F) :=
  Function.update (Function.update (W0 m c) (Proc.devRef .tc main_v7_0) ((dat c).arrAt 6 cfg0.N))
    (Proc.devRef .tc main_v7_1) ((dat c).arrAt 7 cfg0.N)
/-- The same read at the TensorCore's references. -/
def V1 (c : Dev nD) (b : Ref sig .tc) : Buf (Elt F) ((c : Thread nD τ).loc b) := W1 m dat c (Proc.devRef .tc b)
/-- At the return: after the three remaining stretches of host operations, one after the other. -/
def W2 (c : Dev nD) : Valuation τ sig (Elt F) :=
  StableHlo.after (Gen.hostOps1_2 (F := F)) (StableHlo.after (Gen.hostOps1_1 (F := F)) (StableHlo.after (Gen.hostOps1 (F := F)) (W1 m dat c)))

theorem v70_ne_v71 : (Proc.devRef .tc main_v7_0 : DevRef τ sig) ≠ Proc.devRef .tc main_v7_1 := StableHlo.devRef_ne_of_ne (by decide)

theorem W1_out7 (c : Dev nD) : W1 m dat c (Proc.devRef .tc main_v7_1) = (dat c).arrAt 7 cfg0.N := by
  unfold W1; exact Function.update_self ..
theorem W1_out6 (c : Dev nD) : W1 m dat c (Proc.devRef .tc main_v7_0) = (dat c).arrAt 6 cfg0.N := by
  unfold W1; rw [Function.update_of_ne v70_ne_v71]; exact Function.update_self ..
theorem W1_of_ne (c : Dev nD) (b : Ref sig .tc) (h6 : b ≠ main_v7_0) (h7 : b ≠ main_v7_1) :
    W1 m dat c (Proc.devRef .tc b) = W0 m c (Proc.devRef .tc b) := by
  unfold W1
  rw [Function.update_of_ne (StableHlo.devRef_ne_of_ne h7), Function.update_of_ne (StableHlo.devRef_ne_of_ne h6)]

/-! ## The windows' arrays and the buffers behind them -/

/-- An input window's array is held at the proof data's own share. -/
theorem share_in (c : Dev nD) (w : Fin 8) (h : (cfg0.win w).isOut = false) : (dat c).share w = (dat c).q w := by
  unfold Pipeline.Dat.share; rw [h]; rfl
/-- An output window's array is held outright. -/
theorem share_out (c : Dev nD) (w : Fin 8) (h : (cfg0.win w).isOut = true) : (dat c).share w = fullShare := by
  unfold Pipeline.Dat.share; rw [h]; rfl

set_option maxHeartbeats 400000 in
/-- The windows' arrays at contents read off a valuation of the references are the seven distinct buffers behind them,
    each whole at the full share: the embeddings' buffer, which two windows read, is held by halves. -/
theorem arrays_eq_arrBufs (hq0 : ∀ c, (dat c).q 0 = fullShare.left) (hq1 : ∀ c, (dat c).q 1 = fullShare.right)
    (hq : ∀ c (w : Fin 8), 2 ≤ w.val → (dat c).q w = fullShare)
    (c : Dev nD) (G : (b : Ref sig .tc) → Buf (Elt F) ((c : Thread nD τ).loc b))
    (Fw : (w : Fin cfg0.W) → Buf (Elt F) ((cfg0.win w).arr.view.loc (c : Thread nD τ)))
    (hF : ∀ w, Fw w = G (Pipeline.arrRef spec0 w)) :
    ((dat c).arrays Fw : sProp 𝕄) = Pipeline.arrBufs (Ix := Unit) (Name := ℕ) (U := UR sig nD τ) (Lvl := ℕ) spec0 c G := by
  have h1 : ((dat c).arrays Fw : sProp 𝕄)
      = bigSep Finset.univ fun w : Fin 8 => ((((c : Thread nD τ).loc (Pipeline.arrRef spec0 w)) ↦{(dat c).share w} G (Pipeline.arrRef spec0 w)) : sProp 𝕄) := by
    unfold Pipeline.Dat.arrays
    exact bigSep_congr fun w _ => by rw [(arr_whole0 w).set_eq_univ, hF w]
  rw [h1, bigSep_W0]
  unfold Pipeline.arrBufs
  rw [bigSep_eq_bigSepL_of_eq [main_v2, main_v3, main_v4, main_v5, main_v6, main_v7_0, main_v7_1] (by decide) (by decide)]
  rw [share_in dat c 0 rfl, share_in dat c 1 rfl, share_in dat c 2 rfl, share_in dat c 3 rfl, share_in dat c 4 rfl, share_in dat c 5 rfl,
    share_out dat c 6 rfl, share_out dat c 7 rfl, hq0 c, hq1 c, hq c 2 (by decide), hq c 3 (by decide), hq c 4 (by decide), hq c 5 (by decide)]
  have hsh : ((((c : Thread nD τ).loc main_v2) ↦{fullShare} G main_v2) : sProp 𝕄)
      = iprop((((c : Thread nD τ).loc main_v2) ↦{fullShare.left} G main_v2) ∗ (((c : Thread nD τ).loc main_v2) ↦{fullShare.right} G main_v2)) :=
    BI.equiv_iff.mp ⟨(pointsTo_share (PosShare.mem_left_op_right fullShare)).1, (pointsTo_share (PosShare.mem_left_op_right fullShare)).2⟩
  simp only [bigSepL_cons_cons, bigSepL_singleton]
  rw [hsh]
  exact (BI.equiv_iff.mp ⟨BI.sep_assoc, BI.sep_assoc'⟩).symm

/-- At the exit every window's array holds what the exit contents say: an input's array is never written and was
    entered at the entry contents, which the exit contents keep; the two outputs are the exit contents' by definition. -/
theorem exit_arr (hA : ∀ c w, (dat c).A w = V m c (Pipeline.arrRef spec0 w)) (c : Dev nD) :
    ∀ w : Fin 8, (dat c).arrAt w cfg0.N = V1 m dat c (Pipeline.arrRef spec0 w)
  | 0 => ((dat c).arrAt_in 0 rfl _).trans ((hA c 0).trans (W1_of_ne m dat c main_v2 (by decide) (by decide)).symm)
  | 1 => ((dat c).arrAt_in 1 rfl _).trans ((hA c 1).trans (W1_of_ne m dat c main_v2 (by decide) (by decide)).symm)
  | 2 => ((dat c).arrAt_in 2 rfl _).trans ((hA c 2).trans (W1_of_ne m dat c main_v3 (by decide) (by decide)).symm)
  | 3 => ((dat c).arrAt_in 3 rfl _).trans ((hA c 3).trans (W1_of_ne m dat c main_v4 (by decide) (by decide)).symm)
  | 4 => ((dat c).arrAt_in 4 rfl _).trans ((hA c 4).trans (W1_of_ne m dat c main_v5 (by decide) (by decide)).symm)
  | 5 => ((dat c).arrAt_in 5 rfl _).trans ((hA c 5).trans (W1_of_ne m dat c main_v6 (by decide) (by decide)).symm)
  | 6 => (W1_out6 m dat c).symm
  | 7 => (W1_out7 m dat c).symm
  | ⟨_ + 8, h⟩ => absurd h (Nat.not_lt.2 (Nat.le_add_left _ _))

/-- The buffers that are no window's array hold at the exit what they held at entry. -/
theorem rest_eq (c : Dev nD) :
    (Pipeline.unscopedRest (Ix := Unit) (Name := ℕ) (U := UR sig nD τ) (Lvl := ℕ) spec0 c (V1 m dat c) : sProp 𝕄)
      = Pipeline.unscopedRest (Ix := Unit) (Name := ℕ) (U := UR sig nD τ) (Lvl := ℕ) spec0 c (V m c) := by
  unfold Pipeline.unscopedRest
  exact bigSep_congr fun b hb => by
    have hb' := (Finset.mem_sdiff.mp hb).2
    have h6 : b ≠ main_v7_0 := fun e => hb' (Finset.mem_image.mpr ⟨6, Finset.mem_univ _, (show Pipeline.arrRef spec0 6 = main_v7_0 from rfl).trans e.symm⟩)
    have h7 : b ≠ main_v7_1 := fun e => hb' (Finset.mem_image.mpr ⟨7, Finset.mem_univ _, (show Pipeline.arrRef spec0 7 = main_v7_1 from rfl).trans e.symm⟩)
    exact congrArg (fun x => ((((c : Thread nD τ).loc b) ↦{fullShare} x) : sProp 𝕄)) (W1_of_ne m dat c b h6 h7)

/-! ## The arguments end as launched -/

theorem W0_keeps (c : Dev nD) (r : Ref sig .tc) (h : r ∉ [main_v0, main_cst, main_v1, main_v2, main_v3, main_v4, main_v5, main_v6]) :
    W0 m c (Proc.devRef .tc r) = m ((c : Thread nD τ).loc r) := by
  unfold W0
  exact StableHlo.after_of_writes_sub (W := [main_v0, main_cst, main_v1, main_v2, main_v3, main_v4, main_v5, main_v6]) _ _
    (by simp only [hostOps0, List.Forall, StableHlo.nullary_writes, StableHlo.unary_writes, StableHlo.binary_writes, StableHlo.ternary_writes, StableHlo.reshape_writes]; decide) h

theorem W2_keeps (c : Dev nD) (r : Ref sig .tc)
    (h : r ∉ [main_v8, main_v9, main_cst_0, main_v10, main_v11, main_v12, main_cst_1, main_v13, main_v14, main_v15, main_cst_2, main_v16, main_v17,
      main_cst_3, main_v18, main_v19, main_v20, main_cst_4, main_call0_v0, main_call0_v1, main_v21, main_v22, main_c, main_v23, main_cst_5, main_v24,
      main_c_6, main_v25, main_v26, main_v27]) :
    W2 m dat c (Proc.devRef .tc r) = W1 m dat c (Proc.devRef .tc r) := by
  unfold W2
  have hW : ∀ ops : List (HloOp τ sig (Elt F)), (ops.Forall fun op => op.writes ⊆ (([main_v8, main_v9, main_cst_0, main_v10, main_v11, main_v12, main_cst_1, main_v13, main_v14, main_v15, main_cst_2, main_v16, main_v17,
      main_cst_3, main_v18, main_v19, main_v20, main_cst_4, main_call0_v0, main_call0_v1, main_v21, main_v22, main_c, main_v23, main_cst_5, main_v24,
      main_c_6, main_v25, main_v26, main_v27] : List (Ref sig .tc)).map (Proc.devRef (τ := τ) .tc)).toFinset) →
      ∀ X : Valuation τ sig (Elt F), StableHlo.after ops X (Proc.devRef .tc r) = X (Proc.devRef .tc r) :=
    fun ops hops X => StableHlo.after_of_writes_sub ops X hops h
  rw [hW hostOps1_2 (by simp only [hostOps1_2, List.Forall, StableHlo.nullary_writes, StableHlo.unary_writes, StableHlo.binary_writes, StableHlo.ternary_writes, StableHlo.reshape_writes]; decide),
    hW hostOps1_1 (by simp only [hostOps1_1, List.Forall, StableHlo.nullary_writes, StableHlo.unary_writes, StableHlo.binary_writes, StableHlo.ternary_writes, StableHlo.reshape_writes]; decide),
    hW hostOps1 (by simp only [hostOps1, List.Forall, StableHlo.nullary_writes, StableHlo.unary_writes, StableHlo.binary_writes, StableHlo.ternary_writes, StableHlo.reshape_writes]; decide)]

theorem W2_main_arg0 (c : Dev nD) : W2 m dat c (Proc.devRef .tc main_arg0) = m ((c : Thread nD τ).loc main_arg0) :=
  (W2_keeps m dat c main_arg0 (by decide)).trans ((W1_of_ne m dat c main_arg0 (by decide) (by decide)).trans (W0_keeps m c main_arg0 (by decide)))
theorem W2_main_arg1 (c : Dev nD) : W2 m dat c (Proc.devRef .tc main_arg1) = m ((c : Thread nD τ).loc main_arg1) :=
  (W2_keeps m dat c main_arg1 (by decide)).trans ((W1_of_ne m dat c main_arg1 (by decide) (by decide)).trans (W0_keeps m c main_arg1 (by decide)))

/-! ## The proof data family and the thread state -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The prefetched tables' admissible contents: the pipeline has no table. -/
abbrev adm : (p : Fin 1) → (pcfgs (F := F) p).Adm := fun p => (cfgs p).toPCfg_adm
/-- The one pipeline's proof data, as a literal `match` so that the pinned configuration at the numeral reduces to the
    printed one. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers up to the region: the generator register at some state, and the core owing nothing with
    no wait recorded (so that the region's bound on the recorded waits holds whatever it is). -/
abbrev R0 (c : Dev nD) : sProp 𝕄 := iprop((∃ r, prngReg c r) ∗ owes (c : Thread nD τ) (0 : CellTallies nD τ sig Unit) ∅)
/-- What rides beside the buffers after the region: the generator register at some state, the core owing nothing. -/
abbrev R (c : Dev nD) : sProp 𝕄 := iprop((∃ r, prngReg c r) ∗ ∃ W, owes (c : Thread nD τ) (0 : CellTallies nD τ sig Unit) W)

/-- A stretch of host operations as a segment: over the unscoped references from the contents `W`, `R` riding along;
    it leaves those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the contents at the return, the generator
    register at some state. -/
abbrev Tₙ (c : Dev nD) : sProp 𝕄 := iprop(StableHlo.held (c : Thread nD τ) (Pipeline.ucRefs τ sig) (W2 m dat c) ∗ ∃ r, prngReg c r)

/-- Every unscoped buffer held at a valuation is the seven buffers behind the windows' arrays and the rest. -/
theorem held_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W (Proc.devRef .tc b))
          ∗ Pipeline.unscopedRest (Ix := Unit) (Name := ℕ) (U := UR sig nD τ) (Lvl := ℕ) spec0 c (fun b => W (Proc.devRef .tc b))) :=
  (Pipeline.unscopedBufs_held c W).symm.trans (Pipeline.unscopedBufs_split₀ cfgs 0 winFacts₀0.arr_unscoped c (fun b => W (Proc.devRef .tc b)))

/-! ## The region as a segment -/

variable (hA : ∀ c w, (dat c).A w = V m c (Pipeline.arrRef spec0 w))
    (hq0 : ∀ c, (dat c).q 0 = fullShare.left) (hq1 : ∀ c, (dat c).q 1 = fullShare.right)
    (hq : ∀ c (w : Fin 8), 2 ≤ w.val → (dat c).q w = fullShare)
    (hΦ : ∀ c t, (dat c).Φ t = Pipeline.ΦA spec0 c) (howed : ∀ c t, (dat c).owed t = 0)
    (hbody : ∀ c, Pipeline.BodyObligation (dat c) (defs₀ (F := F)) Variants.none () Set.univ)

set_option backward.isDefEq.respectTransparency.types false in
/-- The kernel region over the thread state: entered from every unscoped buffer at the entry contents, left at the exit
    contents. The arrays are split out of the unscoped buffers at entry and put back at exit, the embeddings' buffer by
    halves; the generator register goes into the class invariant and comes back; nothing is owed; the kernel has no
    semaphore of its own. -/
def reg0 : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W0 m c) ∗ R0 c)
  post c := iprop(StableHlo.held (c : Thread nD τ) (Pipeline.ucRefs τ sig) (W1 m dat c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := (Entails.of_eq (held_split c (W0 m c))) $$ Hub
    icases H with ⟨Ha, Hrest⟩
    imodintro
    isplitl [Ha]
    · iapply (Entails.of_eq (arrays_eq_arrBufs dat hq0 hq1 hq c (V m c) (fun w => (dat c).arrAt w 0) (hA c)).symm); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat 0 c).owed 0 = 0 from howed c 0]
      iexists ∅; isplitr; · ipureintro; simp
      iexact HO
    isplitl [Hp]; · iexact Hp
    iexact Hrest
  hin c := by
    rw [show (pdats dat 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats dat 0 c).Φ (Fin.last _) = Pipeline.ΦA spec0 c from hΦ c _]; unfold Pipeline.ΦA
    iintro ⟨Hr, Hp⟩
    isplitl [Hp]; · iexact Hp
    isplitr; · iempintro
    iexact Hr
  hexit c := by
    unfold Pipeline.Dat.owesAt Pipeline.owesWithin
    rw [show (pdats dat 0 c).owed (Fin.last _) = 0 from howed c _]
    iintro ⟨Ha, HO, HY, Hrest⟩
    imodintro
    isplitl [Ha Hrest]
    · iapply (Entails.of_eq (held_split c (W1 m dat c)).symm)
      isplitl [Ha]
      · iapply (Entails.of_eq (arrays_eq_arrBufs dat hq0 hq1 hq c (V1 m dat c) (fun w => (dat c).arrAt w cfg0.N) (exit_arr m dat hA c))); iexact Ha
      · iapply (Entails.of_eq (rest_eq m dat c).symm); iexact Hrest
    isplitl [HY]; · iexact HY
    icases HO with ⟨%W, -, HO⟩; iexists W; iexact HO

/-! ## @main as segments, and the launch -/

/-- @main's five segments in order. -/
abbrev segs : List (Pipeline.Seg (pcfgs (F := F)) adm (pdats dat) () defs₀ 𝒱₀ L lv) :=
  [ .host (hseg hostOps0 hostOps0_sub hostOps0_fresh (fun c b => m ((c : Dev nD), b)) R0),
    .region (reg0 m dat hA hq0 hq1 hq hΦ howed hbody),
    .host (hseg hostOps1 hostOps1_sub hostOps1_fresh (W1 m dat) R),
    .host (hseg hostOps1_1 hostOps1_1_sub hostOps1_1_fresh (fun c => StableHlo.after (Gen.hostOps1 (F := F)) (W1 m dat c)) R),
    .host (hseg hostOps1_2 hostOps1_2_sub hostOps1_2_fresh (fun c => StableHlo.after (Gen.hostOps1_1 (F := F)) (StableHlo.after (Gen.hostOps1 (F := F)) (W1 m dat c))) R) ]

/-- @main is the run of the segments. -/
theorem main_run (c : Dev nD) : main (F := F) c = Pipeline.Seg.run (segs m dat hA hq0 hq1 hq hΦ howed hbody) := (main_chain c).trans (by chain_rfl)

set_option backward.isDefEq.respectTransparency.types false in
include hA hq0 hq1 hq hΦ howed hbody in
/-- THE RUN: from any memory with zero counters every weakly fair execution of @main on the TensorCores terminates, nothing
    faulting, and every final state has the result buffer at the contents at the return and the two arguments as launched. -/
theorem run_of_dat :
    θ_run (defs (F := F)) (onTc (τ := τ) (main (F := F))) ⟨m, fun _ => 0, ρ⟩ (fun r => ∀ c : Dev nD,
      r.2.mem ((c.tc : Thread nD τ).loc main_v27) = W2 m dat c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats dat) () cellOf_inj emb₁ defs₀ 𝒱₀ L lv m ρ main (segs m dat hA hq0 hq1 hq hΦ howed hbody)
    (fun c Q => by rw [main_run m dat hA hq0 hq1 hq hΦ howed hbody c])
    (by simp only [segs, Pipeline.Seg.pipes, List.filterMap, Pipeline.Seg.pipe?]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m ((c : Dev nD), b)) ∗ R0 c)) (Tₙ := Tₙ m dat)
    (hch := ⟨fun _ => .rfl, fun _ => .rfl, fun _ => .rfl, fun _ => .rfl, fun _ => .rfl, fun c => by
      show iprop(StableHlo.held (c : Thread nD τ) (Pipeline.ucRefs τ sig) (W2 m dat c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W2 m dat c b)
    (hfin := fun c s' => by
      iintro ⟨⟨Hh, -⟩, HSI⟩
      unfold StableHlo.held
      imodintro
      iapply (pointsTo_read_all (Pipeline.ucRefs τ sig) (fun b => (((c : Thread nD τ)).1, b)) (W2 m dat c) s')
      isplitl [Hh] <;> iassumption)
    (hQ := fun s h c =>
      ⟨h c _ (mem_uc main_v27 (by decide)),
       (h c _ (mem_uc main_arg0 (by decide))).trans (W2_main_arg0 m dat c),
       (h c _ (mem_uc main_arg1 (by decide))).trans (W2_main_arg1 m dat c)⟩)

/-- info: 'Cert.KernelIdeal.Hand.run_of_dat' depends on axioms: [propext, Classical.choice, Quot.sound] -/
#guard_msgs in #print axioms run_of_dat

end Cert.KernelIdeal.Hand

end
-- ==== Proof.BitsBody.lean ====
/-
  The body of the word-level kernel (floats as their bit patterns, every operation on the patterns) at one anchor row
  block, as far as a frame needs it. Holding the six input blocks — the 256 anchor rows and all 8192 rows of the embeddings,
  the anchors' squared norms as a column and all squared norms as a row, the anchors' labels as a column and all labels as
  a row —, the two output blocks and the 256 × 8192 distance scratch, the body runs two passes of eight column chunks each:
  the first stores chunk k of the distances ‖xᵢ‖² + ‖xⱼ‖² − 2 xᵢ·xⱼ into the scratch and adds the chunk's sum of exp over
  the differently labelled columns to a carried column; the second reads the chunk back and adds to two carried columns the
  chunk's sum of log1p(Z·exp(−D)) and its count over the same-label columns j > i; then the two columns are stored into the
  output blocks.
  Stated here, at any float instance: from those nine buffers the body runs to its end, nothing faulting, every access
  inside its buffer; the six inputs come back as they were, the two outputs and the scratch at some contents. Both loops go
  through their invariants (one trip at a symbolic chunk). What the outputs then hold is not named here.
-/
import proofs.«119205_j1864015806540_2_alg».proof.Proof.Gen.Kernel.Launch
import proofs.«119205_j1864015806540_2_alg».proof.Proof.Gen.Kernel.Skeleton
import proofs.«119205_j1864015806540_2_alg».proof.Proof.Gen.Kernel.Loops
import proofs.«119205_j1864015806540_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body runs: inputs back as they were, the outputs and the scratch at some contents. -/
theorem body_runs (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ f, arg7.view.loc (c : Thread nD τ) ↦[arg7.view.set]{fullShare} f)
            ∗ (∃ f, arg8.view.loc (c : Thread nD τ) ↦[arg8.view.set]{fullShare} f)
            ∗ (∃ f, arg9.view.loc (c : Thread nD τ) ↦[arg9.view.set]{fullShare} f)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; iexact H7
  isplitl [H8]
  · iexists _; iexact H8
  iexists _; iexact H9

end Cert.Kernel.Hand

end
-- ==== Proof.BitsRun.lean ====
/-
  The body of the word-level kernel at one anchor row block, with what it leaves in the two output blocks NAMED. The body
  goes through its two passes by their invariants, and the run records the two pieces it stores at the end, each a whole
  256 × 1 column: the carried sum and the carried count of the second pass. Those carried values are stated over the
  scratch as the first pass left it, "its eight chunks written over what the scratch held before". The eight chunks,
  columns [1024 k, 1024 k + 1024) for k < 8, tile the 256 × 8192 scratch, so what it held before does not matter: the
  scratch after the first pass is the chunks written over anything, and the names of the two pieces mention only the
  six input blocks and the grid point.
-/
import proofs.«119205_j1864015806540_2_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer filled by covering pieces holds the same whatever it held before. -/
theorem writes_of_cover {sp : Space} {S : Shape} {e : EltTy} (M : Memref sig .tc sp S e) (hM : M.IsWhole) (f : M.view.ty.Contents (Elt F))
    (L : List (View.Piece (Elt F) S e)) (h : ∀ y, ∃ p ∈ L, y ∈ p.1.set) :
    M.view.writes (Elt F) f L = hM.unread (M.view.read (Elt F) (M.view.writes (Elt F) M.view.junk L)) :=
  hM.eq_unread (View.read_writes_of_cover M.view f M.view M.view.junk L h)

set_option maxHeartbeats 4000000 in
/-- The pieces the body leaves in the two output blocks, with the run that finds them. -/
noncomputable def kernelRun (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) :
    Σ' (L7 : List (View.Piece (Elt F) S256x1 .f32)), { L8 : List (View.Piece (Elt F) S256x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} f)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9) K } := by
  refine ⟨?_, ?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    -- the scratch after the first pass: its eight chunks cover it
    rw [writes_of_cover arg9 harg9 f9 _ (View.cover_of_tiledL _ S256x1024.size (by sl_kernel_rfl))]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.Kernel.Hand

end
-- ==== Proof.BitsData.lean ====
/-
  The proof data of the word-level kernel's one pipeline, for any contents `V` of the buffers when the region is entered:
  the windows' arrays are `V`'s; after the body at grid point t each input window's buffer still holds its block of the
  array (the 256 anchor rows at t for the row windows, the whole array for the three resident ones), and the two output
  windows' buffers hold the column the run stored (read back over anything: the one piece covers the 256 × 1 block); the
  invariant is the scratch at some contents beside the generator register; the two windows on the embeddings' array hold
  it at the two halves of the full share. The body obligation at a point is the run at that point's buffers and blocks.
-/
import proofs.«119205_j1864015806540_2_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8192 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1 .f32 := win0_7.stage (cfg0.slots t 7)
abbrev hs7 (t : Fin cfg0.N) : (ms7 t).IsWhole := hstage0_7 ((cfg0.slots t 7).cast nbuf0_7)
/-- The distance scratch. -/
abbrev scM : Memref sig .tc .vmem S256x8192 .f32 := Memref.whole cc0_scratch0
abbrev hscM : (scM).IsWhole := Memref.isWhole_whole _
/-- One staging buffer of each output window, through which its contents are stated (the choice does not matter). -/
abbrev VO6 : View sig .tc .vmem S256x1 .f32 := (Memref.whole cc0_stg6_0 : Memref sig .tc .vmem S256x1 .f32).view
abbrev VO7 : View sig .tc .vmem S256x1 .f32 := (Memref.whole cc0_stg7_0 : Memref sig .tc .vmem S256x1 .f32).view

/-- The class invariant opened: the scratch whole at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body leaves in the output windows -/

/-- The one piece stored into each output block covers it. -/
theorem cover6 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) (y : S256x1.Idx) :
    ∃ pc ∈ (kernelRun c i arg1 harg1 arg2 harg2 arg3 harg3 arg4 harg4 arg5 harg5 arg6 harg6 arg7 harg7 arg8 harg8 arg9 harg9 x1 x2 x3 x4 x5 x6).1, y ∈ pc.1.set :=
  View.cover_of_tiledL (kernelRun c i arg1 harg1 arg2 harg2 arg3 harg3 arg4 harg4 arg5 harg5 arg6 harg6 arg7 harg7 arg8 harg8 arg9 harg9 x1 x2 x3 x4 x5 x6).1 S256x1.size (by sl_kernel_rfl) y
theorem cover7 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) (y : S256x1.Idx) :
    ∃ pc ∈ (kernelRun c i arg1 harg1 arg2 harg2 arg3 harg3 arg4 harg4 arg5 harg5 arg6 harg6 arg7 harg7 arg8 harg8 arg9 harg9 x1 x2 x3 x4 x5 x6).2.1, y ∈ pc.1.set :=
  View.cover_of_tiledL (kernelRun c i arg1 harg1 arg2 harg2 arg3 harg3 arg4 harg4 arg5 harg5 arg6 harg6 arg7 harg7 arg8 harg8 arg9 harg9 x1 x2 x3 x4 x5 x6).2.1 S256x1.size (by sl_kernel_rfl) y

/-- What the run leaves in each output block: its piece read back over anything. -/
def out6 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) : Vec F S256x1 .f32 :=
  VO6.read (Elt F) (VO6.writes (Elt F) VO6.junk (kernelRun c i arg1 harg1 arg2 harg2 arg3 harg3 arg4 harg4 arg5 harg5 arg6 harg6 arg7 harg7 arg8 harg8 arg9 harg9 x1 x2 x3 x4 x5 x6).1)
def out7 (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
    (x1 : Vec F S256x128 .bf16) (x2 : Vec F S8192x128 .bf16) (x3 : Vec F S256x1 .f32) (x4 : Vec F S1x8192 .f32) (x5 : Vec F S256x1 .i32) (x6 : Vec F S1x8192 .i32) : Vec F S256x1 .f32 :=
  VO7.read (Elt F) (VO7.writes (Elt F) VO7.junk (kernelRun c i arg1 harg1 arg2 harg2 arg3 harg3 arg4 harg4 arg5 harg5 arg6 harg6 arg7 harg7 arg8 harg8 arg9 harg9 x1 x2 x3 x4 x5 x6).2.1)

/-- The two output blocks after the body at point t. -/
def outsAt6 (c : Dev nD) (t : Fin cfg0.N) : Vec F S256x1 .f32 :=
  out6 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM (iblk V c 0 t) (iblk V c 1 t) (iblk V c 2 t) (iblk V c 3 t) (iblk V c 4 t) (iblk V c 5 t)
def outsAt7 (c : Dev nD) (t : Fin cfg0.N) : Vec F S256x1 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM hscM (iblk V c 0 t) (iblk V c 1 t) (iblk V c 2 t) (iblk V c 3 t) (iblk V c 4 t) (iblk V c 5 t)

/-! ## The proof data -/

def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outsAt6 V c t
    | ⟨7, _⟩ => outsAt7 V c t
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats V c).A w = V c (Pipeline.arrRef spec0 w) := by dsimp only [dats]
theorem after0 (c : Dev nD) (t : Fin cfg0.N) : (dats V c).after 0 t = iblk V c 0 t := by dsimp only [dats]
theorem after1 (c : Dev nD) (t : Fin cfg0.N) : (dats V c).after 1 t = iblk V c 1 t := by dsimp only [dats]
theorem after2 (c : Dev nD) (t : Fin cfg0.N) : (dats V c).after 2 t = iblk V c 2 t := by dsimp only [dats]
theorem after3 (c : Dev nD) (t : Fin cfg0.N) : (dats V c).after 3 t = iblk V c 3 t := by dsimp only [dats]
theorem after4 (c : Dev nD) (t : Fin cfg0.N) : (dats V c).after 4 t = iblk V c 4 t := by dsimp only [dats]
theorem after5 (c : Dev nD) (t : Fin cfg0.N) : (dats V c).after 5 t = iblk V c 5 t := by dsimp only [dats]
theorem after6 (c : Dev nD) (t : Fin cfg0.N) : (dats V c).after 6 t = outsAt6 V c t := by dsimp only [dats]
theorem after7 (c : Dev nD) (t : Fin cfg0.N) : (dats V c).after 7 t = outsAt7 V c t := by dsimp only [dats]

/-- Each input window's current buffer holds its block at every point, fetched there or not. -/
theorem before0 (c : Dev nD) (t : Fin cfg0.N) (d) : (dats V c).before 0 t d = iblk V c 0 t :=
  ((dats V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats V c).before 1 t d = iblk V c 1 t :=
  ((dats V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats V c).before 2 t d = iblk V c 2 t :=
  ((dats V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats V c).before 3 t d = iblk V c 3 t :=
  ((dats V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats V c).before 4 t d = iblk V c 4 t :=
  ((dats V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats V c).before 5 t d = iblk V c 5 t :=
  ((dats V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats V c).Φ t.castSucc ∗ (dats V c).owesAt () t.castSucc
    ∗ (∃ d, owns (c : Thread nD τ) (ms0 t) fullShare ((dats V c).before 0 t d))
    ∗ (∃ d, owns (c : Thread nD τ) (ms1 t) fullShare ((dats V c).before 1 t d))
    ∗ (∃ d, owns (c : Thread nD τ) (ms2 t) fullShare ((dats V c).before 2 t d))
    ∗ (∃ d, owns (c : Thread nD τ) (ms3 t) fullShare ((dats V c).before 3 t d))
    ∗ (∃ d, owns (c : Thread nD τ) (ms4 t) fullShare ((dats V c).before 4 t d))
    ∗ (∃ d, owns (c : Thread nD τ) (ms5 t) fullShare ((dats V c).before 5 t d))
    ∗ (∃ d, owns (c : Thread nD τ) (ms6 t) fullShare ((dats V c).before 6 t d))
    ∗ (∃ d, owns (c : Thread nD τ) (ms7 t) fullShare ((dats V c).before 7 t d)))

def bodyPost (c : Dev nD) (t : Fin cfg0.N) : sProp 𝕄 :=
  iprop((dats V c).Φ t.succ ∗ (dats V c).owesAt () t.succ
    ∗ owns (c : Thread nD τ) (ms0 t) fullShare ((dats V c).after 0 t)
    ∗ owns (c : Thread nD τ) (ms1 t) fullShare ((dats V c).after 1 t)
    ∗ owns (c : Thread nD τ) (ms2 t) fullShare ((dats V c).after 2 t)
    ∗ owns (c : Thread nD τ) (ms3 t) fullShare ((dats V c).after 3 t)
    ∗ owns (c : Thread nD τ) (ms4 t) fullShare ((dats V c).after 4 t)
    ∗ owns (c : Thread nD τ) (ms5 t) fullShare ((dats V c).after 5 t)
    ∗ owns (c : Thread nD τ) (ms6 t) fullShare ((dats V c).after 6 t)
    ∗ owns (c : Thread nD τ) (ms7 t) fullShare ((dats V c).after 7 t))

set_option maxHeartbeats 2000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dats V c).Φ t.succ = (dats V c).Φ t.castSucc from rfl,
    show (dats V c).owesAt () t.succ = (dats V c).owesAt () t.castSucc from rfl,
    after0, after1, after2, after3, after4, after5, after6, after7,
    show (dats V c).Φ t.castSucc = Pipeline.ΦA spec0 c from rfl, PhiA_eq]
  unfold outsAt6 outsAt7
  unfold out6 out7
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ (iblk V c 0 t) (iblk V c 1 t) (iblk V c 2 t) (iblk V c 3 t) (iblk V c 4 t) (iblk V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, ⟨%e6, H6⟩, ⟨%e7, H7⟩, ⟨%e9, H9⟩⟩
  isplitl [H9 Hg]
  · isplitl [H9]
    · unfold owns; iexists _; iexists _; isplitr
      swap; · iexact H9
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 c _ _ _ _ _ _ _ _ _ _ _ _ _ _ _ _ _ _ _ _ _ _ _ _ _)
  unfold owns; iexists _; isplitr
  swap; · iexact H7
  ipureintro; exact View.read_writes_of_cover _ _ _ _ _ (cover7 c _ _ _ _ _ _ _ _ _ _ _ _ _ _ _ _ _ _ _ _ _ _ _ _ _)

/-- The library's body obligation, at every point. -/
theorem body_obligation (c : Dev nD) : BodyObligation (dats (F := F) V c) (defs₀ (F := F)) Variants.none () Set.univ := fun t => by
  rw [bigSep_W0, bigSep_W0]
  exact sound_body V c t

end Cert.Kernel.Hand

end
-- ==== Proof.BitsLaunch.lean ====
/-
  The launch of the word-level kernel's @main around its one kernel region, for any proof data of the region, when two
  windows of the region read one array.

  @main is a stretch of host operations, the kernel region, and three more stretches. The region's windows 0 and 1 are
  both on the embeddings' buffer (the row block and the resident column operand); its windows 6 and 7 are the two outputs.
  The run is stated segment by segment: every unscoped buffer of the core is held whole at a valuation of the buffers
  (the contents at that boundary), beside the generator register and the statement that the core owes nothing.

  * At the region's entry the buffers behind the windows' arrays are seven distinct buffers, each whole at the full share.
    They make the proof data's eight arrays when the embeddings' buffer is dealt by halves to windows 0 and 1: a full
    share is its left half joined with its right half.
  * At the region's exit the same equation read backwards puts the two halves together again (an input array is never
    written, so both windows hold it at the entry contents), and the two output buffers hold what the write-backs leave.
    Every other buffer holds what it held at entry.
  * The contents at the return are those after the three remaining stretches; the two arguments are written by no host
    operation and by no write-back, so they end as launched.
-/
import proofs.«119205_j1864015806540_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers when the kernel region is entered: the launch contents after the first stretch of host operations. -/
def W0 (c : Dev nD) : Valuation τ sig (Elt F) :=
  StableHlo.after (Gen.hostOps0 (F := F)) (fun b => m ((c : Dev nD), b))
/-- The same read at the TensorCore's references. -/
def V (c : Dev nD) (b : Ref sig .tc) : Buf (Elt F) ((c : Thread nD τ).loc b) := W0 m c (Proc.devRef .tc b)

variable (dat : (c : Dev nD) → Pipeline.Dat τ (Elt F) Unit ℕ (UR sig nD τ) ℕ cfg0 c)

/-- At the region's exit: the two output arrays at what the write-backs leave, every other buffer as entered. -/
def W1 (c : Dev nD) : Valuation τ sig (Elt F) :=
  Function.update (Function.update (W0 m c) (Proc.devRef .tc main_v7_0) ((dat c).arrAt 6 cfg0.N))
    (Proc.devRef .tc main_v7_1) ((dat c).arrAt 7 cfg0.N)
/-- The same read at the TensorCore's references. -/
def V1 (c : Dev nD) (b : Ref sig .tc) : Buf (Elt F) ((c : Thread nD τ).loc b) := W1 m dat c (Proc.devRef .tc b)
/-- At the return: after the three remaining stretches of host operations, one after the other. -/
def W2 (c : Dev nD) : Valuation τ sig (Elt F) :=
  StableHlo.after (Gen.hostOps1_2 (F := F)) (StableHlo.after (Gen.hostOps1_1 (F := F)) (StableHlo.after (Gen.hostOps1 (F := F)) (W1 m dat c)))

theorem v70_ne_v71 : (Proc.devRef .tc main_v7_0 : DevRef τ sig) ≠ Proc.devRef .tc main_v7_1 := StableHlo.devRef_ne_of_ne (by decide)

theorem W1_out7 (c : Dev nD) : W1 m dat c (Proc.devRef .tc main_v7_1) = (dat c).arrAt 7 cfg0.N := by
  unfold W1; exact Function.update_self ..
theorem W1_out6 (c : Dev nD) : W1 m dat c (Proc.devRef .tc main_v7_0) = (dat c).arrAt 6 cfg0.N := by
  unfold W1; rw [Function.update_of_ne v70_ne_v71]; exact Function.update_self ..
theorem W1_of_ne (c : Dev nD) (b : Ref sig .tc) (h6 : b ≠ main_v7_0) (h7 : b ≠ main_v7_1) :
    W1 m dat c (Proc.devRef .tc b) = W0 m c (Proc.devRef .tc b) := by
  unfold W1
  rw [Function.update_of_ne (StableHlo.devRef_ne_of_ne h7), Function.update_of_ne (StableHlo.devRef_ne_of_ne h6)]

/-! ## The windows' arrays and the buffers behind them -/

/-- An input window's array is held at the proof data's own share. -/
theorem share_in (c : Dev nD) (w : Fin 8) (h : (cfg0.win w).isOut = false) : (dat c).share w = (dat c).q w := by
  unfold Pipeline.Dat.share; rw [h]; rfl
/-- An output window's array is held outright. -/
theorem share_out (c : Dev nD) (w : Fin 8) (h : (cfg0.win w).isOut = true) : (dat c).share w = fullShare := by
  unfold Pipeline.Dat.share; rw [h]; rfl

set_option maxHeartbeats 400000 in
/-- The windows' arrays at contents read off a valuation of the references are the seven distinct buffers behind them,
    each whole at the full share: the embeddings' buffer, which two windows read, is held by halves. -/
theorem arrays_eq_arrBufs (hq0 : ∀ c, (dat c).q 0 = fullShare.left) (hq1 : ∀ c, (dat c).q 1 = fullShare.right)
    (hq : ∀ c (w : Fin 8), 2 ≤ w.val → (dat c).q w = fullShare)
    (c : Dev nD) (G : (b : Ref sig .tc) → Buf (Elt F) ((c : Thread nD τ).loc b))
    (Fw : (w : Fin cfg0.W) → Buf (Elt F) ((cfg0.win w).arr.view.loc (c : Thread nD τ)))
    (hF : ∀ w, Fw w = G (Pipeline.arrRef spec0 w)) :
    ((dat c).arrays Fw : sProp 𝕄) = Pipeline.arrBufs (Ix := Unit) (Name := ℕ) (U := UR sig nD τ) (Lvl := ℕ) spec0 c G := by
  have h1 : ((dat c).arrays Fw : sProp 𝕄)
      = bigSep Finset.univ fun w : Fin 8 => ((((c : Thread nD τ).loc (Pipeline.arrRef spec0 w)) ↦{(dat c).share w} G (Pipeline.arrRef spec0 w)) : sProp 𝕄) := by
    unfold Pipeline.Dat.arrays
    exact bigSep_congr fun w _ => by rw [(arr_whole0 w).set_eq_univ, hF w]
  rw [h1, bigSep_W0]
  unfold Pipeline.arrBufs
  rw [bigSep_eq_bigSepL_of_eq [main_v2, main_v3, main_v4, main_v5, main_v6, main_v7_0, main_v7_1] (by decide) (by decide)]
  rw [share_in dat c 0 rfl, share_in dat c 1 rfl, share_in dat c 2 rfl, share_in dat c 3 rfl, share_in dat c 4 rfl, share_in dat c 5 rfl,
    share_out dat c 6 rfl, share_out dat c 7 rfl, hq0 c, hq1 c, hq c 2 (by decide), hq c 3 (by decide), hq c 4 (by decide), hq c 5 (by decide)]
  have hsh : ((((c : Thread nD τ).loc main_v2) ↦{fullShare} G main_v2) : sProp 𝕄)
      = iprop((((c : Thread nD τ).loc main_v2) ↦{fullShare.left} G main_v2) ∗ (((c : Thread nD τ).loc main_v2) ↦{fullShare.right} G main_v2)) :=
    BI.equiv_iff.mp ⟨(pointsTo_share (PosShare.mem_left_op_right fullShare)).1, (pointsTo_share (PosShare.mem_left_op_right fullShare)).2⟩
  simp only [bigSepL_cons_cons, bigSepL_singleton]
  rw [hsh]
  exact (BI.equiv_iff.mp ⟨BI.sep_assoc, BI.sep_assoc'⟩).symm

/-- At the exit every window's array holds what the exit contents say: an input's array is never written and was
    entered at the entry contents, which the exit contents keep; the two outputs are the exit contents' by definition. -/
theorem exit_arr (hA : ∀ c w, (dat c).A w = V m c (Pipeline.arrRef spec0 w)) (c : Dev nD) :
    ∀ w : Fin 8, (dat c).arrAt w cfg0.N = V1 m dat c (Pipeline.arrRef spec0 w)
  | 0 => ((dat c).arrAt_in 0 rfl _).trans ((hA c 0).trans (W1_of_ne m dat c main_v2 (by decide) (by decide)).symm)
  | 1 => ((dat c).arrAt_in 1 rfl _).trans ((hA c 1).trans (W1_of_ne m dat c main_v2 (by decide) (by decide)).symm)
  | 2 => ((dat c).arrAt_in 2 rfl _).trans ((hA c 2).trans (W1_of_ne m dat c main_v3 (by decide) (by decide)).symm)
  | 3 => ((dat c).arrAt_in 3 rfl _).trans ((hA c 3).trans (W1_of_ne m dat c main_v4 (by decide) (by decide)).symm)
  | 4 => ((dat c).arrAt_in 4 rfl _).trans ((hA c 4).trans (W1_of_ne m dat c main_v5 (by decide) (by decide)).symm)
  | 5 => ((dat c).arrAt_in 5 rfl _).trans ((hA c 5).trans (W1_of_ne m dat c main_v6 (by decide) (by decide)).symm)
  | 6 => (W1_out6 m dat c).symm
  | 7 => (W1_out7 m dat c).symm
  | ⟨_ + 8, h⟩ => absurd h (Nat.not_lt.2 (Nat.le_add_left _ _))

/-- The buffers that are no window's array hold at the exit what they held at entry. -/
theorem rest_eq (c : Dev nD) :
    (Pipeline.unscopedRest (Ix := Unit) (Name := ℕ) (U := UR sig nD τ) (Lvl := ℕ) spec0 c (V1 m dat c) : sProp 𝕄)
      = Pipeline.unscopedRest (Ix := Unit) (Name := ℕ) (U := UR sig nD τ) (Lvl := ℕ) spec0 c (V m c) := by
  unfold Pipeline.unscopedRest
  exact bigSep_congr fun b hb => by
    have hb' := (Finset.mem_sdiff.mp hb).2
    have h6 : b ≠ main_v7_0 := fun e => hb' (Finset.mem_image.mpr ⟨6, Finset.mem_univ _, (show Pipeline.arrRef spec0 6 = main_v7_0 from rfl).trans e.symm⟩)
    have h7 : b ≠ main_v7_1 := fun e => hb' (Finset.mem_image.mpr ⟨7, Finset.mem_univ _, (show Pipeline.arrRef spec0 7 = main_v7_1 from rfl).trans e.symm⟩)
    exact congrArg (fun x => ((((c : Thread nD τ).loc b) ↦{fullShare} x) : sProp 𝕄)) (W1_of_ne m dat c b h6 h7)

/-! ## The arguments end as launched -/

theorem W0_keeps (c : Dev nD) (r : Ref sig .tc) (h : r ∉ [main_v0, main_cst, main_v1, main_v2, main_v3, main_v4, main_v5, main_v6]) :
    W0 m c (Proc.devRef .tc r) = m ((c : Thread nD τ).loc r) := by
  unfold W0
  exact StableHlo.after_of_writes_sub (W := [main_v0, main_cst, main_v1, main_v2, main_v3, main_v4, main_v5, main_v6]) _ _
    (by simp only [hostOps0, List.Forall, StableHlo.nullary_writes, StableHlo.unary_writes, StableHlo.binary_writes, StableHlo.ternary_writes, StableHlo.reshape_writes]; decide) h

theorem W2_keeps (c : Dev nD) (r : Ref sig .tc)
    (h : r ∉ [main_v8, main_v9, main_cst_0, main_v10, main_v11, main_v12, main_cst_1, main_v13, main_v14, main_v15, main_cst_2, main_v16, main_v17,
      main_cst_3, main_v18, main_v19, main_v20, main_cst_4, main_call0_v0, main_call0_v1, main_v21, main_v22, main_c, main_v23, main_cst_5, main_v24,
      main_c_6, main_v25, main_v26, main_v27]) :
    W2 m dat c (Proc.devRef .tc r) = W1 m dat c (Proc.devRef .tc r) := by
  unfold W2
  have hW : ∀ ops : List (HloOp τ sig (Elt F)), (ops.Forall fun op => op.writes ⊆ (([main_v8, main_v9, main_cst_0, main_v10, main_v11, main_v12, main_cst_1, main_v13, main_v14, main_v15, main_cst_2, main_v16, main_v17,
      main_cst_3, main_v18, main_v19, main_v20, main_cst_4, main_call0_v0, main_call0_v1, main_v21, main_v22, main_c, main_v23, main_cst_5, main_v24,
      main_c_6, main_v25, main_v26, main_v27] : List (Ref sig .tc)).map (Proc.devRef (τ := τ) .tc)).toFinset) →
      ∀ X : Valuation τ sig (Elt F), StableHlo.after ops X (Proc.devRef .tc r) = X (Proc.devRef .tc r) :=
    fun ops hops X => StableHlo.after_of_writes_sub ops X hops h
  rw [hW hostOps1_2 (by simp only [hostOps1_2, List.Forall, StableHlo.nullary_writes, StableHlo.unary_writes, StableHlo.binary_writes, StableHlo.ternary_writes, StableHlo.reshape_writes]; decide),
    hW hostOps1_1 (by simp only [hostOps1_1, List.Forall, StableHlo.nullary_writes, StableHlo.unary_writes, StableHlo.binary_writes, StableHlo.ternary_writes, StableHlo.reshape_writes]; decide),
    hW hostOps1 (by simp only [hostOps1, List.Forall, StableHlo.nullary_writes, StableHlo.unary_writes, StableHlo.binary_writes, StableHlo.ternary_writes, StableHlo.reshape_writes]; decide)]

theorem W2_main_arg0 (c : Dev nD) : W2 m dat c (Proc.devRef .tc main_arg0) = m ((c : Thread nD τ).loc main_arg0) :=
  (W2_keeps m dat c main_arg0 (by decide)).trans ((W1_of_ne m dat c main_arg0 (by decide) (by decide)).trans (W0_keeps m c main_arg0 (by decide)))
theorem W2_main_arg1 (c : Dev nD) : W2 m dat c (Proc.devRef .tc main_arg1) = m ((c : Thread nD τ).loc main_arg1) :=
  (W2_keeps m dat c main_arg1 (by decide)).trans ((W1_of_ne m dat c main_arg1 (by decide) (by decide)).trans (W0_keeps m c main_arg1 (by decide)))

/-! ## The proof data family and the thread state -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The prefetched tables' admissible contents: the pipeline has no table. -/
abbrev adm : (p : Fin 1) → (pcfgs (F := F) p).Adm := fun p => (cfgs p).toPCfg_adm
/-- The one pipeline's proof data, as a literal `match` so that the pinned configuration at the numeral reduces to the
    printed one. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers up to the region: the generator register at some state, and the core owing nothing with
    no wait recorded (so that the region's bound on the recorded waits holds whatever it is). -/
abbrev R0 (c : Dev nD) : sProp 𝕄 := iprop((∃ r, prngReg c r) ∗ owes (c : Thread nD τ) (0 : CellTallies nD τ sig Unit) ∅)
/-- What rides beside the buffers after the region: the generator register at some state, the core owing nothing. -/
abbrev R (c : Dev nD) : sProp 𝕄 := iprop((∃ r, prngReg c r) ∗ ∃ W, owes (c : Thread nD τ) (0 : CellTallies nD τ sig Unit) W)

/-- A stretch of host operations as a segment: over the unscoped references from the contents `W`, `R` riding along;
    it leaves those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the contents at the return, the generator
    register at some state. -/
abbrev Tₙ (c : Dev nD) : sProp 𝕄 := iprop(StableHlo.held (c : Thread nD τ) (Pipeline.ucRefs τ sig) (W2 m dat c) ∗ ∃ r, prngReg c r)

/-- Every unscoped buffer held at a valuation is the seven buffers behind the windows' arrays and the rest. -/
theorem held_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W (Proc.devRef .tc b))
          ∗ Pipeline.unscopedRest (Ix := Unit) (Name := ℕ) (U := UR sig nD τ) (Lvl := ℕ) spec0 c (fun b => W (Proc.devRef .tc b))) :=
  (Pipeline.unscopedBufs_held c W).symm.trans (Pipeline.unscopedBufs_split₀ cfgs 0 winFacts₀0.arr_unscoped c (fun b => W (Proc.devRef .tc b)))

/-! ## The region as a segment -/

variable (hA : ∀ c w, (dat c).A w = V m c (Pipeline.arrRef spec0 w))
    (hq0 : ∀ c, (dat c).q 0 = fullShare.left) (hq1 : ∀ c, (dat c).q 1 = fullShare.right)
    (hq : ∀ c (w : Fin 8), 2 ≤ w.val → (dat c).q w = fullShare)
    (hΦ : ∀ c t, (dat c).Φ t = Pipeline.ΦA spec0 c) (howed : ∀ c t, (dat c).owed t = 0)
    (hbody : ∀ c, Pipeline.BodyObligation (dat c) (defs₀ (F := F)) Variants.none () Set.univ)

set_option backward.isDefEq.respectTransparency.types false in
/-- The kernel region over the thread state: entered from every unscoped buffer at the entry contents, left at the exit
    contents. The arrays are split out of the unscoped buffers at entry and put back at exit, the embeddings' buffer by
    halves; the generator register goes into the class invariant and comes back; nothing is owed; the kernel has no
    semaphore of its own. -/
def reg0 : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W0 m c) ∗ R0 c)
  post c := iprop(StableHlo.held (c : Thread nD τ) (Pipeline.ucRefs τ sig) (W1 m dat c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := (Entails.of_eq (held_split c (W0 m c))) $$ Hub
    icases H with ⟨Ha, Hrest⟩
    imodintro
    isplitl [Ha]
    · iapply (Entails.of_eq (arrays_eq_arrBufs dat hq0 hq1 hq c (V m c) (fun w => (dat c).arrAt w 0) (hA c)).symm); iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat 0 c).owed 0 = 0 from howed c 0]
      iexists ∅; isplitr; · ipureintro; simp
      iexact HO
    isplitl [Hp]; · iexact Hp
    iexact Hrest
  hin c := by
    rw [show (pdats dat 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats dat 0 c).Φ (Fin.last _) = Pipeline.ΦA spec0 c from hΦ c _]; unfold Pipeline.ΦA
    iintro ⟨Hr, Hp⟩
    isplitl [Hp]; · iexact Hp
    isplitr; · iempintro
    iexact Hr
  hexit c := by
    unfold Pipeline.Dat.owesAt Pipeline.owesWithin
    rw [show (pdats dat 0 c).owed (Fin.last _) = 0 from howed c _]
    iintro ⟨Ha, HO, HY, Hrest⟩
    imodintro
    isplitl [Ha Hrest]
    · iapply (Entails.of_eq (held_split c (W1 m dat c)).symm)
      isplitl [Ha]
      · iapply (Entails.of_eq (arrays_eq_arrBufs dat hq0 hq1 hq c (V1 m dat c) (fun w => (dat c).arrAt w cfg0.N) (exit_arr m dat hA c))); iexact Ha
      · iapply (Entails.of_eq (rest_eq m dat c).symm); iexact Hrest
    isplitl [HY]; · iexact HY
    icases HO with ⟨%W, -, HO⟩; iexists W; iexact HO

/-! ## @main as segments, and the launch -/

/-- @main's five segments in order. -/
abbrev segs : List (Pipeline.Seg (pcfgs (F := F)) adm (pdats dat) () defs₀ 𝒱₀ L lv) :=
  [ .host (hseg hostOps0 hostOps0_sub hostOps0_fresh (fun c b => m ((c : Dev nD), b)) R0),
    .region (reg0 m dat hA hq0 hq1 hq hΦ howed hbody),
    .host (hseg hostOps1 hostOps1_sub hostOps1_fresh (W1 m dat) R),
    .host (hseg hostOps1_1 hostOps1_1_sub hostOps1_1_fresh (fun c => StableHlo.after (Gen.hostOps1 (F := F)) (W1 m dat c)) R),
    .host (hseg hostOps1_2 hostOps1_2_sub hostOps1_2_fresh (fun c => StableHlo.after (Gen.hostOps1_1 (F := F)) (StableHlo.after (Gen.hostOps1 (F := F)) (W1 m dat c))) R) ]

/-- @main is the run of the segments. -/
theorem main_run (c : Dev nD) : main (F := F) c = Pipeline.Seg.run (segs m dat hA hq0 hq1 hq hΦ howed hbody) := (main_chain c).trans (by chain_rfl)

set_option backward.isDefEq.respectTransparency.types false in
include hA hq0 hq1 hq hΦ howed hbody in
/-- THE RUN: from any memory with zero counters every weakly fair execution of @main on the TensorCores terminates, nothing
    faulting, and every final state has the result buffer at the contents at the return and the two arguments as launched. -/
theorem run_of_dat :
    θ_run (defs (F := F)) (onTc (τ := τ) (main (F := F))) ⟨m, fun _ => 0, ρ⟩ (fun r => ∀ c : Dev nD,
      r.2.mem ((c.tc : Thread nD τ).loc main_v27) = W2 m dat c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats dat) () cellOf_inj emb₁ defs₀ 𝒱₀ L lv m ρ main (segs m dat hA hq0 hq1 hq hΦ howed hbody)
    (fun c Q => by rw [main_run m dat hA hq0 hq1 hq hΦ howed hbody c])
    (by simp only [segs, Pipeline.Seg.pipes, List.filterMap, Pipeline.Seg.pipe?]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m ((c : Dev nD), b)) ∗ R0 c)) (Tₙ := Tₙ m dat)
    (hch := ⟨fun _ => .rfl, fun _ => .rfl, fun _ => .rfl, fun _ => .rfl, fun _ => .rfl, fun c => by
      show iprop(StableHlo.held (c : Thread nD τ) (Pipeline.ucRefs τ sig) (W2 m dat c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W2 m dat c b)
    (hfin := fun c s' => by
      iintro ⟨⟨Hh, -⟩, HSI⟩
      unfold StableHlo.held
      imodintro
      iapply (pointsTo_read_all (Pipeline.ucRefs τ sig) (fun b => (((c : Thread nD τ)).1, b)) (W2 m dat c) s')
      isplitl [Hh] <;> iassumption)
    (hQ := fun s h c =>
      ⟨h c _ (mem_uc main_v27 (by decide)),
       (h c _ (mem_uc main_arg0 (by decide))).trans (W2_main_arg0 m dat c),
       (h c _ (mem_uc main_arg1 (by decide))).trans (W2_main_arg1 m dat c)⟩)

/-- info: 'Cert.Kernel.Hand.run_of_dat' depends on axioms: [propext, Classical.choice, Quot.sound] -/
#guard_msgs in #print axioms run_of_dat

end Cert.Kernel.Hand

end
-- ==== Proof.Frames.lean ====
/-
  The three frame claims. Each of the three programs — the word-level kernel, the kernel on the extended reals, the
  reference on the extended reals — run from any memory with zero counters terminates on every weakly fair execution,
  nothing faulting, and its two argument arrays end as launched.
  For the two kernels this is the launch of @main around the kernel region at the pipeline's proof data read off the
  region-entry contents (the windows' arrays those contents', the embeddings' buffer held by halves by its two windows,
  the class invariant, nothing owed, the body obligation at every point), with the statement about the result buffer
  dropped. For the reference it is the run of its line of host operations, the result likewise dropped.
-/
import proofs.«119205_j1864015806540_2_alg».proof.Defs
import proofs.«119205_j1864015806540_2_alg».proof.Proof.IdealData
import proofs.«119205_j1864015806540_2_alg».proof.Proof.IdealLaunch
import proofs.«119205_j1864015806540_2_alg».proof.Proof.BitsData
import proofs.«119205_j1864015806540_2_alg».proof.Proof.BitsLaunch
import proofs.«119205_j1864015806540_2_alg».proof.Proof.RefRun
import proofs.«119205_j1864015806540_2_alg».proof.Proof.Gen.Pre_finite_inputs

noncomputable section

open Idealize.ShloMosaic Idealize.ShloMosaic.TcCoe Idealize.SL.Sem

namespace Cert.Proof

set_option backward.isDefEq.respectTransparency.types false in
/-- The word-level kernel runs and leaves its arguments as launched. -/
theorem frame_p : @Cert.frame_Kernel Cert.Kernel.Gen.facts Cert.Pre_finite_inputs.Gen.facts := fun m ρ _ =>
  (θ_run (Cert.Kernel.defs (F := Bits)) _ _).mono (fun _ h c => (h c).2)
    (Cert.Kernel.Hand.run_of_dat (F := Bits) m ρ (Cert.Kernel.Hand.dats (Cert.Kernel.Hand.V m))
      (fun c w => Cert.Kernel.Hand.A_eq (Cert.Kernel.Hand.V m) c w) (fun _ => rfl) (fun _ => rfl)
      (fun c w hw => match w, hw with
        | ⟨0, _⟩, h => absurd h (Nat.not_succ_le_zero 1)
        | ⟨1, _⟩, h => absurd h (Nat.not_succ_le_self 1)
        | ⟨_ + 2, _⟩, _ => rfl)
      (fun _ _ => rfl) (fun _ _ => rfl) (fun c => Cert.Kernel.Hand.body_obligation (Cert.Kernel.Hand.V m) c))

set_option backward.isDefEq.respectTransparency.types false in
/-- The kernel on the extended reals runs and leaves its arguments as launched. -/
theorem frame_pi : @Cert.frame_KernelIdeal Cert.KernelIdeal.Gen.facts Cert.Pre_finite_inputs.Gen.facts := fun m ρ _ =>
  (θ_run (Cert.KernelIdeal.defs (F := Ideal)) _ _).mono (fun _ h c => (h c).2)
    (Cert.KernelIdeal.Hand.run_of_dat (F := Ideal) m ρ (Cert.KernelIdeal.Hand.dats (Cert.KernelIdeal.Hand.V m))
      (fun c w => Cert.KernelIdeal.Hand.A_eq (Cert.KernelIdeal.Hand.V m) c w) (fun _ => rfl) (fun _ => rfl)
      (fun c w hw => match w, hw with
        | ⟨0, _⟩, h => absurd h (Nat.not_succ_le_zero 1)
        | ⟨1, _⟩, h => absurd h (Nat.not_succ_le_self 1)
        | ⟨_ + 2, _⟩, _ => rfl)
      (fun _ _ => rfl) (fun _ _ => rfl) (fun c => Cert.KernelIdeal.Hand.body_obligation (Cert.KernelIdeal.Hand.V m) c))

/-- The reference on the extended reals runs and leaves its arguments as launched. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.Value.run (F := Ideal) m ρ)

end Cert.Proof

end
-- ==== Proof.IdealTrips.lean ====
/-
  The two passes of the kernel body, one trip at a time. Each pass makes eight trips, one per chunk of 1024 columns. Trip k
  of the first pass yields its carried column plus the chunk's masked sum of exponentials, and stores one piece into the
  scratch: the chunk's distances, at columns [1024 k, 1024 k + 1024). Trip k of the second pass yields the two carried
  columns plus the chunk's masked sum and count, over the scratch's chunk k and the labels' chunk k. A chunk loaded from a
  buffer reads the buffer at column 1024 k + q (at row 1024 k + q for the embeddings' chunk).
-/
import proofs.«119205_j1864015806540_2_alg».proof.Proof.Gen.KernelIdeal.Loops
import Idealize.ShloMosaic.Lib.ValueIdx
import Idealize.ShloMosaic.Lib.Pipeline.Value

set_option maxRecDepth 16384

noncomputable section

namespace Cert.KernelIdeal.Trips

open Cert.KernelIdeal Cert.KernelIdeal.Gen
open Idealize.ShloMosaic Idealize.ShloMosaic.TcCoe Idealize.ShloMosaic.ValueIdx Idealize.SL.Sem

variable {F : FTy → Type} [FloatOps F]

/-- Both passes make eight trips. -/
theorem trips1 : k0_t1_loop.trips = 8 := by decide +kernel
theorem trips2 : k0_t2_loop.trips = 8 := by decide +kernel

section
variable (𝒱 : Variants) (c : Dev nD) (bd : Option 𝒱.V) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)

/-- Trip k of the first pass: what it yields, -/
theorem tripR1_eq (v0 : Vec F S256x128 .bf16) (v2 : Vec F S256x1 .f32) (v4 : Vec F S256x1 .i32)
    (X2 : BufTy.Contents (Elt F) arg2.view.ty) (X4 : BufTy.Contents (Elt F) arg4.view.ty) (X6 : BufTy.Contents (Elt F) arg6.view.ty)
    (k : Fin k0_t1_loop.trips) (acc : FVec F S256x1 .f32) :
    tripR_k0_t1 (F := F) 𝒱 c bd i arg1 harg1 arg2 harg2 arg3 harg3 arg4 harg4 arg5 harg5 arg6 harg6 arg7 harg7 arg8 harg8 arg9 harg9 v0 v2 v4 X2 X4 X6 k acc
      = k0_pay5 v0 v2 v4 acc (View.readAt (Elt F) arg2.view (Rect.unit (s := S8192x128) (k0_off1 k) S1024x128.size (k0_off1_inb k)).toLoadRect X2)
          (View.readAt (Elt F) arg4.view (Rect.unit (s := S1x8192) (k0_off2 k) S1x1024.size (k0_off2_inb k)).toLoadRect X4)
          (View.readAt (Elt F) arg6.view (Rect.unit (s := S1x8192) (k0_off2 k) S1x1024.size (k0_off2_inb k)).toLoadRect X6) := by
  unfold tripR_k0_t1 trip_k0_t1; rfl

/-- and the one piece it stores into the scratch. -/
theorem tripL1_eq (v0 : Vec F S256x128 .bf16) (v2 : Vec F S256x1 .f32) (v4 : Vec F S256x1 .i32)
    (X2 : BufTy.Contents (Elt F) arg2.view.ty) (X4 : BufTy.Contents (Elt F) arg4.view.ty) (X6 : BufTy.Contents (Elt F) arg6.view.ty)
    (k : Fin k0_t1_loop.trips) (acc : FVec F S256x1 .f32) :
    tripL_k0_t1 (F := F) 𝒱 c bd i arg1 harg1 arg2 harg2 arg3 harg3 arg4 harg4 arg5 harg5 arg6 harg6 arg7 harg7 arg8 harg8 arg9 harg9 v0 v2 v4 X2 X4 X6 k acc
      = [⟨Rect.unit (s := S256x8192) (k0_off3 k) S256x1024.size (k0_off3_inb k),
          k0_pay4 v0 v2 (View.readAt (Elt F) arg2.view (Rect.unit (s := S8192x128) (k0_off1 k) S1024x128.size (k0_off1_inb k)).toLoadRect X2)
            (View.readAt (Elt F) arg4.view (Rect.unit (s := S1x8192) (k0_off2 k) S1x1024.size (k0_off2_inb k)).toLoadRect X4)⟩] := by
  unfold tripL_k0_t1 trip_k0_t1; rfl

/-- Trip k of the second pass: what it yields. -/
theorem tripR2_eq (v4 : Vec F S256x1 .i32) (v12 : FVec F S256x1 .f32)
    (X6 : BufTy.Contents (Elt F) arg6.view.ty) (X9 : BufTy.Contents (Elt F) arg9.view.ty)
    (k : Fin k0_t2_loop.trips) (acc : FVec F S256x1 .f32 × FVec F S256x1 .f32) :
    tripR_k0_t2 (F := F) 𝒱 c bd i arg1 harg1 arg2 harg2 arg3 harg3 arg4 harg4 arg5 harg5 arg6 harg6 arg7 harg7 arg8 harg8 arg9 harg9 v4 v12 X6 X9 k acc
      = (k0_pay9 i v4 v12 k acc.1 (View.readAt (Elt F) arg9.view (Rect.unit (s := S256x8192) (k0_off4 k) S256x1024.size (k0_off4_inb k)).toLoadRect X9)
            (View.readAt (Elt F) arg6.view (Rect.unit (s := S1x8192) (k0_off5 k) S1x1024.size (k0_off5_inb k)).toLoadRect X6),
          k0_pay10 i v4 k acc.2 (View.readAt (Elt F) arg6.view (Rect.unit (s := S1x8192) (k0_off5 k) S1x1024.size (k0_off5_inb k)).toLoadRect X6)) := by
  unfold tripR_k0_t2 trip_k0_t2; rfl
end

/-! ## Chunk loads read at an index -/

/-- A unit-stride rectangle's index: offset plus coordinate. -/
theorem unit_idx2 {a b a' b' : Nat} (off : Fin 2 → Nat) (inb : ∀ d, off d + (⟨2, ![a', b']⟩ : Shape).size d ≤ (⟨2, ![a, b]⟩ : Shape).size d)
    (p : Fin a') (q : Fin b') (o0 o1 : Nat) (h : off = ![o0, o1]) (h0 : o0 + p.val < a) (h1 : o1 + q.val < b) :
    (Rect.unit (s := ⟨2, ![a, b]⟩) off (⟨2, ![a', b']⟩ : Shape).size inb).toLoadRect.idx (ix2 p q) = ix2 (⟨o0 + p.val, h0⟩ : Fin a) (⟨o1 + q.val, h1⟩ : Fin b) := by
  subst h
  funext d
  match d with
  | ⟨0, _⟩ => exact Fin.ext (by show (![o0, o1] : Fin 2 → Nat) 0 + 1 * p.val = o0 + p.val; simp)
  | ⟨1, _⟩ => exact Fin.ext (by show (![o0, o1] : Fin 2 → Nat) 1 + 1 * q.val = o1 + q.val; simp)

end Cert.KernelIdeal.Trips

end
-- ==== Proof.Spec.lean ====
/-
  The N-pair loss, row by row, on the extended reals. For embeddings x : 8192 × 128 and labels lab : 8192 (32-bit words):
    sqn i      = Σₖ x i k · x i k                                  the squared norm of row i
    dot i j    = Σₖ x i k · x j k
    dist i j   = (sqn i + sqn j) − 2 · dot i j                      the squared distance ‖xᵢ − xⱼ‖², as both programs spell it
    negSum i   = Σⱼ [lab i ≠ lab j] · exp (dist i j)                the sum over the negatives of anchor i
    pair i j   = lab i = lab j ∧ i < j                              the anchor–positive pairs, each counted once
    rowSum i   = Σⱼ [pair i j] · log1p (negSum i · exp (−dist i j))
    rowCnt i   = Σⱼ [pair i j] · 1
  Both programs compute rowSum and rowCnt for every row and then apply the same operations to them (a sum per label, a
  mean per label that occurs in a pair, the mean of those means). The literal 2 is kept as its float pattern: the same
  word on both sides is never evaluated. Sums are plain finite sums: the extended reals are an additive commutative
  monoid, so their grouping and order are free.
-/
import Idealize.ShloMosaic.PureOps.Ideal
import Idealize.ShloMosaic.Lib.ValueIdx

noncomputable section

namespace Cert.NPair

open Idealize.ShloMosaic

/-- The float pattern of 2. -/
abbrev two : EReal := Ideal.ofBits .f32 0x40000000#32

/-- ‖xᵢ‖². -/
def sqn (x : Fin 8192 → Fin 128 → EReal) (i : Fin 8192) : EReal := ∑ k : Fin 128, x i k * x i k

/-- xᵢ · xⱼ. -/
def dot (x : Fin 8192 → Fin 128 → EReal) (i j : Fin 8192) : EReal := ∑ k : Fin 128, x i k * x j k

/-- ‖xᵢ‖² + ‖xⱼ‖² − 2 xᵢ·xⱼ. -/
def dist (x : Fin 8192 → Fin 128 → EReal) (i j : Fin 8192) : EReal := (sqn x i + sqn x j) - two * dot x i j

/-- Σ over the columns with another label of exp (dist i j). -/
def negSum (x : Fin 8192 → Fin 128 → EReal) (lab : Fin 8192 → BitVec 32) (i : Fin 8192) : EReal :=
  ∑ j : Fin 8192, if lab i = lab j then (0 : EReal) else Ideal.exp (dist x i j)

/-- Column j is a positive of anchor i, counted once: same label, and i before j. -/
def pair (lab : Fin 8192 → BitVec 32) (i j : Fin 8192) : Prop := lab i = lab j ∧ i.val < j.val

instance (lab : Fin 8192 → BitVec 32) (i j : Fin 8192) : Decidable (pair lab i j) := by unfold pair; infer_instance

/-- Σ over the positives j of anchor i of log1p (negSum i · exp (−dist i j)). -/
def rowSum (x : Fin 8192 → Fin 128 → EReal) (lab : Fin 8192 → BitVec 32) (i : Fin 8192) : EReal :=
  ∑ j : Fin 8192, if pair lab i j then Ideal.log1p (negSum x lab i * Ideal.exp (-(dist x i j))) else (0 : EReal)

/-- The number of positives of anchor i. -/
def rowCnt (lab : Fin 8192 → BitVec 32) (i : Fin 8192) : EReal :=
  ∑ j : Fin 8192, if pair lab i j then (1 : EReal) else (0 : EReal)

end Cert.NPair

end
-- ==== Proof.Payloads.lean ====
/-
  The arithmetic of one trip of each of the body's two passes, read at one element, on the extended reals.
  For an anchor row block (256 rows) and a column chunk (1024 columns), with the loaded blocks as the variables:
    distances   D p q = (n p + m q) − 2 · Σₖ x p k · y q k     (n, m the squared norms as a column and as a row; the
                                                                 transposed chunk read at (k, q) is y at (q, k); the
                                                                 product accumulates into zero)
    first pass  Z' p  = Z p + Σ_q [lab p ≠ lab' q] · exp (D p q)
    mask        M p q = lab p = lab' q  ∧  256 · i + p < 1024 · k + q     (global row before global column; both sides
                                                                           stay below 8192, so the 32-bit words do not wrap)
    second pass S' p  = S p + Σ_q [M p q] · log1p (Z p · exp (−D p q)),     C' p = C p + Σ_q [M p q] · 1
  Casts to the same shape and format changes are the identity; a column broadcast along the lanes reads its row's entry,
  a row broadcast along the rows its column's entry; a lane sum into zero is the plain sum over the 1024 lanes; a mask
  bit converted to a number is 1 or 0. Sums over the 1024 columns stay sums.
-/
import proofs.«119205_j1864015806540_2_alg».proof.Proof.Gen.KernelIdeal.Skeleton
import proofs.«119205_j1864015806540_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Layout operations of this body, read at coordinates -/

/-- An `[a, 1]` column broadcast to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the lanes of a `[256, 1024]` block into the zero accumulator, read at row `p`: the sum over the
    row's 1024 entries. -/
theorem laneSum_apply (src : FVec Ideal S256x1024 .f32) (h : S256x1024.Reduces [1] S256) (hφ : FKind.Formats .f32)
    (hacc : (0x00000000#32 : BitVec 32) = FKind.add.neutral .f32 hφ) (p : Fin 256) :
    multiReduction .add [1] S256 src 0x00000000#32 h hφ hacc (ix1 p) = ∑ q : Fin 1024, src (ix2 p q) := by
  refine (Ideal.multiReduction_add_single src 0x00000000#32 h hφ hacc (ix1 p)).trans ?_
  refine Finset.sum_congr rfl fun q _ => congrArg src (funext fun a => Fin.ext ?_)
  match a with
  | ⟨0, _⟩ => rfl
  | ⟨1, _⟩ => rfl

/-! ## The carried columns start at zero -/

theorem pay2_apply (p : Fin 256) : k0_pay2 (F := Ideal) (ix2 p (0 : Fin 1)) = 0 :=
  Ideal.ofBits_zero_f32
theorem pay6_apply (p : Fin 256) : k0_pay6 (F := Ideal) (ix2 p (0 : Fin 1)) = 0 :=
  Ideal.ofBits_zero_f32
theorem pay7_apply (p : Fin 256) : k0_pay7 (F := Ideal) (ix2 p (0 : Fin 1)) = 0 :=
  Ideal.ofBits_zero_f32

/-! ## The distances of one chunk -/

theorem lhsIdx_0 (j : S256x1024.Idx) (c : dot_S256x128_S128x1024_S256x1024_1_0_0_1_n_n.contr.Idx) : (dot_S256x128_S128x1024_S256x1024_1_0_0_1_n_n.lhsIdx j c 0).val = (j 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl
theorem lhsIdx_1 (j : S256x1024.Idx) (c : dot_S256x128_S128x1024_S256x1024_1_0_0_1_n_n.contr.Idx) : (dot_S256x128_S128x1024_S256x1024_1_0_0_1_n_n.lhsIdx j c 1).val = (c ⟨0, by decide⟩).val :=
  dot_S256x128_S128x1024_S256x1024_1_0_0_1_n_n.lhsIdx_val_of_single rfl j c
theorem rhsIdx_0 (j : S256x1024.Idx) (c : dot_S256x128_S128x1024_S256x1024_1_0_0_1_n_n.contr.Idx) : (dot_S256x128_S128x1024_S256x1024_1_0_0_1_n_n.rhsIdx j c 0).val = (c ⟨0, by decide⟩).val :=
  dot_S256x128_S128x1024_S256x1024_1_0_0_1_n_n.rhsIdx_val_of_single rfl j c
theorem rhsIdx_1 (j : S256x1024.Idx) (c : dot_S256x128_S128x1024_S256x1024_1_0_0_1_n_n.contr.Idx) : (dot_S256x128_S128x1024_S256x1024_1_0_0_1_n_n.rhsIdx j c 1).val = (j 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl

/-- The body's matrix product into the zero accumulator, read at `(p, q)`: the sum over the 128 features of the
    products of row `p` of the left operand and column `q` of the right one. -/
theorem matmulZero_apply (l : FVec Ideal S256x128 .bf16) (r : FVec Ideal S128x1024 .bf16) (p : Fin 256) (q : Fin 1024) :
    matmul dot_S256x128_S128x1024_S256x1024_1_0_0_1_n_n none l r (constant S256x1024 .f32 0x00000000#32) (ix2 p q) = ∑ k : Fin 128, l (ix2 p k) * r (ix2 k q) := by
  refine (Ideal.matmul_constant_zero_apply dot_S256x128_S128x1024_S256x1024_1_0_0_1_n_n none l r (ix2 p q)).trans ?_
  rw [← Equiv.sum_comp (contrEquiv1 dot_S256x128_S128x1024_S256x1024_1_0_0_1_n_n 128 rfl rfl).symm]
  refine Finset.sum_congr rfl fun k _ => ?_
  have hk := contrEquiv1_symm_val dot_S256x128_S128x1024_S256x1024_1_0_0_1_n_n 128 rfl rfl k
  have el : dot_S256x128_S128x1024_S256x1024_1_0_0_1_n_n.lhsIdx (ix2 p q) ((contrEquiv1 dot_S256x128_S128x1024_S256x1024_1_0_0_1_n_n 128 rfl rfl).symm k) = ix2 p k := funext fun a => Fin.ext (by
    match a with
    | ⟨0, _⟩ => exact lhsIdx_0 _ _
    | ⟨1, _⟩ => exact (lhsIdx_1 _ _).trans hk)
  have er : dot_S256x128_S128x1024_S256x1024_1_0_0_1_n_n.rhsIdx (ix2 p q) ((contrEquiv1 dot_S256x128_S128x1024_S256x1024_1_0_0_1_n_n 128 rfl rfl).symm k) = ix2 k q := funext fun a => Fin.ext (by
    match a with
    | ⟨0, _⟩ => exact (rhsIdx_0 _ _).trans hk
    | ⟨1, _⟩ => exact rhsIdx_1 _ _)
  rw [el, er]

/-- Entry `(p, q)` of a chunk's distances: the anchor's squared norm plus the column's, minus twice their dot product. -/
theorem pay3_apply (v0 : Vec Ideal S256x128 .bf16) (v2 : Vec Ideal S256x1 .f32) (v22 : Vec Ideal S1024x128 .bf16) (v25 : Vec Ideal S1x1024 .f32) (p : Fin 256) (q : Fin 1024) :
    k0_pay3 v0 v2 v22 v25 (ix2 p q) = (v2 (ix2 p (0 : Fin 1)) + v25 (ix2 (0 : Fin 1) q)) - Cert.NPair.two * ∑ k : Fin 128, v0 (ix2 p k) * v22 (ix2 q k) := by
  unfold k0_pay3
  rw [shapeCast_self, shapeCast_self, shapeCast_self, shapeCast_self]
  rw [subf_apply, addf_apply, mulf_apply, broadcast_apply, broadcastTo_a1_ab_apply, broadcastTo_1b_ab_apply, matmulZero_apply]
  refine congrArg (fun s => (v2 (ix2 p (0 : Fin 1)) + v25 (ix2 (0 : Fin 1) q)) - Cert.NPair.two * s) (Finset.sum_congr rfl fun k _ => ?_)
  exact congrArg (v0 (ix2 p k) * ·) (transpose_ix2_apply v22 _ k q)

/-- What the first pass stores is the chunk's distances. -/
theorem pay4_apply (v0 : Vec Ideal S256x128 .bf16) (v2 : Vec Ideal S256x1 .f32) (v22 : Vec Ideal S1024x128 .bf16) (v25 : Vec Ideal S1x1024 .f32) (p : Fin 256) (q : Fin 1024) :
    k0_pay4 v0 v2 v22 v25 (ix2 p q) = k0_pay3 v0 v2 v22 v25 (ix2 p q) := by
  unfold k0_pay4
  rw [shapeCast_self]

/-! ## Words: comparisons, the mask's bit, and a bit as a number -/

theorem andi_apply {s : Shape} {w : ℕ} (x y : IVec s w) (j : s.Idx) : andi x y j = IntOp.andi (x j) (y j) := rfl
theorem addi_apply {s : Shape} {w : ℕ} (x y : IVec s w) (j : s.Idx) : addi x y j = IntOp.addi (x j) (y j) := rfl
theorem cmpi_apply {s : Shape} {w : ℕ} (c : CmpIPredicate) (x y : IVec s w) (j : s.Idx) : cmpi c x y j = IntOp.cmpi c (x j) (y j) := rfl

/-- A select on "the two words differ" is the `if` on their equality, the branches swapped. -/
theorem select_cmpi_ne {α : Type} (a b : BitVec 32) (x y : α) :
    Scalar.select (IntOp.cmpi .ne a b) x y = if a = b then y else x := by
  unfold Scalar.select IntOp.cmpi
  by_cases h : a = b
  · subst h; simp
  · have hb : (a != b) = true := bne_iff_ne.mpr h
    rw [hb]; simp [h]

/-- The conjunction of "the two words are equal" and a signed comparison, as one bit. -/
theorem andi_eq_slt (a b x y : BitVec 32) :
    IntOp.andi (IntOp.cmpi .eq a b) (IntOp.cmpi .slt x y) = if a = b ∧ x.toInt < y.toInt then 1#1 else 0#1 := by
  unfold IntOp.andi IntOp.cmpi
  by_cases h1 : a = b
  · subst h1
    by_cases h2 : x.toInt < y.toInt <;> simp [h2, BitVec.slt]
  · have hb : (a == b) = false := beq_eq_false_iff_ne.mpr h1
    rw [hb]; simp [h1]

/-- A select on a decided bit is the `if`. -/
theorem select_ite {α : Type} (c : Prop) [Decidable c] (x y : α) :
    Scalar.select (if c then 1#1 else 0#1) x y = if c then x else y := by
  split
  · exact select_one x y
  · exact select_zero x y

/-- A decided bit, widened to 32 bits and converted to a number, is 1 or 0. -/
theorem sitofp_ite (c : Prop) [Decidable c] :
    FloatOps.sitofp (F := Ideal) .f32 ((if c then 1#1 else 0#1 : BitVec 1).setWidth 32) = if c then (1 : EReal) else 0 := by
  split
  · show (((BitVec.setWidth 32 1#1).toInt : ℝ) : EReal) = 1
    have : (BitVec.setWidth 32 1#1).toInt = 1 := by decide
    rw [this, Int.cast_one, EReal.coe_one]
  · show (((BitVec.setWidth 32 0#1).toInt : ℝ) : EReal) = 0
    have : (BitVec.setWidth 32 0#1).toInt = 0 := by decide
    rw [this, Int.cast_zero, EReal.coe_zero]

/-- A 32-bit word whose unsigned value is below 2³¹ has that value as its signed one. -/
theorem toInt_of_toNat (x : BitVec 32) (n : ℕ) (h : x.toNat = n) (hn : n < 2147483648) : x.toInt = (n : ℤ) := by
  rw [BitVec.toInt_eq_toNat_cond, h]
  split <;> omega

/-- The global row of local row `p` of row block `a`, as the body computes it in 32-bit words: no wrap below 8192. -/
theorem toInt_row (a p : ℕ) (ha : a < 32) (hp : p < 256) :
    (IntOp.addi (Scalar.muli (BitVec.ofNat 32 a) 256#32) (BitVec.ofNat 32 p)).toInt = ((a * 256 + p : ℕ) : ℤ) := by
  refine toInt_of_toNat _ _ ?_ (by omega)
  unfold IntOp.addi Scalar.muli IntOp.muli
  simp only [BitVec.toNat_add, BitVec.toNat_mul, BitVec.toNat_ofNat]
  omega

/-- The global column of local column `q` of chunk `b`, likewise. -/
theorem toInt_col (b q : ℕ) (hb : b < 8) (hq : q < 1024) :
    (IntOp.addi (Scalar.muli (Scf.iv 0#32 1#32 b) 1024#32) (BitVec.ofNat 32 q)).toInt = ((b * 1024 + q : ℕ) : ℤ) := by
  refine toInt_of_toNat _ _ ?_ (by omega)
  unfold IntOp.addi Scalar.muli IntOp.muli Scf.iv
  simp only [BitVec.toNat_add, BitVec.toNat_mul, BitVec.toNat_ofNat]
  omega

theorem iota_rows (p : Fin 256) (u : Fin 1) : iota .tc S256x1 32 [0] iota_S256x1_d0_w32 (ix2 p u) = BitVec.ofNat 32 p.val :=
  iota_single_apply .tc S256x1 32 0 _ (ix2 p u)
theorem iota_cols (u : Fin 1) (q : Fin 1024) : iota .tc S1x1024 32 [1] iota_S1x1024_d1_w32 (ix2 u q) = BitVec.ofNat 32 q.val :=
  iota_single_apply .tc S1x1024 32 1 _ (ix2 u q)

/-! ## The anchors' labels, and the mask of the positives counted once -/

theorem pay1_eq (v4 : Vec Ideal S256x1 .i32) : k0_pay1 (F := Ideal) v4 = v4 := by
  unfold k0_pay1
  exact shapeCast_self v4 _

/-- The mask at `(p, q)` of chunk `k` of row block `i`: set where the labels agree and the anchor's global row is
    before the column's global row. -/
theorem pay8_apply (i : grid0.Coords) (v4 : Vec Ideal S256x1 .i32) (k : Fin k0_t2_loop.trips) (v24 : Vec Ideal S1x1024 .i32) (p : Fin 256) (q : Fin 1024) :
    k0_pay8 (F := Ideal) i v4 k v24 (ix2 p q)
      = if v4 (ix2 p (0 : Fin 1)) = v24 (ix2 (0 : Fin 1) q) ∧ (i 0).val * 256 + p.val < k.val * 1024 + q.val then 1#1 else 0#1 := by
  have hi : (i 0).val < 32 := (i 0).isLt
  have hk : k.val < 8 := Nat.lt_of_lt_of_le k.isLt k0_t2_abs.2.1
  unfold k0_pay8
  rw [pay1_eq, shapeCast_self]
  rw [andi_apply, cmpi_apply, cmpi_apply, broadcastTo_a1_ab_apply, broadcastTo_1b_ab_apply, broadcastTo_a1_ab_apply,
    broadcastTo_1b_ab_apply, addi_apply, addi_apply, broadcast_apply, broadcast_apply, iota_rows, iota_cols, andi_eq_slt,
    toInt_row _ _ hi p.isLt, toInt_col _ _ hk q.isLt]
  simp only [Int.ofNat_lt]

/-! ## The carried columns after one chunk -/

/-- A carried column plus the lane sums of a block, read at row `p`. -/
theorem addf_laneSum_apply (acc : FVec Ideal S256x1 .f32) (src : FVec Ideal S256x1024 .f32) (h : S256x1024.Reduces [1] S256)
    (hφ : FKind.Formats .f32) (hacc : (0x00000000#32 : BitVec 32) = FKind.add.neutral .f32 hφ) (hc : S256.ShapeCasts S256x1) (p : Fin 256) :
    addf acc (shapeCast S256x1 (multiReduction .add [1] S256 src 0x00000000#32 h hφ hacc) hc) (ix2 p (0 : Fin 1))
      = acc (ix2 p (0 : Fin 1)) + ∑ q : Fin 1024, src (ix2 p q) := by
  refine (addf_apply _ _ _).trans ?_
  refine congrArg (acc (ix2 p (0 : Fin 1)) + ·) ?_
  refine (shapeCast_a_a1_apply _ hc p (0 : Fin 1)).trans ?_
  exact laneSum_apply src h hφ hacc p

/-- First pass: the carried column gains, at row `p`, the chunk's sum of `exp` of the distances over the columns whose
    label differs from the anchor's. -/
theorem pay5_apply (v0 : Vec Ideal S256x128 .bf16) (v2 : Vec Ideal S256x1 .f32) (v4 : Vec Ideal S256x1 .i32) (arg11 : FVec Ideal S256x1 .f32) (v22 : Vec Ideal S1024x128 .bf16) (v25 : Vec Ideal S1x1024 .f32) (v28 : Vec Ideal S1x1024 .i32) (p : Fin 256) :
    k0_pay5 v0 v2 v4 arg11 v22 v25 v28 (ix2 p (0 : Fin 1))
      = arg11 (ix2 p (0 : Fin 1)) + ∑ q : Fin 1024, (if v4 (ix2 p (0 : Fin 1)) = v28 (ix2 (0 : Fin 1) q) then (0 : EReal) else Ideal.exp (k0_pay3 v0 v2 v22 v25 (ix2 p q))) := by
  unfold k0_pay5
  refine (addf_laneSum_apply arg11 _ _ _ _ _ p).trans ?_
  refine congrArg (arg11 (ix2 p (0 : Fin 1)) + ·) (Finset.sum_congr rfl fun q _ => ?_)
  rw [select_apply, cmpi_apply, pay1_eq, shapeCast_self, broadcastTo_a1_ab_apply, broadcastTo_1b_ab_apply, select_cmpi_ne, broadcast_apply]
  exact if_congr Iff.rfl Ideal.ofBits_zero_f32 rfl

/-- Second pass, the sum: the carried column gains, at row `p`, the chunk's sum of `log1p (Z · exp (−D))` over the masked
    columns, `Z` the anchor's entry of the column the first pass left and `D` the stored distance. -/
theorem pay9_apply (i : grid0.Coords) (v4 : Vec Ideal S256x1 .i32) (v12 : FVec Ideal S256x1 .f32) (k : Fin k0_t2_loop.trips) (arg11 : FVec Ideal S256x1 .f32) (v22 : Vec Ideal S256x1024 .f32) (v24 : Vec Ideal S1x1024 .i32) (p : Fin 256) :
    k0_pay9 i v4 v12 k arg11 v22 v24 (ix2 p (0 : Fin 1))
      = arg11 (ix2 p (0 : Fin 1)) + ∑ q : Fin 1024, (if v4 (ix2 p (0 : Fin 1)) = v24 (ix2 (0 : Fin 1) q) ∧ (i 0).val * 256 + p.val < k.val * 1024 + q.val
          then Ideal.log1p (v12 (ix2 p (0 : Fin 1)) * Ideal.exp (-(v22 (ix2 p q)))) else (0 : EReal)) := by
  unfold k0_pay9
  refine (addf_laneSum_apply arg11 _ _ _ _ _ p).trans ?_
  refine congrArg (arg11 (ix2 p (0 : Fin 1)) + ·) (Finset.sum_congr rfl fun q _ => ?_)
  rw [select_apply, pay8_apply, select_ite, broadcast_apply]
  refine if_congr Iff.rfl ?_ Ideal.ofBits_zero_f32
  show Ideal.log1p (broadcastTo S256x1024 v12 broadcasts_S256x1_S256x1024 (ix2 p q) * Ideal.exp (Ideal.ofBits .f32 0x00000000#32 - v22 (ix2 p q))) = _
  rw [broadcastTo_a1_ab_apply, Ideal.ofBits_zero_f32, zero_sub]

/-- Second pass, the count: the carried column gains, at row `p`, the number of masked columns of the chunk. -/
theorem pay10_apply (i : grid0.Coords) (v4 : Vec Ideal S256x1 .i32) (k : Fin k0_t2_loop.trips) (arg12 : FVec Ideal S256x1 .f32) (v24 : Vec Ideal S1x1024 .i32) (p : Fin 256) :
    k0_pay10 i v4 k arg12 v24 (ix2 p (0 : Fin 1))
      = arg12 (ix2 p (0 : Fin 1)) + ∑ q : Fin 1024, (if v4 (ix2 p (0 : Fin 1)) = v24 (ix2 (0 : Fin 1) q) ∧ (i 0).val * 256 + p.val < k.val * 1024 + q.val then (1 : EReal) else (0 : EReal)) := by
  unfold k0_pay10
  refine (addf_laneSum_apply arg12 _ _ _ _ _ p).trans ?_
  refine congrArg (arg12 (ix2 p (0 : Fin 1)) + ·) (Finset.sum_congr rfl fun q _ => ?_)
  rw [sitofp_apply, extui_apply, pay8_apply]
  exact sitofp_ite _

end Cert.KernelIdeal.Pay

end
-- ==== Proof.IdealFolds.lean ====
/-
  The two passes as sums over their trips. After n trips of the first pass the carried column at row p is the sum over the
  chunks k < n of the chunk's masked sum of exponentials, and the scratch's pieces are the chunks' distances, one piece per
  chunk k < n at columns [1024 k, 1024 k + 1024). After n trips of the second pass the two carried columns at row p are the
  sums over the chunks k < n of the chunk's masked sum of log1p terms and of its count. Each by induction on n: a trip adds
  its chunk's term to what it was handed.
-/
import proofs.«119205_j1864015806540_2_alg».proof.Proof.IdealTrips
import proofs.«119205_j1864015806540_2_alg».proof.Proof.Payloads

set_option maxRecDepth 16384

noncomputable section

namespace Cert.KernelIdeal.Folds

open Cert.KernelIdeal Cert.KernelIdeal.Gen Cert.KernelIdeal.Trips Cert.KernelIdeal.Pay
open Idealize.ShloMosaic Idealize.ShloMosaic.TcCoe Idealize.ShloMosaic.ValueIdx Idealize.SL.Sem

/-- A sum over the indices below n + 1 is the sum over those below n plus the term at n. -/
theorem sum_lt_succ {N : ℕ} (f : Fin N → EReal) (n : ℕ) (hn : n < N) :
    (∑ k : Fin N, if k.val < n + 1 then f k else 0) = (∑ k : Fin N, if k.val < n then f k else 0) + f ⟨n, hn⟩ := by
  have h : ∀ k : Fin N, (if k.val < n + 1 then f k else 0) = (if k.val < n then f k else 0) + (if k = ⟨n, hn⟩ then f k else 0) := by
    intro k
    by_cases h1 : k.val < n
    · have h2 : k ≠ ⟨n, hn⟩ := fun e => by rw [e] at h1; exact Nat.lt_irrefl _ h1
      rw [if_pos h1, if_pos (Nat.lt_succ_of_lt h1), if_neg h2, add_zero]
    · by_cases h3 : k = ⟨n, hn⟩
      · subst h3; rw [if_neg h1, if_pos (Nat.lt_succ_self _), if_pos rfl, zero_add]
      · have h4 : ¬ k.val < n + 1 := fun h => h3 (Fin.ext (by show k.val = n; have := Nat.lt_succ_iff.mp h; omega))
        rw [if_neg h1, if_neg h4, if_neg h3, add_zero]
  rw [Finset.sum_congr rfl fun k _ => h k, Finset.sum_add_distrib, Finset.sum_ite_eq' Finset.univ ⟨n, hn⟩ f, if_pos (Finset.mem_univ _)]

/-- Below the bound every index counts. -/
theorem sum_lt_all {N : ℕ} (f : Fin N → EReal) : (∑ k : Fin N, if k.val < N then f k else 0) = ∑ k : Fin N, f k :=
  Finset.sum_congr rfl fun k _ => if_pos k.isLt

section
variable (𝒱 : Variants) (c : Dev nD) (bd : Option 𝒱.V) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)

/-! ## The first pass -/

section Pass1
variable (v0 : Vec Ideal S256x128 .bf16) (v2 : Vec Ideal S256x1 .f32) (v4 : Vec Ideal S256x1 .i32)
  (X2 : BufTy.Contents (Elt Ideal) arg2.view.ty) (X4 : BufTy.Contents (Elt Ideal) arg4.view.ty) (X6 : BufTy.Contents (Elt Ideal) arg6.view.ty)

/-- Chunk k's masked sum of exponentials at row p. -/
def add1 (k : Fin k0_t1_loop.trips) (p : Fin 256) : EReal :=
  ∑ q : Fin 1024, if v4 (ix2 p (0 : Fin 1)) = (View.readAt (Elt Ideal) arg6.view (Rect.unit (s := S1x8192) (k0_off2 k) S1x1024.size (k0_off2_inb k)).toLoadRect X6) (ix2 (0 : Fin 1) q) then (0 : EReal)
    else Ideal.exp (k0_pay3 v0 v2 (View.readAt (Elt Ideal) arg2.view (Rect.unit (s := S8192x128) (k0_off1 k) S1024x128.size (k0_off1_inb k)).toLoadRect X2) (View.readAt (Elt Ideal) arg4.view (Rect.unit (s := S1x8192) (k0_off2 k) S1x1024.size (k0_off2_inb k)).toLoadRect X4) (ix2 p q))

/-- Chunk k's piece of the scratch. -/
def piece1 (k : Fin k0_t1_loop.trips) : View.Piece (Elt Ideal) S256x8192 .f32 :=
  ⟨Rect.unit (s := S256x8192) (k0_off3 k) S256x1024.size (k0_off3_inb k), k0_pay4 v0 v2 (View.readAt (Elt Ideal) arg2.view (Rect.unit (s := S8192x128) (k0_off1 k) S1024x128.size (k0_off1_inb k)).toLoadRect X2) (View.readAt (Elt Ideal) arg4.view (Rect.unit (s := S1x8192) (k0_off2 k) S1x1024.size (k0_off2_inb k)).toLoadRect X4)⟩

theorem st1_succ (n : ℕ) (hn : n < k0_t1_loop.trips) :
    st_k0_t1 (F := Ideal) 𝒱 c bd i arg1 harg1 arg2 harg2 arg3 harg3 arg4 harg4 arg5 harg5 arg6 harg6 arg7 harg7 arg8 harg8 arg9 harg9 v0 v2 v4 X2 X4 X6 k0_pay2 (n + 1)
      = (k0_pay5 v0 v2 v4 (st_k0_t1 (F := Ideal) 𝒱 c bd i arg1 harg1 arg2 harg2 arg3 harg3 arg4 harg4 arg5 harg5 arg6 harg6 arg7 harg7 arg8 harg8 arg9 harg9 v0 v2 v4 X2 X4 X6 k0_pay2 n).1 (View.readAt (Elt Ideal) arg2.view (Rect.unit (s := S8192x128) (k0_off1 ⟨n, hn⟩) S1024x128.size (k0_off1_inb ⟨n, hn⟩)).toLoadRect X2) (View.readAt (Elt Ideal) arg4.view (Rect.unit (s := S1x8192) (k0_off2 ⟨n, hn⟩) S1x1024.size (k0_off2_inb ⟨n, hn⟩)).toLoadRect X4) (View.readAt (Elt Ideal) arg6.view (Rect.unit (s := S1x8192) (k0_off2 ⟨n, hn⟩) S1x1024.size (k0_off2_inb ⟨n, hn⟩)).toLoadRect X6),
          piece1 arg2 arg4 v0 v2 X2 X4 ⟨n, hn⟩ :: (st_k0_t1 (F := Ideal) 𝒱 c bd i arg1 harg1 arg2 harg2 arg3 harg3 arg4 harg4 arg5 harg5 arg6 harg6 arg7 harg7 arg8 harg8 arg9 harg9 v0 v2 v4 X2 X4 X6 k0_pay2 n).2) := by
  have h := st_k0_t1_succ (F := Ideal) 𝒱 c bd i arg1 harg1 arg2 harg2 arg3 harg3 arg4 harg4 arg5 harg5 arg6 harg6 arg7 harg7 arg8 harg8 arg9 harg9 v0 v2 v4 X2 X4 X6 k0_pay2 ⟨n, hn⟩
  rw [tripR1_eq, tripL1_eq] at h
  exact h

theorem st1_carried (n : ℕ) (hn : n ≤ k0_t1_loop.trips) (p : Fin 256) :
    (st_k0_t1 (F := Ideal) 𝒱 c bd i arg1 harg1 arg2 harg2 arg3 harg3 arg4 harg4 arg5 harg5 arg6 harg6 arg7 harg7 arg8 harg8 arg9 harg9 v0 v2 v4 X2 X4 X6 k0_pay2 n).1 (ix2 p (0 : Fin 1))
      = ∑ k : Fin k0_t1_loop.trips, if k.val < n then add1 arg2 arg4 arg6 v0 v2 v4 X2 X4 X6 k p else 0 := by
  induction n with
  | zero =>
    rw [show (st_k0_t1 (F := Ideal) 𝒱 c bd i arg1 harg1 arg2 harg2 arg3 harg3 arg4 harg4 arg5 harg5 arg6 harg6 arg7 harg7 arg8 harg8 arg9 harg9 v0 v2 v4 X2 X4 X6 k0_pay2 0).1 = k0_pay2 from rfl, pay2_apply]
    exact (Finset.sum_eq_zero fun k _ => if_neg (Nat.not_lt_zero _)).symm
  | succ n ih =>
    have hn' : n < k0_t1_loop.trips := hn
    rw [st1_succ 𝒱 c bd i arg1 harg1 arg2 harg2 arg3 harg3 arg4 harg4 arg5 harg5 arg6 harg6 arg7 harg7 arg8 harg8 arg9 harg9 v0 v2 v4 X2 X4 X6 n hn', sum_lt_succ _ n hn', ← ih (Nat.le_of_lt hn')]
    exact pay5_apply _ _ _ _ _ _ _ p

/-- The pieces after n trips are the chunks' pieces, k < n. -/
theorem st1_pieces_mem (n : ℕ) (hn : n ≤ k0_t1_loop.trips) (k : Fin k0_t1_loop.trips) (hk : k.val < n) :
    piece1 arg2 arg4 v0 v2 X2 X4 k ∈ (st_k0_t1 (F := Ideal) 𝒱 c bd i arg1 harg1 arg2 harg2 arg3 harg3 arg4 harg4 arg5 harg5 arg6 harg6 arg7 harg7 arg8 harg8 arg9 harg9 v0 v2 v4 X2 X4 X6 k0_pay2 n).2 := by
  induction n with
  | zero => exact absurd hk (Nat.not_lt_zero _)
  | succ n ih =>
    have hn' : n < k0_t1_loop.trips := hn
    rw [st1_succ 𝒱 c bd i arg1 harg1 arg2 harg2 arg3 harg3 arg4 harg4 arg5 harg5 arg6 harg6 arg7 harg7 arg8 harg8 arg9 harg9 v0 v2 v4 X2 X4 X6 n hn']
    by_cases h : k.val < n
    · exact List.mem_cons_of_mem _ (ih (Nat.le_of_lt hn') h)
    · have e : k = ⟨n, hn'⟩ := Fin.ext (by show k.val = n; have := Nat.lt_succ_iff.mp hk; omega)
      rw [e]; exact List.mem_cons_self

theorem st1_pieces_of_mem (n : ℕ) (hn : n ≤ k0_t1_loop.trips) (pc : View.Piece (Elt Ideal) S256x8192 .f32)
    (h : pc ∈ (st_k0_t1 (F := Ideal) 𝒱 c bd i arg1 harg1 arg2 harg2 arg3 harg3 arg4 harg4 arg5 harg5 arg6 harg6 arg7 harg7 arg8 harg8 arg9 harg9 v0 v2 v4 X2 X4 X6 k0_pay2 n).2) :
    ∃ k : Fin k0_t1_loop.trips, pc = piece1 arg2 arg4 v0 v2 X2 X4 k := by
  induction n with
  | zero => exact absurd h (by rw [show (st_k0_t1 (F := Ideal) 𝒱 c bd i arg1 harg1 arg2 harg2 arg3 harg3 arg4 harg4 arg5 harg5 arg6 harg6 arg7 harg7 arg8 harg8 arg9 harg9 v0 v2 v4 X2 X4 X6 k0_pay2 0).2 = [] from rfl]; exact List.not_mem_nil)
  | succ n ih =>
    have hn' : n < k0_t1_loop.trips := hn
    rw [st1_succ 𝒱 c bd i arg1 harg1 arg2 harg2 arg3 harg3 arg4 harg4 arg5 harg5 arg6 harg6 arg7 harg7 arg8 harg8 arg9 harg9 v0 v2 v4 X2 X4 X6 n hn'] at h
    rcases List.mem_cons.mp h with rfl | h'
    · exact ⟨⟨n, hn'⟩, rfl⟩
    · exact ih (Nat.le_of_lt hn') h'

end Pass1

/-! ## The second pass -/

section Pass2
variable (v4 : Vec Ideal S256x1 .i32) (v12 : FVec Ideal S256x1 .f32)
  (X6 : BufTy.Contents (Elt Ideal) arg6.view.ty) (X9 : BufTy.Contents (Elt Ideal) arg9.view.ty)

/-- Chunk k's masked sum of log1p terms, and its count, at row p. -/
def add2s (k : Fin k0_t2_loop.trips) (p : Fin 256) : EReal :=
  ∑ q : Fin 1024, if v4 (ix2 p (0 : Fin 1)) = (View.readAt (Elt Ideal) arg6.view (Rect.unit (s := S1x8192) (k0_off5 k) S1x1024.size (k0_off5_inb k)).toLoadRect X6) (ix2 (0 : Fin 1) q) ∧ (i 0).val * 256 + p.val < k.val * 1024 + q.val
    then Ideal.log1p (v12 (ix2 p (0 : Fin 1)) * Ideal.exp (-((View.readAt (Elt Ideal) arg9.view (Rect.unit (s := S256x8192) (k0_off4 k) S256x1024.size (k0_off4_inb k)).toLoadRect X9) (ix2 p q)))) else (0 : EReal)
def add2c (k : Fin k0_t2_loop.trips) (p : Fin 256) : EReal :=
  ∑ q : Fin 1024, if v4 (ix2 p (0 : Fin 1)) = (View.readAt (Elt Ideal) arg6.view (Rect.unit (s := S1x8192) (k0_off5 k) S1x1024.size (k0_off5_inb k)).toLoadRect X6) (ix2 (0 : Fin 1) q) ∧ (i 0).val * 256 + p.val < k.val * 1024 + q.val
    then (1 : EReal) else (0 : EReal)

theorem st2_succ (n : ℕ) (hn : n < k0_t2_loop.trips) :
    st_k0_t2 (F := Ideal) 𝒱 c bd i arg1 harg1 arg2 harg2 arg3 harg3 arg4 harg4 arg5 harg5 arg6 harg6 arg7 harg7 arg8 harg8 arg9 harg9 v4 v12 X6 X9 (k0_pay6, k0_pay7) (n + 1)
      = (k0_pay9 i v4 v12 ⟨n, hn⟩ (st_k0_t2 (F := Ideal) 𝒱 c bd i arg1 harg1 arg2 harg2 arg3 harg3 arg4 harg4 arg5 harg5 arg6 harg6 arg7 harg7 arg8 harg8 arg9 harg9 v4 v12 X6 X9 (k0_pay6, k0_pay7) n).1 (View.readAt (Elt Ideal) arg9.view (Rect.unit (s := S256x8192) (k0_off4 ⟨n, hn⟩) S256x1024.size (k0_off4_inb ⟨n, hn⟩)).toLoadRect X9) (View.readAt (Elt Ideal) arg6.view (Rect.unit (s := S1x8192) (k0_off5 ⟨n, hn⟩) S1x1024.size (k0_off5_inb ⟨n, hn⟩)).toLoadRect X6),
          k0_pay10 i v4 ⟨n, hn⟩ (st_k0_t2 (F := Ideal) 𝒱 c bd i arg1 harg1 arg2 harg2 arg3 harg3 arg4 harg4 arg5 harg5 arg6 harg6 arg7 harg7 arg8 harg8 arg9 harg9 v4 v12 X6 X9 (k0_pay6, k0_pay7) n).2 (View.readAt (Elt Ideal) arg6.view (Rect.unit (s := S1x8192) (k0_off5 ⟨n, hn⟩) S1x1024.size (k0_off5_inb ⟨n, hn⟩)).toLoadRect X6)) := by
  have h := st_k0_t2_succ (F := Ideal) 𝒱 c bd i arg1 harg1 arg2 harg2 arg3 harg3 arg4 harg4 arg5 harg5 arg6 harg6 arg7 harg7 arg8 harg8 arg9 harg9 v4 v12 X6 X9 (k0_pay6, k0_pay7) ⟨n, hn⟩
  rw [tripR2_eq] at h
  exact h

theorem st2_carried (n : ℕ) (hn : n ≤ k0_t2_loop.trips) (p : Fin 256) :
    (st_k0_t2 (F := Ideal) 𝒱 c bd i arg1 harg1 arg2 harg2 arg3 harg3 arg4 harg4 arg5 harg5 arg6 harg6 arg7 harg7 arg8 harg8 arg9 harg9 v4 v12 X6 X9 (k0_pay6, k0_pay7) n).1 (ix2 p (0 : Fin 1))
        = (∑ k : Fin k0_t2_loop.trips, if k.val < n then add2s i arg6 arg9 v4 v12 X6 X9 k p else 0)
    ∧ (st_k0_t2 (F := Ideal) 𝒱 c bd i arg1 harg1 arg2 harg2 arg3 harg3 arg4 harg4 arg5 harg5 arg6 harg6 arg7 harg7 arg8 harg8 arg9 harg9 v4 v12 X6 X9 (k0_pay6, k0_pay7) n).2 (ix2 p (0 : Fin 1))
        = (∑ k : Fin k0_t2_loop.trips, if k.val < n then add2c i arg6 v4 X6 k p else 0) := by
  induction n with
  | zero =>
    rw [show (st_k0_t2 (F := Ideal) 𝒱 c bd i arg1 harg1 arg2 harg2 arg3 harg3 arg4 harg4 arg5 harg5 arg6 harg6 arg7 harg7 arg8 harg8 arg9 harg9 v4 v12 X6 X9 (k0_pay6, k0_pay7) 0) = (k0_pay6, k0_pay7) from rfl]
    refine ⟨?_, ?_⟩
    · rw [show ((k0_pay6, k0_pay7) : FVec Ideal S256x1 .f32 × FVec Ideal S256x1 .f32).1 = k0_pay6 from rfl, pay6_apply]
      exact (Finset.sum_eq_zero fun k _ => if_neg (Nat.not_lt_zero _)).symm
    · rw [show ((k0_pay6, k0_pay7) : FVec Ideal S256x1 .f32 × FVec Ideal S256x1 .f32).2 = k0_pay7 from rfl, pay7_apply]
      exact (Finset.sum_eq_zero fun k _ => if_neg (Nat.not_lt_zero _)).symm
  | succ n ih =>
    have hn' : n < k0_t2_loop.trips := hn
    obtain ⟨ih1, ih2⟩ := ih (Nat.le_of_lt hn')
    rw [st2_succ 𝒱 c bd i arg1 harg1 arg2 harg2 arg3 harg3 arg4 harg4 arg5 harg5 arg6 harg6 arg7 harg7 arg8 harg8 arg9 harg9 v4 v12 X6 X9 n hn', sum_lt_succ _ n hn', sum_lt_succ _ n hn', ← ih1, ← ih2]
    exact ⟨pay9_apply _ _ _ _ _ _ _ p, pay10_apply _ _ _ _ _ p⟩

end Pass2

end

end Cert.KernelIdeal.Folds

end
-- ==== Proof.IdealReads.lean ====
/-
  Loads read back as functions, and the regrouping of a sum by chunks. A load of a whole block whose buffer holds x reads x.
  A load of chunk k — 1024 rows of the embeddings from row 1024 k, or 1024 columns of a one-row or 256-row buffer from
  column 1024 k — reads the buffer at row (column) 1024 k + q. And a sum over the 8192 columns is the sum over the eight
  chunks k of the sum over the chunk's 1024 columns 1024 k + q: the extended reals' addition is commutative and
  associative, so the order of a finite sum is free.
-/
import proofs.«119205_j1864015806540_2_alg».proof.Proof.IdealTrips
import Idealize.ShloMosaic.Lib.Pipeline.Frame

set_option maxRecDepth 16384

noncomputable section

namespace Cert.KernelIdeal.Reads

open Cert.KernelIdeal Cert.KernelIdeal.Gen Cert.KernelIdeal.Trips
open Idealize.ShloMosaic Idealize.ShloMosaic.TcCoe Idealize.ShloMosaic.ValueIdx Idealize.SL.Sem

variable {F : FTy → Type} [FloatOps F]

theorem zero2 : (![0, 0] : Fin 2 → Nat) = fun _ => 0 := by funext a; fin_cases a <;> rfl

/-- A whole-block load of a buffer holding x reads x. -/
theorem read_whole {S : Shape} {e : EltTy} (hr : S.rank = 2) (M : Memref sig .tc .vmem S e) (hM : M.IsWhole) (x : S.Idx → Elt F e)
    (off : Fin S.rank → Nat) (hoff : off = fun _ => 0) (inb : ∀ a, off a + S.size a ≤ S.size a) :
    View.readAt (Elt F) M.view (Rect.unit (s := S) off S.size inb).toLoadRect (hM.unread x) = x := by
  rw [View.readAt_eq_ld, hM.read_unread, View.ld_unit_zero hoff]

section
variable (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)

/-- Chunk k of the embeddings' rows. -/
theorem read_rows (x2 : Vec F S8192x128 .bf16) (k : Fin k0_t1_loop.trips) (q : Fin 1024) (kk : Fin 128) (h : 1024 * k.val + q.val < 8192) :
    View.readAt (Elt F) arg2.view (Rect.unit (s := S8192x128) (k0_off1 k) S1024x128.size (k0_off1_inb k)).toLoadRect (harg2.unread x2) (ix2 q kk)
      = x2 (ix2 (⟨1024 * k.val + q.val, h⟩ : Fin 8192) kk) := by
  rw [View.readAt_eq_ld, harg2.read_unread]
  show x2 ((Rect.unit (s := S8192x128) (k0_off1 k) S1024x128.size (k0_off1_inb k)).toLoadRect.idx (ix2 q kk)) = _
  rw [unit_idx2 (a := 8192) (b := 128) (a' := 1024) (b' := 128) (k0_off1 k) (k0_off1_inb k) q kk (1024 * k.val) 0 (k0_off1_eq k) h (by have := kk.isLt; omega)]
  exact congrArg x2 (congrArg (ix2 _) (Fin.ext (Nat.zero_add _)))

/-- Chunk k of a one-row buffer's columns (the squared norms, the labels), for either pass's offsets. -/
theorem read_cols {e : EltTy} (M : Memref sig .tc .vmem S1x8192 e) (hM : M.IsWhole) (x : S1x8192.Idx → Elt F e) (off : Fin 2 → Nat)
    (inb : ∀ a, off a + S1x1024.size a ≤ S1x8192.size a) (kv : Nat) (hoff : off = ![0, 1024 * kv]) (q : Fin 1024) (h : 1024 * kv + q.val < 8192) :
    View.readAt (Elt F) M.view (Rect.unit (s := S1x8192) off S1x1024.size inb).toLoadRect (hM.unread x) (ix2 (0 : Fin 1) q)
      = x (ix2 (0 : Fin 1) (⟨1024 * kv + q.val, h⟩ : Fin 8192)) := by
  rw [View.readAt_eq_ld, hM.read_unread]
  show x ((Rect.unit (s := S1x8192) off S1x1024.size inb).toLoadRect.idx (ix2 (0 : Fin 1) q)) = _
  rw [unit_idx2 (a := 1) (b := 8192) (a' := 1) (b' := 1024) off inb (0 : Fin 1) q 0 (1024 * kv) hoff (by decide) h]
  exact congrArg x (congrArg (fun a => ix2 a _) (Fin.ext (Nat.zero_add _)))

/-- Chunk k of the scratch's columns. -/
theorem read_scratch (Y : S256x8192.Idx → Elt F .f32) (k : Fin k0_t2_loop.trips) (p : Fin 256) (q : Fin 1024) (h : 1024 * k.val + q.val < 8192) :
    View.readAt (Elt F) arg9.view (Rect.unit (s := S256x8192) (k0_off4 k) S256x1024.size (k0_off4_inb k)).toLoadRect (harg9.unread Y) (ix2 p q)
      = Y (ix2 p (⟨1024 * k.val + q.val, h⟩ : Fin 8192)) := by
  rw [View.readAt_eq_ld, harg9.read_unread]
  show Y ((Rect.unit (s := S256x8192) (k0_off4 k) S256x1024.size (k0_off4_inb k)).toLoadRect.idx (ix2 p q)) = _
  rw [unit_idx2 (a := 256) (b := 8192) (a' := 256) (b' := 1024) (k0_off4 k) (k0_off4_inb k) p q 0 (1024 * k.val) (k0_off4_eq k) (by have := p.isLt; omega) h]
  exact congrArg Y (congrArg (fun a => ix2 a _) (Fin.ext (Nat.zero_add _)))
end

/-! ## A sum over the columns, by chunks -/

theorem regroup8 (f : Fin 8192 → EReal) :
    (∑ k : Fin 8, ∑ q : Fin 1024, f ⟨1024 * k.val + q.val, by have := k.isLt; have := q.isLt; omega⟩) = ∑ j : Fin 8192, f j := by
  rw [← Fintype.sum_prod_type']
  refine (Fintype.sum_equiv (finProdFinEquiv : Fin 8 × Fin 1024 ≃ Fin (8 * 1024)) _ (fun j : Fin (8 * 1024) => f ⟨j.val, j.isLt⟩) fun x => ?_).trans ?_
  · refine congrArg f (Fin.ext ?_)
    show 1024 * x.1.val + x.2.val = (finProdFinEquiv x).val
    rw [finProdFinEquiv_apply_val]; omega
  · rfl

/-- The same over the trips' index type (eight trips). -/
theorem regroup {N : ℕ} (hN : N = 8) (f : Fin 8192 → EReal) :
    (∑ k : Fin N, ∑ q : Fin 1024, f ⟨1024 * k.val + q.val, by have := k.isLt; have := q.isLt; omega⟩) = ∑ j : Fin 8192, f j := by
  subst hN; exact regroup8 f

end Cert.KernelIdeal.Reads

end
-- ==== Proof.IdealPoint.lean ====
/-
  The kernel body at one anchor row block, as a function of its six input blocks. The scratch after the first pass holds at
  column 1024 k + q the distance chunk k stored there: of the eight pieces exactly one covers that column. With that, the
  second pass's carried sum at row p is one sum over all 8192 columns j of [same label ∧ row before column] ·
  log1p (Z p · exp (−D p j)), where D p j is the distance of anchor p to column j and Z p the first pass's sum over the
  columns with another label of exp (D p j); and its carried count is the number of such columns.
-/
import proofs.«119205_j1864015806540_2_alg».proof.Proof.IdealFolds
import proofs.«119205_j1864015806540_2_alg».proof.Proof.IdealReads

set_option maxRecDepth 16384

noncomputable section

namespace Cert.KernelIdeal.Point

open Cert.KernelIdeal Cert.KernelIdeal.Gen Cert.KernelIdeal.Trips Cert.KernelIdeal.Pay Cert.KernelIdeal.Folds Cert.KernelIdeal.Reads
open Idealize.ShloMosaic Idealize.ShloMosaic.TcCoe Idealize.ShloMosaic.ValueIdx Idealize.SL.Sem

/-- A unit-stride rectangle's embedding: offset plus coordinate. -/
theorem unit_emb2 {a b a' b' : Nat} (off : Fin 2 → Nat) (inb : ∀ d, off d + (⟨2, ![a', b']⟩ : Shape).size d ≤ (⟨2, ![a, b]⟩ : Shape).size d)
    (p : Fin a') (q : Fin b') (o0 o1 : Nat) (h : off = ![o0, o1]) (h0 : o0 + p.val < a) (h1 : o1 + q.val < b) :
    (Rect.unit (s := ⟨2, ![a, b]⟩) off (⟨2, ![a', b']⟩ : Shape).size inb).emb (ix2 p q) = ix2 (⟨o0 + p.val, h0⟩ : Fin a) (⟨o1 + q.val, h1⟩ : Fin b) := by
  subst h
  funext d
  match d with
  | ⟨0, _⟩ => exact Fin.ext (by show (![o0, o1] : Fin 2 → Nat) 0 + 1 * p.val = o0 + p.val; simp)
  | ⟨1, _⟩ => exact Fin.ext (by show (![o0, o1] : Fin 2 → Nat) 1 + 1 * q.val = o1 + q.val; simp)

section
variable (𝒱 : Variants) (c : Dev nD) (bd : Option 𝒱.V) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
variable (v0 : Vec Ideal S256x128 .bf16) (v2 : Vec Ideal S256x1 .f32) (v4 : Vec Ideal S256x1 .i32)
  (X2 : BufTy.Contents (Elt Ideal) arg2.view.ty) (X4 : BufTy.Contents (Elt Ideal) arg4.view.ty) (X6 : BufTy.Contents (Elt Ideal) arg6.view.ty)

/-- Where chunk k's piece puts its element (p, q): column 1024 k + q. -/
theorem piece1_emb (k : Fin k0_t1_loop.trips) (p : Fin 256) (q : Fin 1024) (h : 1024 * k.val + q.val < 8192) :
    (piece1 arg2 arg4 v0 v2 X2 X4 k).1.emb (ix2 p q) = ix2 p (⟨1024 * k.val + q.val, h⟩ : Fin 8192) := by
  show (Rect.unit (s := S256x8192) (k0_off3 k) S256x1024.size (k0_off3_inb k)).emb (ix2 p q) = _
  rw [unit_emb2 (a := 256) (b := 8192) (a' := 256) (b' := 1024) (k0_off3 k) (k0_off3_inb k) p q 0 (1024 * k.val) (k0_off3_eq k) (by have := p.isLt; omega) h]
  exact congrArg (fun a => ix2 a _) (Fin.ext (Nat.zero_add _))

/-- The scratch after the first pass, at column 1024 k + q: what chunk k stored. -/
theorem scratch_read (k : Fin k0_t1_loop.trips) (p : Fin 256) (q : Fin 1024) (h : 1024 * k.val + q.val < 8192) :
    arg9.view.read (Elt Ideal) (arg9.view.writes (Elt Ideal) arg9.view.junk (st_k0_t1 (F := Ideal) 𝒱 c bd i arg1 harg1 arg2 harg2 arg3 harg3 arg4 harg4 arg5 harg5 arg6 harg6 arg7 harg7 arg8 harg8 arg9 harg9 v0 v2 v4 X2 X4 X6 k0_pay2 k0_t1_loop.trips).2) (ix2 p (⟨1024 * k.val + q.val, h⟩ : Fin 8192))
      = k0_pay4 v0 v2 (View.readAt (Elt Ideal) arg2.view (Rect.unit (s := S8192x128) (k0_off1 k) S1024x128.size (k0_off1_inb k)).toLoadRect X2) (View.readAt (Elt Ideal) arg4.view (Rect.unit (s := S1x8192) (k0_off2 k) S1x1024.size (k0_off2_inb k)).toLoadRect X4) (ix2 p q) := by
  rw [← piece1_emb arg2 arg4 v0 v2 X2 X4 k p q h]
  refine View.read_writes_of_unique arg9.view _ (piece1 arg2 arg4 v0 v2 X2 X4 k) (ix2 p q) _
    (st1_pieces_mem 𝒱 c bd i arg1 harg1 arg2 harg2 arg3 harg3 arg4 harg4 arg5 harg5 arg6 harg6 arg7 harg7 arg8 harg8 arg9 harg9 v0 v2 v4 X2 X4 X6 k0_t1_loop.trips le_rfl k k.isLt) (fun pc hpc hmem => ?_)
  obtain ⟨k', rfl⟩ := st1_pieces_of_mem 𝒱 c bd i arg1 harg1 arg2 harg2 arg3 harg3 arg4 harg4 arg5 harg5 arg6 harg6 arg7 harg7 arg8 harg8 arg9 harg9 v0 v2 v4 X2 X4 X6 k0_t1_loop.trips le_rfl pc hpc
  rw [piece1_emb arg2 arg4 v0 v2 X2 X4 k p q h] at hmem
  have hm := (Rect.mem_set_unit (s := S256x8192) (off := k0_off3 k') (size := S256x1024.size) (inb := k0_off3_inb k')).mp hmem 1
  rw [k0_off3_eq k'] at hm
  have hk : k'.val = k.val := by
    have h1 : 1024 * k'.val ≤ 1024 * k.val + q.val := hm.1
    have h2 : 1024 * k.val + q.val < 1024 * k'.val + 1024 := hm.2
    have := q.isLt
    omega
  rw [Fin.ext hk]
end

/-! ## The two passes over the blocks -/

section
variable (𝒱 : Variants) (c : Dev nD) (bd : Option 𝒱.V) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
variable (v0 : Vec Ideal S256x128 .bf16) (v2 : Vec Ideal S256x1 .f32) (v4 : Vec Ideal S256x1 .i32)
  (x2 : Vec Ideal S8192x128 .bf16) (x4 : Vec Ideal S1x8192 .f32) (x6 : Vec Ideal S1x8192 .i32)

/-- The distance of anchor row p to column j, over the blocks. -/
def Db (p : Fin 256) (j : Fin 8192) : EReal :=
  (v2 (ix2 p (0 : Fin 1)) + x4 (ix2 (0 : Fin 1) j)) - Cert.NPair.two * ∑ k : Fin 128, v0 (ix2 p k) * x2 (ix2 j k)

/-- The sum over the columns with another label of exp (distance). -/
def Zb (p : Fin 256) : EReal :=
  ∑ j : Fin 8192, if v4 (ix2 p (0 : Fin 1)) = x6 (ix2 (0 : Fin 1) j) then (0 : EReal) else Ideal.exp (Db v0 v2 x2 x4 p j)

theorem col_lt (N : ℕ) (hN : N = 8) (k : Fin N) (q : Fin 1024) : 1024 * k.val + q.val < 8192 := by
  have := k.isLt; have := q.isLt; omega

/-- Chunk k's distance at (p, q) is the distance to column 1024 k + q. -/
theorem dist_chunk (k : Fin k0_t1_loop.trips) (p : Fin 256) (q : Fin 1024) :
    k0_pay3 v0 v2 (View.readAt (Elt Ideal) arg2.view (Rect.unit (s := S8192x128) (k0_off1 k) S1024x128.size (k0_off1_inb k)).toLoadRect (harg2.unread x2)) (View.readAt (Elt Ideal) arg4.view (Rect.unit (s := S1x8192) (k0_off2 k) S1x1024.size (k0_off2_inb k)).toLoadRect (harg4.unread x4)) (ix2 p q)
      = Db v0 v2 x2 x4 p ⟨1024 * k.val + q.val, col_lt _ trips1 k q⟩ := by
  rw [pay3_apply]
  unfold Db
  rw [read_cols arg4 harg4 x4 (k0_off2 k) (k0_off2_inb k) k.val (k0_off2_eq k) q (col_lt _ trips1 k q)]
  refine congrArg (fun s => (v2 (ix2 p (0 : Fin 1)) + x4 (ix2 (0 : Fin 1) _)) - Cert.NPair.two * s) (Finset.sum_congr rfl fun kk _ => ?_)
  rw [read_rows arg2 harg2 x2 k q kk (col_lt _ trips1 k q)]

/-- The first pass's carried column after its eight trips. -/
theorem pass1_eq (p : Fin 256) : (st_k0_t1 (F := Ideal) 𝒱 c bd i arg1 harg1 arg2 harg2 arg3 harg3 arg4 harg4 arg5 harg5 arg6 harg6 arg7 harg7 arg8 harg8 arg9 harg9 v0 v2 v4 (harg2.unread x2) (harg4.unread x4) (harg6.unread x6) k0_pay2 k0_t1_loop.trips).1 (ix2 p (0 : Fin 1)) = Zb v0 v2 v4 x2 x4 x6 p := by
  rw [st1_carried 𝒱 c bd i arg1 harg1 arg2 harg2 arg3 harg3 arg4 harg4 arg5 harg5 arg6 harg6 arg7 harg7 arg8 harg8 arg9 harg9 v0 v2 v4 (harg2.unread x2) (harg4.unread x4) (harg6.unread x6) k0_t1_loop.trips le_rfl p, Finset.sum_congr rfl fun k _ => if_pos k.isLt]
  unfold Zb
  rw [← regroup trips1 (fun j => if v4 (ix2 p (0 : Fin 1)) = x6 (ix2 (0 : Fin 1) j) then (0 : EReal) else Ideal.exp (Db v0 v2 x2 x4 p j))]
  refine Finset.sum_congr rfl fun k _ => ?_
  unfold add1
  refine Finset.sum_congr rfl fun q _ => ?_
  rw [read_cols arg6 harg6 x6 (k0_off2 k) (k0_off2_inb k) k.val (k0_off2_eq k) q (col_lt _ trips1 k q), dist_chunk]

/-- The second pass's two carried columns after its eight trips. -/
theorem pass2_eq (p : Fin 256) :
    (st_k0_t2 (F := Ideal) 𝒱 c bd i arg1 harg1 arg2 harg2 arg3 harg3 arg4 harg4 arg5 harg5 arg6 harg6 arg7 harg7 arg8 harg8 arg9 harg9 v4 (st_k0_t1 (F := Ideal) 𝒱 c bd i arg1 harg1 arg2 harg2 arg3 harg3 arg4 harg4 arg5 harg5 arg6 harg6 arg7 harg7 arg8 harg8 arg9 harg9 v0 v2 v4 (harg2.unread x2) (harg4.unread x4) (harg6.unread x6) k0_pay2 k0_t1_loop.trips).1 (harg6.unread x6) (harg9.unread (arg9.view.read (Elt Ideal) (arg9.view.writes (Elt Ideal) arg9.view.junk (st_k0_t1 (F := Ideal) 𝒱 c bd i arg1 harg1 arg2 harg2 arg3 harg3 arg4 harg4 arg5 harg5 arg6 harg6 arg7 harg7 arg8 harg8 arg9 harg9 v0 v2 v4 (harg2.unread x2) (harg4.unread x4) (harg6.unread x6) k0_pay2 k0_t1_loop.trips).2))) (k0_pay6, k0_pay7) k0_t2_loop.trips).1 (ix2 p (0 : Fin 1))
        = (∑ j : Fin 8192, if v4 (ix2 p (0 : Fin 1)) = x6 (ix2 (0 : Fin 1) j) ∧ (i 0).val * 256 + p.val < j.val
            then Ideal.log1p (Zb v0 v2 v4 x2 x4 x6 p * Ideal.exp (-(Db v0 v2 x2 x4 p j))) else (0 : EReal))
    ∧ (st_k0_t2 (F := Ideal) 𝒱 c bd i arg1 harg1 arg2 harg2 arg3 harg3 arg4 harg4 arg5 harg5 arg6 harg6 arg7 harg7 arg8 harg8 arg9 harg9 v4 (st_k0_t1 (F := Ideal) 𝒱 c bd i arg1 harg1 arg2 harg2 arg3 harg3 arg4 harg4 arg5 harg5 arg6 harg6 arg7 harg7 arg8 harg8 arg9 harg9 v0 v2 v4 (harg2.unread x2) (harg4.unread x4) (harg6.unread x6) k0_pay2 k0_t1_loop.trips).1 (harg6.unread x6) (harg9.unread (arg9.view.read (Elt Ideal) (arg9.view.writes (Elt Ideal) arg9.view.junk (st_k0_t1 (F := Ideal) 𝒱 c bd i arg1 harg1 arg2 harg2 arg3 harg3 arg4 harg4 arg5 harg5 arg6 harg6 arg7 harg7 arg8 harg8 arg9 harg9 v0 v2 v4 (harg2.unread x2) (harg4.unread x4) (harg6.unread x6) k0_pay2 k0_t1_loop.trips).2))) (k0_pay6, k0_pay7) k0_t2_loop.trips).2 (ix2 p (0 : Fin 1))
        = (∑ j : Fin 8192, if v4 (ix2 p (0 : Fin 1)) = x6 (ix2 (0 : Fin 1) j) ∧ (i 0).val * 256 + p.val < j.val then (1 : EReal) else (0 : EReal)) := by
  obtain ⟨h1, h2⟩ := st2_carried 𝒱 c bd i arg1 harg1 arg2 harg2 arg3 harg3 arg4 harg4 arg5 harg5 arg6 harg6 arg7 harg7 arg8 harg8 arg9 harg9 v4 (st_k0_t1 (F := Ideal) 𝒱 c bd i arg1 harg1 arg2 harg2 arg3 harg3 arg4 harg4 arg5 harg5 arg6 harg6 arg7 harg7 arg8 harg8 arg9 harg9 v0 v2 v4 (harg2.unread x2) (harg4.unread x4) (harg6.unread x6) k0_pay2 k0_t1_loop.trips).1 (harg6.unread x6) (harg9.unread (arg9.view.read (Elt Ideal) (arg9.view.writes (Elt Ideal) arg9.view.junk (st_k0_t1 (F := Ideal) 𝒱 c bd i arg1 harg1 arg2 harg2 arg3 harg3 arg4 harg4 arg5 harg5 arg6 harg6 arg7 harg7 arg8 harg8 arg9 harg9 v0 v2 v4 (harg2.unread x2) (harg4.unread x4) (harg6.unread x6) k0_pay2 k0_t1_loop.trips).2))) k0_t2_loop.trips le_rfl p
  rw [sum_lt_all] at h1 h2
  have hcond : ∀ (k : Fin k0_t2_loop.trips) (q : Fin 1024),
      (v4 (ix2 p (0 : Fin 1)) = (View.readAt (Elt Ideal) arg6.view (Rect.unit (s := S1x8192) (k0_off5 k) S1x1024.size (k0_off5_inb k)).toLoadRect (harg6.unread x6)) (ix2 (0 : Fin 1) q) ∧ (i 0).val * 256 + p.val < k.val * 1024 + q.val)
        ↔ (v4 (ix2 p (0 : Fin 1)) = x6 (ix2 (0 : Fin 1) (⟨1024 * k.val + q.val, col_lt _ trips2 k q⟩ : Fin 8192))
            ∧ (i 0).val * 256 + p.val < (⟨1024 * k.val + q.val, col_lt _ trips2 k q⟩ : Fin 8192).val) := by
    intro k q
    rw [read_cols arg6 harg6 x6 (k0_off5 k) (k0_off5_inb k) k.val (k0_off5_eq k) q (col_lt _ trips2 k q), Nat.mul_comm k.val 1024]
  refine ⟨h1.trans ?_, h2.trans ?_⟩
  · rw [← regroup trips2 (fun j => if v4 (ix2 p (0 : Fin 1)) = x6 (ix2 (0 : Fin 1) j) ∧ (i 0).val * 256 + p.val < j.val
        then Ideal.log1p (Zb v0 v2 v4 x2 x4 x6 p * Ideal.exp (-(Db v0 v2 x2 x4 p j))) else (0 : EReal))]
    refine Finset.sum_congr rfl fun k _ => ?_
    unfold add2s
    refine Finset.sum_congr rfl fun q _ => ?_
    refine if_congr (hcond k q) ?_ rfl
    rw [pass1_eq, read_scratch arg9 harg9 _ k p q (col_lt _ trips2 k q)]
    have hs := scratch_read 𝒱 c bd i arg1 harg1 arg2 harg2 arg3 harg3 arg4 harg4 arg5 harg5 arg6 harg6 arg7 harg7 arg8 harg8 arg9 harg9 v0 v2 v4 (harg2.unread x2) (harg4.unread x4) (harg6.unread x6) k p q (col_lt _ trips2 k q)
    rw [hs, pay4_apply, dist_chunk]
  · rw [← regroup trips2 (fun j => if v4 (ix2 p (0 : Fin 1)) = x6 (ix2 (0 : Fin 1) j) ∧ (i 0).val * 256 + p.val < j.val then (1 : EReal) else (0 : EReal))]
    refine Finset.sum_congr rfl fun k _ => ?_
    unfold add2c
    refine Finset.sum_congr rfl fun q _ => ?_
    exact if_congr (hcond k q) rfl rfl
end

end Cert.KernelIdeal.Point

end
-- ==== Proof.IdealValue.lean ====
/-
  What the body leaves in the two output blocks, over its six input blocks. The run stored one whole 256 × 1 column into
  each output block, the second pass's carried sum and carried count; a whole-block piece read back is its payload, and a
  whole-block load of a buffer holding x is x. So at row p the first output block holds the sum over all 8192 columns j of
  [same label ∧ row before column] · log1p (Z p · exp (−D p j)) and the second the number of such columns, with D and Z as
  in the per-point module, over the anchors' rows, norms and labels and all rows, norms and labels.
-/
import proofs.«119205_j1864015806540_2_alg».proof.Proof.IdealPoint
import proofs.«119205_j1864015806540_2_alg».proof.Proof.IdealData

set_option maxRecDepth 16384

noncomputable section

namespace Cert.KernelIdeal.Point

open Cert.KernelIdeal Cert.KernelIdeal.Gen Cert.KernelIdeal.Trips Cert.KernelIdeal.Pay Cert.KernelIdeal.Folds Cert.KernelIdeal.Reads Cert.KernelIdeal.Hand
open Idealize.ShloMosaic Idealize.ShloMosaic.TcCoe Idealize.ShloMosaic.ValueIdx Idealize.SL.Sem

section
variable (c : Dev nD) (i : grid0.Coords) (arg1 : Memref sig .tc .vmem S256x128 .bf16) (harg1 : arg1.IsWhole) (arg2 : Memref sig .tc .vmem S8192x128 .bf16) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x8192 .f32) (harg9 : arg9.IsWhole)
variable (x1 : Vec Ideal S256x128 .bf16) (x2 : Vec Ideal S8192x128 .bf16) (x3 : Vec Ideal S256x1 .f32) (x4 : Vec Ideal S1x8192 .f32)
  (x5 : Vec Ideal S256x1 .i32) (x6 : Vec Ideal S1x8192 .i32)

set_option maxHeartbeats 1000000 in
theorem out6_apply (p : Fin 256) :
    out6 (F := Ideal) c i arg1 harg1 arg2 harg2 arg3 harg3 arg4 harg4 arg5 harg5 arg6 harg6 arg7 harg7 arg8 harg8 arg9 harg9 x1 x2 x3 x4 x5 x6 (ix2 p (0 : Fin 1))
      = ∑ j : Fin 8192, if x5 (ix2 p (0 : Fin 1)) = x6 (ix2 (0 : Fin 1) j) ∧ (i 0).val * 256 + p.val < j.val
          then Ideal.log1p (Zb x1 x3 x5 x2 x4 x6 p * Ideal.exp (-(Db x1 x3 x2 x4 p j))) else (0 : EReal) := by
  unfold out6 kernelRun
  dsimp only
  rw [View.read_writes_eq_canon _ _ _ (fun y => ⟨_, List.mem_singleton_self _, View.mem_set_unit_zero zero2 inb_S256x1_S256x1_0_0 y⟩), View.canon_unit_zero zero2,
    read_whole rfl arg1 harg1 x1 _ zero2, read_whole rfl arg3 harg3 x3 _ zero2, read_whole rfl arg5 harg5 x5 _ zero2]
  exact (pass2_eq Variants.none c none i arg1 harg1 arg2 harg2 arg3 harg3 arg4 harg4 arg5 harg5 arg6 harg6 arg7 harg7 arg8 harg8 arg9 harg9 x1 x3 x5 x2 x4 x6 p).1

set_option maxHeartbeats 1000000 in
theorem out7_apply (p : Fin 256) :
    out7 (F := Ideal) c i arg1 harg1 arg2 harg2 arg3 harg3 arg4 harg4 arg5 harg5 arg6 harg6 arg7 harg7 arg8 harg8 arg9 harg9 x1 x2 x3 x4 x5 x6 (ix2 p (0 : Fin 1))
      = ∑ j : Fin 8192, if x5 (ix2 p (0 : Fin 1)) = x6 (ix2 (0 : Fin 1) j) ∧ (i 0).val * 256 + p.val < j.val then (1 : EReal) else (0 : EReal) := by
  unfold out7 kernelRun
  dsimp only
  rw [View.read_writes_eq_canon _ _ _ (fun y => ⟨_, List.mem_singleton_self _, View.mem_set_unit_zero zero2 inb_S256x1_S256x1_0_0 y⟩), View.canon_unit_zero zero2,
    read_whole rfl arg1 harg1 x1 _ zero2, read_whole rfl arg3 harg3 x3 _ zero2, read_whole rfl arg5 harg5 x5 _ zero2]
  exact (pass2_eq Variants.none c none i arg1 harg1 arg2 harg2 arg3 harg3 arg4 harg4 arg5 harg5 arg6 harg6 arg7 harg7 arg8 harg8 arg9 harg9 x1 x3 x5 x2 x4 x6 p).2
end

/-! ## Over the arrays: the blocks are rows of x, their norms and their labels -/

section
variable (x : Fin 8192 → Fin 128 → EReal) (lab : Fin 8192 → BitVec 32) (r : Fin 8192) (p : Fin 256) (iv : ℕ) (hr : iv * 256 + p.val = r.val)
variable (x1 : Vec Ideal S256x128 .bf16) (x2 : Vec Ideal S8192x128 .bf16) (x3 : Vec Ideal S256x1 .f32) (x4 : Vec Ideal S1x8192 .f32)
  (x5 : Vec Ideal S256x1 .i32) (x6 : Vec Ideal S1x8192 .i32)
  (h1 : ∀ k : Fin 128, x1 (ix2 p k) = x r k) (h2 : ∀ (j : Fin 8192) (k : Fin 128), x2 (ix2 j k) = x j k)
  (h3 : x3 (ix2 p (0 : Fin 1)) = Cert.NPair.sqn x r) (h4 : ∀ j : Fin 8192, x4 (ix2 (0 : Fin 1) j) = Cert.NPair.sqn x j)
  (h5 : x5 (ix2 p (0 : Fin 1)) = lab r) (h6 : ∀ j : Fin 8192, x6 (ix2 (0 : Fin 1) j) = lab j)

include h1 h2 h3 h4 in
theorem Db_eq (j : Fin 8192) : Db x1 x3 x2 x4 p j = Cert.NPair.dist x r j := by
  unfold Db Cert.NPair.dist Cert.NPair.dot
  rw [h3, h4 j, Finset.sum_congr rfl fun k _ => by rw [h1 k, h2 j k]]

include h1 h2 h3 h4 h5 h6 in
theorem Zb_eq : Zb x1 x3 x5 x2 x4 x6 p = Cert.NPair.negSum x lab r := by
  unfold Zb Cert.NPair.negSum
  refine Finset.sum_congr rfl fun j _ => ?_
  rw [h5, h6 j, Db_eq x r p x1 x2 x3 x4 h1 h2 h3 h4 j]

include hr h1 h2 h3 h4 h5 h6 in
theorem blockSum_eq :
    (∑ j : Fin 8192, if x5 (ix2 p (0 : Fin 1)) = x6 (ix2 (0 : Fin 1) j) ∧ iv * 256 + p.val < j.val
        then Ideal.log1p (Zb x1 x3 x5 x2 x4 x6 p * Ideal.exp (-(Db x1 x3 x2 x4 p j))) else (0 : EReal))
      = Cert.NPair.rowSum x lab r := by
  unfold Cert.NPair.rowSum Cert.NPair.pair
  refine Finset.sum_congr rfl fun j _ => ?_
  rw [h5, h6 j, Zb_eq x lab r p x1 x2 x3 x4 x5 x6 h1 h2 h3 h4 h5 h6, Db_eq x r p x1 x2 x3 x4 h1 h2 h3 h4 j, hr]

include hr h5 h6 in
theorem blockCnt_eq :
    (∑ j : Fin 8192, if x5 (ix2 p (0 : Fin 1)) = x6 (ix2 (0 : Fin 1) j) ∧ iv * 256 + p.val < j.val then (1 : EReal) else (0 : EReal))
      = Cert.NPair.rowCnt lab r := by
  unfold Cert.NPair.rowCnt Cert.NPair.pair
  refine Finset.sum_congr rfl fun j _ => ?_
  rw [h5, h6 j, hr]
end

end Cert.KernelIdeal.Point

end
-- ==== Proof.IdealCover.lean ====
/-
  From blocks to arrays, for the kernel's one pipeline of 32 grid points. At point t the five row windows (the anchors'
  embeddings, squared norms and labels, and the two outputs) hold rows 256 t … 256 t + 255 of their arrays, and the three
  resident windows (all embeddings, all squared norms as a row, all labels as a row) hold their whole arrays: each window's
  block index at t is (t, 0) or (0, 0), decided once over the grid, and a block's coordinate in its array is the block
  index times the block's extent plus the coordinate inside the block.
  So an input block read at an element is its array read at the shifted element; and for each output, when the column the
  body leaves at every point t agrees with rows 256 t … of one function G of the array's indices, the array after the run
  is G: what point t writes back is block t of G, every point writes back, and row r lies in the block of point r / 256.
-/
import proofs.«119205_j1864015806540_2_alg».proof.Proof.IdealData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The index maps over the grid -/

/-- The five row windows' block index at point `t` is `(t, 0)`; the three resident windows' is `(0, 0)`. -/
theorem idx_facts : ∀ t : Fin cfg0.N,
    (win0_0.index t (0 : Fin 2) = t.val ∧ win0_0.index t (1 : Fin 2) = 0)
    ∧ (win0_2.index t (0 : Fin 2) = t.val ∧ win0_2.index t (1 : Fin 2) = 0)
    ∧ (win0_4.index t (0 : Fin 2) = t.val ∧ win0_4.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0) :=
  (by decide +kernel : ∀ t : Fin grid0.N, _)

theorem point_lt (t : Fin cfg0.N) : t.val < 32 := Nat.lt_of_lt_of_eq t.isLt N_0

/-! ## The input blocks, read off their arrays -/

/-- Row `p` of the anchors' block at point `t` is row `256 t + p` of the embeddings. -/
theorem blk0 (c : Dev nD) (t : Fin cfg0.N) (p : Fin 256) (k : Fin 128) (h : 256 * t.val + p.val < 8192) :
    (iblk V c 0 t : S256x128.Idx → Elt F .bf16) (ix2 p k) = (V c main_v2 : S8192x128.Idx → Elt F .bf16) (ix2 (⟨256 * t.val + p.val, h⟩ : Fin 8192) k) := by
  obtain ⟨⟨e0, e1⟩, -⟩ := idx_facts t
  unfold iblk
  rw [View.read_apply]
  show V c main_v2 _ = V c main_v2 _
  refine congrArg (V c main_v2) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 128 + 1 * k.val = k.val; rw [e1]; omega

/-- Row `p` of the anchors' squared norms at point `t` is row `256 t + p` of the column of squared norms. -/
theorem blk2 (c : Dev nD) (t : Fin cfg0.N) (p : Fin 256) (h : 256 * t.val + p.val < 8192) :
    (iblk V c 2 t : S256x1.Idx → Elt F .f32) (ix2 p (0 : Fin 1)) = (V c main_v3 : S8192x1.Idx → Elt F .f32) (ix2 (⟨256 * t.val + p.val, h⟩ : Fin 8192) (0 : Fin 1)) := by
  obtain ⟨-, ⟨e0, e1⟩, -⟩ := idx_facts t
  unfold iblk
  rw [View.read_apply]
  show V c main_v3 _ = V c main_v3 _
  refine congrArg (V c main_v3) (funext fun a => Fin.ext ?_)
  match a with
  | ⟨0, _⟩ => show win0_2.index t (0 : Fin 2) * 256 + 1 * p.val = 256 * t.val + p.val; rw [e0]; omega
  | ⟨1, _⟩ => show win0_2.index t (1 : Fin 2) * 1 + 1 * 0 = 0; rw [e1]

/-- Row `p` of the anchors' labels at point `t` is row `256 t + p` of the column of labels. -/
theorem blk4 (c : Dev nD) (t : Fin cfg0.N) (p : Fin 256) (h : 256 * t.val + p.val < 8192) :
    (iblk V c 4 t : S256x1.Idx → Elt F .i32) (ix2 p (0 : Fin 1)) = (V c main_v5 : S8192x1.Idx → Elt F .i32) (ix2 (⟨256 * t.val + p.val, h⟩ : Fin 8192) (0 : Fin 1)) := by
  obtain ⟨-, -, ⟨e0, e1⟩, -⟩ := idx_facts t
  unfold iblk
  rw [View.read_apply]
  show V c main_v5 _ = V c main_v5 _
  refine congrArg (V c main_v5) (funext fun a => Fin.ext ?_)
  match a with
  | ⟨0, _⟩ => show win0_4.index t (0 : Fin 2) * 256 + 1 * p.val = 256 * t.val + p.val; rw [e0]; omega
  | ⟨1, _⟩ => show win0_4.index t (1 : Fin 2) * 1 + 1 * 0 = 0; rw [e1]

/-- The resident block of the embeddings is the whole array, at every point. -/
theorem blk1 (c : Dev nD) (t : Fin cfg0.N) : (iblk V c 1 t : S8192x128.Idx → Elt F .bf16) = (V c main_v2 : S8192x128.Idx → Elt F .bf16) := by
  obtain ⟨-, -, -, -, -, ⟨e0, e1⟩, -⟩ := idx_facts t
  funext j
  unfold iblk
  rw [View.read_apply]
  show V c main_v2 _ = V c main_v2 _
  refine congrArg (V c main_v2) (funext fun a => Fin.ext ?_)
  match a with
  | ⟨0, _⟩ => show win0_1.index t (0 : Fin 2) * 8192 + 1 * (j 0).val = (j 0).val; rw [e0]; omega
  | ⟨1, _⟩ => show win0_1.index t (1 : Fin 2) * 128 + 1 * (j 1).val = (j 1).val; rw [e1]; omega

/-- The resident block of the squared norms as a row is the whole array. -/
theorem blk3 (c : Dev nD) (t : Fin cfg0.N) : (iblk V c 3 t : S1x8192.Idx → Elt F .f32) = (V c main_v4 : S1x8192.Idx → Elt F .f32) := by
  obtain ⟨-, -, -, -, -, -, ⟨e0, e1⟩, -⟩ := idx_facts t
  funext j
  unfold iblk
  rw [View.read_apply]
  show V c main_v4 _ = V c main_v4 _
  refine congrArg (V c main_v4) (funext fun a => Fin.ext ?_)
  match a with
  | ⟨0, _⟩ => show win0_3.index t (0 : Fin 2) * 1 + 1 * (j 0).val = (j 0).val; rw [e0]; omega
  | ⟨1, _⟩ => show win0_3.index t (1 : Fin 2) * 8192 + 1 * (j 1).val = (j 1).val; rw [e1]; omega

/-- The resident block of the labels as a row is the whole array. -/
theorem blk5 (c : Dev nD) (t : Fin cfg0.N) : (iblk V c 5 t : S1x8192.Idx → Elt F .i32) = (V c main_v6 : S1x8192.Idx → Elt F .i32) := by
  obtain ⟨-, -, -, -, -, -, -, ⟨e0, e1⟩⟩ := idx_facts t
  funext j
  unfold iblk
  rw [View.read_apply]
  show V c main_v6 _ = V c main_v6 _
  refine congrArg (V c main_v6) (funext fun a => Fin.ext ?_)
  match a with
  | ⟨0, _⟩ => show win0_5.index t (0 : Fin 2) * 1 + 1 * (j 0).val = (j 0).val; rw [e0]; omega
  | ⟨1, _⟩ => show win0_5.index t (1 : Fin 2) * 8192 + 1 * (j 1).val = (j 1).val; rw [e1]; omega

/-! ## The output arrays after the run -/

/-- A column of 256 entries that agrees with rows `256 t …` of `G` is, cut to what point `t` writes back, block `t` of `G`. -/
theorem cut6_eq_read (X : Vec F S256x1 .f32) (G : S8192x1.Idx → Elt F .f32) (t : Fin cfg0.N)
    (hX : ∀ (p : Fin 256) (h : 256 * t.val + p.val < 8192), X (ix2 p (0 : Fin 1)) = G (ix2 (⟨256 * t.val + p.val, h⟩ : Fin 8192) (0 : Fin 1))) :
    (cfg0.win 6).cut (grid0.coords t) X = ((cfg0.win 6).blk t).view.read (Elt F) G := by
  obtain ⟨-, -, -, ⟨e0, e1⟩, -⟩ := idx_facts t
  have ht := point_lt t
  funext y
  have h0 : (y 0).val < 256 := (y 0).isLt
  have h1 : (y 1).val < 1 := (y 1).isLt
  have hlt : 256 * t.val + (y 0).val < 8192 := by omega
  have hl : (cfg0.win 6).cut (grid0.coords t) X y = X (ix2 (⟨(y 0).val, h0⟩ : Fin 256) (0 : Fin 1)) :=
    congrArg X (funext fun a => Fin.ext (by
      match a with
      | ⟨0, _⟩ => rfl
      | ⟨1, _⟩ => show (y 1).val = 0; omega))
  have hr : ((cfg0.win 6).blk t).view.read (Elt F) G y = G (ix2 (⟨256 * t.val + (y 0).val, hlt⟩ : Fin 8192) (0 : Fin 1)) := by
    rw [View.read_apply]
    refine congrArg G (funext fun a => Fin.ext ?_)
    match a with
    | ⟨0, _⟩ => show win0_6.index t (0 : Fin 2) * 256 + 1 * (y 0).val = 256 * t.val + (y 0).val; rw [e0]; omega
    | ⟨1, _⟩ => show win0_6.index t (1 : Fin 2) * 1 + 1 * (y 1).val = 0; rw [e1]; omega
  rw [hl, hr]
  exact hX _ hlt

/-- An index of the array is in point `t`'s block iff each coordinate is in the block's range on its axis. -/
theorem mem_blk6 (t : Fin cfg0.N) (i : S8192x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v7_0).slice (win0_6.rect t)).set ↔ _
  rw [View.set_slice_whole, Rect.mem_set_unit]
  exact Iff.rfl

/-- Every row of the array is in the block of the point `row / 256`, which writes back. -/
theorem rows_cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 32 := N_0
  have hlt : (i 0).val / 256 < cfg0.N := by rw [hN]; omega
  obtain ⟨-, -, -, ⟨e0, e1⟩, -⟩ := idx_facts ⟨(i 0).val / 256, hlt⟩
  have e0' : win0_6.index ⟨(i 0).val / 256, hlt⟩ (0 : Fin 2) = (i 0).val / 256 := e0
  refine ⟨⟨(i 0).val / 256, hlt⟩, flush0_6 _, ?_⟩
  rw [mem_blk6]
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e0']; omega
  | ⟨1, _⟩ =>
    show win0_6.index ⟨(i 0).val / 256, hlt⟩ (1 : Fin 2) * 1 ≤ (i 1).val ∧ (i 1).val < win0_6.index ⟨(i 0).val / 256, hlt⟩ (1 : Fin 2) * 1 + 1
    rw [e1]; omega

/-- The row sums' array after the run is `G6`, when at every point the column the body leaves is rows `256 t …` of `G6`. -/
theorem final6 (c : Dev nD) (G6 : S8192x1.Idx → Elt F .f32)
    (hblk : ∀ (t : Fin cfg0.N) (p : Fin 256) (h : 256 * t.val + p.val < 8192), outsAt6 V c t (ix2 p (0 : Fin 1)) = G6 (ix2 (⟨256 * t.val + p.val, h⟩ : Fin 8192) (0 : Fin 1))) :
    ((dats V c).arrAt 6 cfg0.N : S8192x1.Idx → Elt F .f32) = G6 :=
  (dats V c).arrAt_eq_of_cover 6 G6 (fun t _ => by
    show (cfg0.win 6).cut (grid0.coords t) ((dats V c).after 6 t) = _
    rw [after6]
    exact cut6_eq_read (outsAt6 V c t) G6 t (hblk t)) rows_cover6

/-- A column of 256 entries that agrees with rows `256 t …` of `G` is, cut to what point `t` writes back, block `t` of `G`. -/
theorem cut7_eq_read (X : Vec F S256x1 .f32) (G : S8192x1.Idx → Elt F .f32) (t : Fin cfg0.N)
    (hX : ∀ (p : Fin 256) (h : 256 * t.val + p.val < 8192), X (ix2 p (0 : Fin 1)) = G (ix2 (⟨256 * t.val + p.val, h⟩ : Fin 8192) (0 : Fin 1))) :
    (cfg0.win 7).cut (grid0.coords t) X = ((cfg0.win 7).blk t).view.read (Elt F) G := by
  obtain ⟨-, -, -, -, ⟨e0, e1⟩, -⟩ := idx_facts t
  have ht := point_lt t
  funext y
  have h0 : (y 0).val < 256 := (y 0).isLt
  have h1 : (y 1).val < 1 := (y 1).isLt
  have hlt : 256 * t.val + (y 0).val < 8192 := by omega
  have hl : (cfg0.win 7).cut (grid0.coords t) X y = X (ix2 (⟨(y 0).val, h0⟩ : Fin 256) (0 : Fin 1)) :=
    congrArg X (funext fun a => Fin.ext (by
      match a with
      | ⟨0, _⟩ => rfl
      | ⟨1, _⟩ => show (y 1).val = 0; omega))
  have hr : ((cfg0.win 7).blk t).view.read (Elt F) G y = G (ix2 (⟨256 * t.val + (y 0).val, hlt⟩ : Fin 8192) (0 : Fin 1)) := by
    rw [View.read_apply]
    refine congrArg G (funext fun a => Fin.ext ?_)
    match a with
    | ⟨0, _⟩ => show win0_7.index t (0 : Fin 2) * 256 + 1 * (y 0).val = 256 * t.val + (y 0).val; rw [e0]; omega
    | ⟨1, _⟩ => show win0_7.index t (1 : Fin 2) * 1 + 1 * (y 1).val = 0; rw [e1]; omega
  rw [hl, hr]
  exact hX _ hlt

/-- An index of the array is in point `t`'s block iff each coordinate is in the block's range on its axis. -/
theorem mem_blk7 (t : Fin cfg0.N) (i : S8192x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v7_1).slice (win0_7.rect t)).set ↔ _
  rw [View.set_slice_whole, Rect.mem_set_unit]
  exact Iff.rfl

/-- Every row of the array is in the block of the point `row / 256`, which writes back. -/
theorem rows_cover7 (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  have hN : cfg0.N = 32 := N_0
  have hlt : (i 0).val / 256 < cfg0.N := by rw [hN]; omega
  obtain ⟨-, -, -, -, ⟨e0, e1⟩, -⟩ := idx_facts ⟨(i 0).val / 256, hlt⟩
  have e0' : win0_7.index ⟨(i 0).val / 256, hlt⟩ (0 : Fin 2) = (i 0).val / 256 := e0
  refine ⟨⟨(i 0).val / 256, hlt⟩, flush0_7 _, ?_⟩
  rw [mem_blk7]
  intro a
  match a with
  | ⟨0, _⟩ =>
    show win0_7.index ⟨(i 0).val / 256, hlt⟩ (0 : Fin 2) * 256 ≤ (i 0).val ∧ (i 0).val < win0_7.index ⟨(i 0).val / 256, hlt⟩ (0 : Fin 2) * 256 + 256
    rw [e0']; omega
  | ⟨1, _⟩ =>
    show win0_7.index ⟨(i 0).val / 256, hlt⟩ (1 : Fin 2) * 1 ≤ (i 1).val ∧ (i 1).val < win0_7.index ⟨(i 0).val / 256, hlt⟩ (1 : Fin 2) * 1 + 1
    rw [e1]; omega

/-- The counts' array after the run is `G7`, when at every point the column the body leaves is rows `256 t …` of `G7`. -/
theorem final7 (c : Dev nD) (G7 : S8192x1.Idx → Elt F .f32)
    (hblk : ∀ (t : Fin cfg0.N) (p : Fin 256) (h : 256 * t.val + p.val < 8192), outsAt7 V c t (ix2 p (0 : Fin 1)) = G7 (ix2 (⟨256 * t.val + p.val, h⟩ : Fin 8192) (0 : Fin 1))) :
    ((dats V c).arrAt 7 cfg0.N : S8192x1.Idx → Elt F .f32) = G7 :=
  (dats V c).arrAt_eq_of_cover 7 G7 (fun t _ => by
    show (cfg0.win 7).cut (grid0.coords t) ((dats V c).after 7 t) = _
    rw [after7]
    exact cut7_eq_read (outsAt7 V c t) G7 t (hblk t)) rows_cover7

end Cert.KernelIdeal.Hand

end
-- ==== Proof.HostSide.lean ====
/-
  The host operations around the kernel region, at the ideal values, for any contents of the buffers.
  Before the region: the bf16 copy of the embeddings is the embeddings (a change of format is the identity on the
  extended reals); the two reshapes of the row sums of x · x read, at (r, 0) and at (0, j), the squared norm of that
  row (a float sum from the zero word is the plain sum); the two reshapes of the labels read the label; the
  arguments are not written. After the region: the operations applied to the two result columns and the labels are
  one function `tailFn` of the columns read as row vectors and the labels; the reference applies the same function to
  its own two row vectors.
-/
import proofs.«119205_j1864015806540_2_alg».proof.Proof.Gen.KernelIdeal.Launch
import proofs.«119205_j1864015806540_2_alg».proof.Proof.Spec
import proofs.«119205_j1864015806540_2_alg».proof.Proof.RefRead
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-- The embeddings a valuation holds, by coordinates. -/
abbrev embW (W : Valuation τ sig (Elt Ideal)) : Fin 8192 → Fin 128 → EReal :=
  fun a k => (W (Proc.devRef .tc main_arg0) : S8192x128.Idx → EReal) (ix2 a k)
/-- The labels a valuation holds, by coordinate. -/
abbrev labW (W : Valuation τ sig (Elt Ideal)) : Fin 8192 → BitVec 32 :=
  fun a => (W (Proc.devRef .tc main_arg1) : S8192.Idx → BitVec 32) (ix1 a)
/-- The valuation after the eight operations before the kernel region. -/
abbrev Wp (W : Valuation τ sig (Elt Ideal)) : Valuation τ sig (Elt Ideal) := StableHlo.after (Gen.hostOps0 (F := Ideal)) W

/-- A row vector [8192] cast to a column [8192, 1] reads, at (r, 0), the operand at r. -/
theorem shapeCast_col_apply {α : Type} (x : S8192.Idx → α) (r : Fin 8192) (u : Fin 1) :
    shapeCast S8192x1 x shapeCasts_S8192_S8192x1 (ix2 r u) = x (ix1 r) :=
  shapeCast_apply x shapeCasts_S8192_S8192x1 _ _ (by
    have hu : u.val = 0 := by omega
    rw [Shape.rowMajor_val_two, Shape.rowMajor_val_one]
    show r.val = r.val * 1 + u.val
    rw [hu, Nat.mul_one, Nat.add_zero])

/-- A row vector [8192] cast to [1, 8192] reads, at (0, j), the operand at j. -/
theorem shapeCast_row_apply {α : Type} (x : S8192.Idx → α) (u : Fin 1) (j : Fin 8192) :
    shapeCast S1x8192 x shapeCasts_S8192_S1x8192 (ix2 u j) = x (ix1 j) :=
  shapeCast_a_1a_apply x shapeCasts_S8192_S1x8192 u j

/-- The squared norm of row r, as the host computes it before the kernel region. -/
theorem rowSq_eq (x0 : (⟨S8192x128, .f32⟩ : BufTy).Contents (Elt Ideal)) (r : Fin 8192) :
    Host.reduceAdd (F := Ideal) (mulf x0 x0) (constant (F := Ideal) S_ .f32 0x00000000#32) reducesTo_S8192x128_S8192_d1 h_S_ (ix1 r)
      = Cert.NPair.sqn (fun a k => x0 (ix2 a k)) r := by
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  unfold Cert.NPair.sqn
  refine Finset.sum_congr rfl fun k _ => ?_
  have e : (Shape.Reduces.lift (s := S8192x128) (a := 1) (t := S8192) (by decide) (ix1 r) k) = ix2 r k := by
    funext a; match a with | ⟨0, _⟩ => rfl | ⟨1, _⟩ => rfl
  rw [e]
  rfl

/-- The bf16 copy of the embeddings holds the embeddings. -/
theorem pre_v2 (W : Valuation τ sig (Elt Ideal)) (r : Fin 8192) (k : Fin 128) :
    (Wp W (Proc.devRef .tc main_v2) : S8192x128.Idx → EReal) (ix2 r k) = embW W r k := by
  have e : (Wp W (Proc.devRef .tc main_v2) : S8192x128.Idx → EReal)
      = truncf (F := Ideal) .bf16 (W (Proc.devRef .tc main_arg0) : (⟨S8192x128, .f32⟩ : BufTy).Contents (Elt Ideal)) bitsLt_bf16_f32 := by
    dsimp only [Wp, Gen.hostOps0]; after_results
  rw [e]; rfl

/-- The column of squared norms at (r, 0). -/
theorem pre_v3 (W : Valuation τ sig (Elt Ideal)) (r : Fin 8192) :
    (Wp W (Proc.devRef .tc main_v3) : S8192x1.Idx → EReal) (ix2 r (0 : Fin 1)) = Cert.NPair.sqn (embW W) r := by
  have e : (Wp W (Proc.devRef .tc main_v3) : S8192x1.Idx → EReal)
      = shapeCast S8192x1 (Host.reduceAdd (F := Ideal) (mulf (W (Proc.devRef .tc main_arg0) : (⟨S8192x128, .f32⟩ : BufTy).Contents (Elt Ideal)) (W (Proc.devRef .tc main_arg0)))
          (constant (F := Ideal) S_ .f32 0x00000000#32) reducesTo_S8192x128_S8192_d1 h_S_) shapeCasts_S8192_S8192x1 := by
    dsimp only [Wp, Gen.hostOps0]; after_results; rfl
  rw [e, shapeCast_col_apply, rowSq_eq]

/-- The row of squared norms at (0, j). -/
theorem pre_v4 (W : Valuation τ sig (Elt Ideal)) (j : Fin 8192) :
    (Wp W (Proc.devRef .tc main_v4) : S1x8192.Idx → EReal) (ix2 (0 : Fin 1) j) = Cert.NPair.sqn (embW W) j := by
  have e : (Wp W (Proc.devRef .tc main_v4) : S1x8192.Idx → EReal)
      = shapeCast S1x8192 (Host.reduceAdd (F := Ideal) (mulf (W (Proc.devRef .tc main_arg0) : (⟨S8192x128, .f32⟩ : BufTy).Contents (Elt Ideal)) (W (Proc.devRef .tc main_arg0)))
          (constant (F := Ideal) S_ .f32 0x00000000#32) reducesTo_S8192x128_S8192_d1 h_S_) shapeCasts_S8192_S1x8192 := by
    dsimp only [Wp, Gen.hostOps0]; after_results; rfl
  rw [e, shapeCast_row_apply, rowSq_eq]

/-- The column of labels at (r, 0). -/
theorem pre_v5 (W : Valuation τ sig (Elt Ideal)) (r : Fin 8192) :
    (Wp W (Proc.devRef .tc main_v5) : S8192x1.Idx → BitVec 32) (ix2 r (0 : Fin 1)) = labW W r := by
  have e : (Wp W (Proc.devRef .tc main_v5) : S8192x1.Idx → BitVec 32)
      = shapeCast S8192x1 (W (Proc.devRef .tc main_arg1) : S8192.Idx → BitVec 32) shapeCasts_S8192_S8192x1 := by
    dsimp only [Wp, Gen.hostOps0]; after_results; rfl
  rw [e, shapeCast_col_apply]

/-- The row of labels at (0, j). -/
theorem pre_v6 (W : Valuation τ sig (Elt Ideal)) (j : Fin 8192) :
    (Wp W (Proc.devRef .tc main_v6) : S1x8192.Idx → BitVec 32) (ix2 (0 : Fin 1) j) = labW W j := by
  have e : (Wp W (Proc.devRef .tc main_v6) : S1x8192.Idx → BitVec 32)
      = shapeCast S1x8192 (W (Proc.devRef .tc main_arg1) : S8192.Idx → BitVec 32) shapeCasts_S8192_S1x8192 := by
    dsimp only [Wp, Gen.hostOps0]; after_results; rfl
  rw [e, shapeCast_row_apply]

/-- No operation before the region writes the embeddings. -/
theorem pre_arg0 (W : Valuation τ sig (Elt Ideal)) : Wp W (Proc.devRef .tc main_arg0) = W (Proc.devRef .tc main_arg0) := by
  dsimp only [Wp, Gen.hostOps0]; after_results

/-- No operation before the region writes the labels. -/
theorem pre_arg1 (W : Valuation τ sig (Elt Ideal)) : Wp W (Proc.devRef .tc main_arg1) = W (Proc.devRef .tc main_arg1) := by
  dsimp only [Wp, Gen.hostOps0]; after_results

/-- The operations after the kernel region, %10 … %27, as one function of the two row vectors and the labels: each
    row vector summed per label (a scatter-add into 64 slots from zero), the per-label mean over the labels whose count
    is positive (the count floored at 1), zero elsewhere, and the mean of those means over the number of such labels
    (floored at 1). -/
def tailFn (rs rc : (⟨S8192, .f32⟩ : BufTy).Contents (Elt Ideal)) (lab : (⟨S8192, .i32⟩ : BufTy).Contents (Elt Ideal)) :
    (⟨S_, .f32⟩ : BufTy).Contents (Elt Ideal) :=
  Host.divf
    (Host.reduceAdd
      (select
        (cmpf .ogt
          (Host.scatterAdd (F := Ideal) scatter_S64_S8192x1_S8192_n_0_0_1 (broadcastInDim S64 ![] bcast_S_S64 (constant (F := Ideal) S_ .f32 0x00000000#32))
            (broadcastInDim S8192x1 ![0] bcast_S8192_S8192x1_0 lab) rc)
          (broadcastInDim S64 ![] bcast_S_S64 (constant (F := Ideal) S_ .f32 0x00000000#32)))
        (Host.divf
          (Host.scatterAdd (F := Ideal) scatter_S64_S8192x1_S8192_n_0_0_1 (broadcastInDim S64 ![] bcast_S_S64 (constant (F := Ideal) S_ .f32 0x00000000#32))
            (broadcastInDim S8192x1 ![0] bcast_S8192_S8192x1_0 lab) rs)
          (maximumf
            (Host.scatterAdd (F := Ideal) scatter_S64_S8192x1_S8192_n_0_0_1 (broadcastInDim S64 ![] bcast_S_S64 (constant (F := Ideal) S_ .f32 0x00000000#32))
              (broadcastInDim S8192x1 ![0] bcast_S8192_S8192x1_0 lab) rc)
            (broadcastInDim S64 ![] bcast_S_S64 (constant (F := Ideal) S_ .f32 0x3F800000#32))))
        (broadcastInDim S64 ![] bcast_S_S64 (id (constant (F := Ideal) S_ .f32 0x00000000#32))))
      (constant (F := Ideal) S_ .f32 0x00000000#32) reducesTo_S64_S_d0 h_S_)
    (sitofp .f32
      (maxsi
        (Host.reduce IntOp.addi
          (extui 32
            (cmpf .ogt
              (Host.scatterAdd (F := Ideal) scatter_S64_S8192x1_S8192_n_0_0_1 (broadcastInDim S64 ![] bcast_S_S64 (constant (F := Ideal) S_ .f32 0x00000000#32))
                (broadcastInDim S8192x1 ![0] bcast_S8192_S8192x1_0 lab) rc)
              (broadcastInDim S64 ![] bcast_S_S64 (constant (F := Ideal) S_ .f32 0x00000000#32)))
            natLt_1_32)
          (constantI S_ 32 0#32) reducesTo_S64_S_d0 h_S_)
        (constantI S_ 32 1#32)))

/-- A column vector [8192, 1] read as the row vector [8192]. -/
abbrev toRow {α : Type} (y : S8192x1.Idx → α) : S8192.Idx → α := shapeCast S8192 y shapeCasts_S8192x1_S8192

/-- The row vector at r is the column at (r, 0). -/
theorem toRow_apply {α : Type} (y : S8192x1.Idx → α) (r : Fin 8192) : toRow y (ix1 r) = y (ix2 r (0 : Fin 1)) :=
  shapeCast_apply y shapeCasts_S8192x1_S8192 _ _ (by
    rw [Shape.rowMajor_val_two, Shape.rowMajor_val_one]
    show r.val * 1 + 0 = r.val
    rw [Nat.mul_one, Nat.add_zero])

set_option maxRecDepth 8192 in
/-- The thirty operations after the region leave, in the result buffer, `tailFn` of the two result columns read as row
    vectors and of the labels. -/
theorem tail_eq (W1 : Valuation τ sig (Elt Ideal)) :
    StableHlo.after (Gen.hostOps1_2 (F := Ideal)) (StableHlo.after (Gen.hostOps1_1 (F := Ideal)) (StableHlo.after (Gen.hostOps1 (F := Ideal)) W1))
        (Proc.devRef .tc main_v27)
      = tailFn (toRow (W1 (Proc.devRef .tc main_v7_0) : S8192x1.Idx → EReal)) (toRow (W1 (Proc.devRef .tc main_v7_1) : S8192x1.Idx → EReal))
          (W1 (Proc.devRef .tc main_arg1)) := by
  dsimp only [Gen.hostOps1, Gen.hostOps1_1, Gen.hostOps1_2]
  after_results_simp
  dsimp only [TRef.toBuf, TRef.ofBuf, cast_eq]
  rfl

/-- The reference's last eighteen operations are the same function of its two row vectors and the labels. -/
theorem ref_tail (x0 : (⟨Cert.ReferenceIdeal.S8192x128, .f32⟩ : BufTy).Contents (Elt Ideal)) (x1 : (⟨Cert.ReferenceIdeal.S8192, .i32⟩ : BufTy).Contents (Elt Ideal)) :
    Cert.ReferenceIdeal.Read.val_main_v56 (F := Ideal) x0 x1
      = tailFn (Cert.ReferenceIdeal.Read.val_main_v35 (F := Ideal) x0 x1) (Cert.ReferenceIdeal.Read.val_main_v38 (F := Ideal) x1) x1 := by
  unfold Cert.ReferenceIdeal.Read.val_main_v56 Cert.ReferenceIdeal.Read.val_main_v53 Cert.ReferenceIdeal.Read.val_main_v55
    Cert.ReferenceIdeal.Read.val_main_v54 Cert.ReferenceIdeal.Read.val_main_v52 Cert.ReferenceIdeal.Read.val_main_v51
    Cert.ReferenceIdeal.Read.val_main_v50 Cert.ReferenceIdeal.Read.val_main_v49 Cert.ReferenceIdeal.Read.val_main_v48
    Cert.ReferenceIdeal.Read.val_main_v46 Cert.ReferenceIdeal.Read.val_main_v44 Cert.ReferenceIdeal.Read.val_main_v41
    Cert.ReferenceIdeal.Read.val_main_v47 Cert.ReferenceIdeal.Read.val_main_v45 Cert.ReferenceIdeal.Read.val_main_v43
    Cert.ReferenceIdeal.Read.val_main_v42 Cert.ReferenceIdeal.Read.val_main_v40 Cert.ReferenceIdeal.Read.val_main_v39
    Cert.ReferenceIdeal.Read.val_main_call2_v1 Cert.ReferenceIdeal.Read.val_main_call2_v0
  generalize Cert.ReferenceIdeal.Read.val_main_v35 (F := Ideal) x0 x1 = rs
  generalize Cert.ReferenceIdeal.Read.val_main_v38 (F := Ideal) x1 = rc
  rfl

end Cert.KernelIdeal.Host

end
-- ==== Proof.RefRows.lean ====
/-
  The reference's two row vectors are the specification's. Row i of the reference's pair sum is
    Σⱼ [lab i = lab j ∧ i < j] · log1p (Z i · exp (−D i j)),   Z i = Σⱼ [lab i ≠ lab j] · exp (D i j),
  with D i j = (‖xᵢ‖² + ‖xⱼ‖²) − 2 · xᵢ·xⱼ, and its pair count is the signed value of a 32-bit sum of the 0/1 words of the
  pair mask. Each operation is read at an index (i, j) given by coordinates; a float sum from the zero word is the
  plain sum; a select on a one-bit word is the `if` on that word being 1; the signed comparison of the words of two
  positions below 8192 is the comparison of the positions; and a wrap-around sum of at most 8192 words, each 0 or 1,
  is the word of the number of ones, which is below 2³¹ and so reads back signed as that number.
-/
import proofs.«119205_j1864015806540_2_alg».proof.Proof.RefRead
import proofs.«119205_j1864015806540_2_alg».proof.Proof.Spec
import Idealize.ShloMosaic.Lib.Affine

noncomputable section

namespace Cert.ReferenceIdeal.Rows

open Cert.ReferenceIdeal Cert.ReferenceIdeal.Read Idealize.ShloMosaic Idealize.ShloMosaic.ValueIdx

/-- The embeddings by coordinates. -/
abbrev emb (x0 : (⟨S8192x128, .f32⟩ : BufTy).Contents (Elt Ideal)) : Fin 8192 → Fin 128 → EReal := fun a k => x0 (ix2 a k)
/-- The labels by coordinate. -/
abbrev labels (x1 : (⟨S8192, .i32⟩ : BufTy).Contents (Elt Ideal)) : Fin 8192 → BitVec 32 := fun a => x1 (ix1 a)

/-- The squared norm of row i: the host's sum over the 128 columns, from the zero word. -/
theorem v1_eq (x0 : (⟨S8192x128, .f32⟩ : BufTy).Contents (Elt Ideal)) (i : Fin 8192) :
    val_main_v1 (F := Ideal) x0 (ix1 i) = Cert.NPair.sqn (emb x0) i := by
  rw [val_main_v1_apply, val_main_cst_apply]
  show Ideal.ofBits .f32 0x00000000#32 + _ = _
  rw [Ideal.ofBits_zero_f32, zero_add]
  unfold Cert.NPair.sqn
  refine Finset.sum_congr rfl fun k _ => ?_
  rw [val_main_v0_apply]
  have e : idx_main_v1 (ix1 i) k = ix2 i k := by
    funext a; match a with | ⟨0, _⟩ => rfl | ⟨1, _⟩ => rfl
  rw [e]
  rfl

/-- The inner product of rows i and j: the host's contraction over the 128 columns, its right operand the transpose. -/
theorem v8_eq (x0 : (⟨S8192x128, .f32⟩ : BufTy).Contents (Elt Ideal)) (i j : Fin 8192) :
    val_main_v8 (F := Ideal) x0 (ix2 i j) = Cert.NPair.dot (emb x0) i j := by
  rw [val_main_v8_apply]
  unfold Cert.NPair.dot
  refine Finset.sum_congr rfl fun k _ => ?_
  rw [val_main_v7_apply]
  have e1 : lidx_main_v8 (ix2 i j) k = ix2 i k := by
    funext a; match a with | ⟨0, _⟩ => rfl | ⟨1, _⟩ => rfl
  have e2 : idx_main_v7 (ridx_main_v8 (ix2 i j) k) = ix2 j k := by
    funext a; match a with | ⟨0, _⟩ => rfl | ⟨1, _⟩ => rfl
  rw [e1, e2]

/-- D i j: the two squared norms, broadcast along rows and columns, less the literal 2 times the inner product. -/
theorem v11_eq (x0 : (⟨S8192x128, .f32⟩ : BufTy).Contents (Elt Ideal)) (i j : Fin 8192) :
    val_main_v11 (F := Ideal) x0 (ix2 i j) = Cert.NPair.dist (emb x0) i j := by
  rw [val_main_v11_apply, val_main_v6_apply, val_main_v10_apply, val_main_v4_apply, val_main_v5_apply,
    val_main_v2_apply, val_main_v3_apply, val_main_v9_apply, val_main_cst_0_apply, v8_eq]
  have e1 : idx_main_v2 (idx_main_v4 (ix2 i j)) = ix1 i := by
    funext a; match a with | ⟨0, _⟩ => rfl
  have e2 : idx_main_v3 (idx_main_v5 (ix2 i j)) = ix1 j := by
    funext a; match a with | ⟨0, _⟩ => rfl
  rw [e1, e2, v1_eq, v1_eq]
  rfl

/-- The label comparison at (i, j). -/
theorem v16_eq (x1 : (⟨S8192, .i32⟩ : BufTy).Contents (Elt Ideal)) (i j : Fin 8192) :
    val_main_v16 (F := Ideal) x1 (ix2 i j) = IntOp.cmpi .eq (labels x1 i) (labels x1 j) := by
  rw [val_main_v16_apply, val_main_v14_apply, val_main_v15_apply, val_main_v12_apply, val_main_v13_apply]
  have e1 : idx_main_v12 (idx_main_v14 (ix2 i j)) = ix1 i := by
    funext a; match a with | ⟨0, _⟩ => rfl
  have e2 : idx_main_v13 (idx_main_v15 (ix2 i j)) = ix1 j := by
    funext a; match a with | ⟨0, _⟩ => rfl
  rw [e1, e2]

/-- The position comparison at (i, j). -/
theorem v26_eq (i j : Fin 8192) :
    val_main_v26 (F := Ideal) (ix2 i j) = IntOp.cmpi .slt (BitVec.ofNat 32 i.val) (BitVec.ofNat 32 j.val) := by
  rw [val_main_v26_apply, val_main_v24_apply, val_main_v25_apply, val_main_v22_apply, val_main_v23_apply,
    val_main_v21_apply, val_main_v21_apply]

/-- A natural below 2³¹ read back signed from its 32-bit word. -/
theorem toInt_ofNat_small (n : Nat) (h : n < 2147483648) : (BitVec.ofNat 32 n).toInt = (n : Int) := by
  rw [BitVec.toInt_eq_toNat_of_lt (by rw [BitVec.toNat_ofNat]; omega), BitVec.toNat_ofNat]
  omega

/-- The position comparison holds exactly when i is before j. -/
theorem v26_one_iff (i j : Fin 8192) : val_main_v26 (F := Ideal) (ix2 i j) = 1#1 ↔ i.val < j.val := by
  rw [v26_eq, IntOp.cmpi_slt, toInt_ofNat_small _ (by omega), toInt_ofNat_small _ (by omega)]
  omega

/-- The label comparison holds exactly when the labels are equal. -/
theorem v16_one_iff (x1 : (⟨S8192, .i32⟩ : BufTy).Contents (Elt Ideal)) (i j : Fin 8192) :
    val_main_v16 (F := Ideal) x1 (ix2 i j) = 1#1 ↔ labels x1 i = labels x1 j := by
  rw [v16_eq, IntOp.cmpi_eq]

/-- The pair mask at (i, j) is the specification's pair. -/
theorem v27_one_iff (x1 : (⟨S8192, .i32⟩ : BufTy).Contents (Elt Ideal)) (i j : Fin 8192) :
    val_main_v27 (F := Ideal) x1 (ix2 i j) = 1#1 ↔ Cert.NPair.pair (labels x1) i j := by
  rw [val_main_v27_apply, IntOp.andi_eq_one, v16_one_iff, v26_one_iff]
  rfl

/-- A select on a one-bit word is the `if` on the word being 1. -/
theorem select_eq_ite {α : Type} (c : BitVec 1) (a b : α) : Scalar.select c a b = if c = 1#1 then a else b := rfl

/-- Z i: the sum over the columns with another label of exp (dist i j). -/
theorem v20_eq (x0 : (⟨S8192x128, .f32⟩ : BufTy).Contents (Elt Ideal)) (x1 : (⟨S8192, .i32⟩ : BufTy).Contents (Elt Ideal)) (i : Fin 8192) :
    val_main_v20 (F := Ideal) x0 x1 (ix1 i) = Cert.NPair.negSum (emb x0) (labels x1) i := by
  rw [val_main_v20_apply, val_main_cst_2_apply]
  show Ideal.ofBits .f32 0x00000000#32 + _ = _
  rw [Ideal.ofBits_zero_f32, zero_add]
  unfold Cert.NPair.negSum
  refine Finset.sum_congr rfl fun k _ => ?_
  have e : idx_main_v20 (ix1 i) k = ix2 i k := by
    funext a; match a with | ⟨0, _⟩ => rfl | ⟨1, _⟩ => rfl
  rw [e, val_main_v19_apply, val_main_v17_apply, val_main_v18_apply, v11_eq, val_main_call0_v1_apply,
    val_main_call0_v0_apply, val_main_cst_1_apply, select_eq_ite]
  show (if _ then Ideal.exp _ else Ideal.ofBits .f32 0x00000000#32) = _
  rw [Ideal.ofBits_zero_f32]
  by_cases hl : labels x1 i = labels x1 k
  · rw [if_pos hl, if_neg]
    rw [IntOp.not_eq_one, not_not]
    exact (v16_one_iff x1 i k).2 hl
  · rw [if_neg hl, if_pos]
    rw [IntOp.not_eq_one]
    exact fun h => hl ((v16_one_iff x1 i k).1 h)

/-- Row i of the reference's pair sum is the specification's. -/
theorem rowSum_eq (x0 : (⟨S8192x128, .f32⟩ : BufTy).Contents (Elt Ideal)) (x1 : (⟨S8192, .i32⟩ : BufTy).Contents (Elt Ideal)) (i : Fin 8192) :
    val_main_v35 (F := Ideal) x0 x1 (ix1 i) = Cert.NPair.rowSum (emb x0) (labels x1) i := by
  rw [val_main_v35_apply, val_main_cst_4_apply]
  show Ideal.ofBits .f32 0x00000000#32 + _ = _
  rw [Ideal.ofBits_zero_f32, zero_add]
  unfold Cert.NPair.rowSum
  refine Finset.sum_congr rfl fun k _ => ?_
  have e : idx_main_v35 (ix1 i) k = ix2 i k := by
    funext a; match a with | ⟨0, _⟩ => rfl | ⟨1, _⟩ => rfl
  have e31 : idx_main_v28 (idx_main_v31 (ix2 i k)) = ix1 i := by
    funext a; match a with | ⟨0, _⟩ => rfl
  rw [e, val_main_v34_apply, val_main_v33_apply, val_main_v32_apply, val_main_v31_apply, val_main_v28_apply, e31,
    v20_eq, val_main_v30_apply, val_main_v29_apply, v11_eq, val_main_call1_v1_apply,
    val_main_call1_v0_apply, val_main_cst_3_apply, select_eq_ite]
  show (if _ then Ideal.log1p (_ * Ideal.exp (-_)) else Ideal.ofBits .f32 0x00000000#32) = _
  rw [Ideal.ofBits_zero_f32]
  exact if_congr (v27_one_iff x1 i k) rfl rfl

/-- A wrap-around sum, from 0, of words each 0 or 1 is the word of the number of ones. -/
theorem fold_addi_ind {n : Nat} (p : Fin n → Prop) [DecidablePred p] (f : Fin n → BitVec 32)
    (hf : ∀ k, f k = if p k then 1#32 else 0#32) (s : Finset (Fin n)) :
    s.fold IntOp.addi 0#32 f = BitVec.ofNat 32 (s.filter p).card := by
  refine Finset.induction_on s ?_ ?_
  · rfl
  · intro a s ha ih
    rw [Finset.fold_insert ha, ih, hf a, Finset.filter_insert]
    by_cases hp : p a
    · rw [if_pos hp, if_pos hp, Finset.card_insert_of_notMem (fun h => ha (Finset.mem_of_mem_filter a h)),
        Nat.add_comm, BitVec.ofNat_add]
      rfl
    · rw [if_neg hp, if_neg hp]
      exact BitVec.zero_add _

/-- The sum of the 0/1 indicator of p over a finite set is the number of elements with p, as an extended real. -/
theorem sum_ind_eq_card {n : Nat} (p : Fin n → Prop) [DecidablePred p] (s : Finset (Fin n)) :
    (∑ k ∈ s, if p k then (1 : EReal) else (0 : EReal)) = (((s.filter p).card : ℝ) : EReal) := by
  refine Finset.induction_on s ?_ ?_
  · simp
  · intro a s ha ih
    rw [Finset.sum_insert ha, ih, Finset.filter_insert]
    by_cases hp : p a
    · rw [if_pos hp, if_pos hp, Finset.card_insert_of_notMem (fun h => ha (Finset.mem_of_mem_filter a h)),
        Nat.cast_add, Nat.cast_one, EReal.coe_add, EReal.coe_one, add_comm]
    · rw [if_neg hp, if_neg hp, zero_add]

/-- A one-bit word widened to 32 bits is 1 or 0. -/
theorem setWidth_bit (c : BitVec 1) : c.setWidth 32 = if c = 1#1 then 1#32 else 0#32 := by
  rcases BitVec.eq_zero_or_eq_one c with h | h <;> subst h <;> rfl

/-- The integer row count: the word of the number of pairs in row i. -/
theorem v37_eq (x1 : (⟨S8192, .i32⟩ : BufTy).Contents (Elt Ideal)) (i : Fin 8192) :
    val_main_v37 (F := Ideal) x1 (ix1 i)
      = BitVec.ofNat 32 ((Finset.univ : Finset (Fin 8192)).filter fun j => Cert.NPair.pair (labels x1) i j).card := by
  unfold val_main_v37
  rw [Host.reduce_eq_fold_single IntOp.addi _ _ Gen.reducesTo_S8192x8192_S8192_d1 (by decide) Gen.h_S_]
  refine fold_addi_ind (n := 8192) (fun j => Cert.NPair.pair (labels x1) i j) _ (fun k => ?_) Finset.univ
  show val_main_v36 (F := Ideal) x1 _ = _
  have e : (Shape.Reduces.lift (s := S8192x8192) (a := 1) (t := S8192) (by decide) (ix1 i) k) = ix2 i k := by
    funext a; match a with | ⟨0, _⟩ => rfl | ⟨1, _⟩ => rfl
  rw [e, val_main_v36_apply, setWidth_bit]
  exact if_congr (v27_one_iff x1 i k) rfl rfl

/-- Row i of the reference's pair count, converted to a float, is the specification's. -/
theorem rowCnt_eq (x1 : (⟨S8192, .i32⟩ : BufTy).Contents (Elt Ideal)) (i : Fin 8192) :
    val_main_v38 (F := Ideal) x1 (ix1 i) = Cert.NPair.rowCnt (labels x1) i := by
  rw [val_main_v38_apply, v37_eq]
  show (((BitVec.ofNat 32 _).toInt : ℝ) : EReal) = _
  unfold Cert.NPair.rowCnt
  rw [sum_ind_eq_card, toInt_ofNat_small]
  · rfl
  · have := Finset.card_filter_le (Finset.univ : Finset (Fin 8192)) (fun j => Cert.NPair.pair (labels x1) i j)
    rw [Finset.card_univ, Fintype.card_fin] at this
    omega

end Cert.ReferenceIdeal.Rows

end
-- ==== Proof.IdealFinal.lean ====
/-
  The idealized kernel's result and the reference's are one function of the arguments. At grid point t the six input blocks
  are rows [256 t, 256 t + 256) of the embeddings, all rows, those rows' squared norms, all squared norms, those rows' labels
  and all labels — the arrays the host operations before the region wrote from the two arguments —, so the two output
  blocks hold at row p the specification's rowSum and rowCnt of row 256 t + p; the blocks tile the two result columns, so
  after the run those hold rowSum and rowCnt of every row; and the remaining host operations apply one function to the two
  columns read as row vectors and to the labels. The reference applies the same function to its own two row vectors, which
  are the same rowSum and rowCnt.
-/
import proofs.«119205_j1864015806540_2_alg».proof.Proof.IdealValue
import proofs.«119205_j1864015806540_2_alg».proof.Proof.IdealCover
import proofs.«119205_j1864015806540_2_alg».proof.Proof.IdealLaunch
import proofs.«119205_j1864015806540_2_alg».proof.Proof.HostSide
import proofs.«119205_j1864015806540_2_alg».proof.Proof.RefRows
import proofs.«119205_j1864015806540_2_alg».proof.Defs

set_option maxRecDepth 16384

noncomputable section

namespace Cert.KernelIdeal.Final

open Cert.KernelIdeal Cert.KernelIdeal.Gen Cert.KernelIdeal.Hand Cert.KernelIdeal.Point Cert.KernelIdeal.Host
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- Core c's buffers at launch. -/
abbrev launch (c : Dev nD) : Valuation τ sig (Elt Ideal) := fun b => m ((c : Dev nD), b)

/-- The one grid axis' coordinate of point t is t. -/
theorem coord0 : ∀ t : Fin cfg0.N, (grid0.coords t 0).val = t.val :=
  (by decide +kernel : ∀ t : Fin grid0.N, (grid0.coords t 0).val = t.val)

section Point
variable (c : Dev nD) (t : Fin cfg0.N) (p : Fin 256) (h : 256 * t.val + p.val < 8192)

theorem hb1 (k : Fin 128) : (iblk (V m) c 0 t : S256x128.Idx → EReal) (ix2 p k) = embW (launch m c) ⟨256 * t.val + p.val, h⟩ k :=
  (blk0 (V m) c t p k h).trans (pre_v2 (launch m c) _ k)
theorem hb2 (j : Fin 8192) (k : Fin 128) : (iblk (V m) c 1 t : S8192x128.Idx → EReal) (ix2 j k) = embW (launch m c) j k := by
  rw [blk1 (V m) c t]; exact pre_v2 (launch m c) j k
theorem hb3 : (iblk (V m) c 2 t : S256x1.Idx → EReal) (ix2 p (0 : Fin 1)) = Cert.NPair.sqn (embW (launch m c)) ⟨256 * t.val + p.val, h⟩ :=
  (blk2 (V m) c t p h).trans (pre_v3 (launch m c) _)
theorem hb4 (j : Fin 8192) : (iblk (V m) c 3 t : S1x8192.Idx → EReal) (ix2 (0 : Fin 1) j) = Cert.NPair.sqn (embW (launch m c)) j := by
  rw [blk3 (V m) c t]; exact pre_v4 (launch m c) j
theorem hb5 : (iblk (V m) c 4 t : S256x1.Idx → BitVec 32) (ix2 p (0 : Fin 1)) = labW (launch m c) ⟨256 * t.val + p.val, h⟩ :=
  (blk4 (V m) c t p h).trans (pre_v5 (launch m c) _)
theorem hb6 (j : Fin 8192) : (iblk (V m) c 5 t : S1x8192.Idx → BitVec 32) (ix2 (0 : Fin 1) j) = labW (launch m c) j := by
  rw [blk5 (V m) c t]; exact pre_v6 (launch m c) j

theorem hrow : (grid0.coords t 0).val * 256 + p.val = (⟨256 * t.val + p.val, h⟩ : Fin 8192).val := by
  rw [coord0 t]; show t.val * 256 + p.val = 256 * t.val + p.val; omega

/-- The two output blocks at point t, row p: the specification's row 256 t + p. -/
theorem point6 : outsAt6 (V m) c t (ix2 p (0 : Fin 1)) = Cert.NPair.rowSum (embW (launch m c)) (labW (launch m c)) ⟨256 * t.val + p.val, h⟩ := by
  unfold outsAt6
  rw [out6_apply]
  exact blockSum_eq (embW (launch m c)) (labW (launch m c)) ⟨256 * t.val + p.val, h⟩ p (grid0.coords t 0).val (hrow t p h) _ _ _ _ _ _
    (hb1 m c t p h) (hb2 m c t) (hb3 m c t p h) (hb4 m c t) (hb5 m c t p h) (hb6 m c t)

theorem point7 : outsAt7 (V m) c t (ix2 p (0 : Fin 1)) = Cert.NPair.rowCnt (labW (launch m c)) ⟨256 * t.val + p.val, h⟩ := by
  unfold outsAt7
  rw [out7_apply]
  exact blockCnt_eq (labW (launch m c)) ⟨256 * t.val + p.val, h⟩ p (grid0.coords t 0).val (hrow t p h) _ _ (hb5 m c t p h) (hb6 m c t)
end Point

/-- The two result columns after the run. -/
theorem arr6 (c : Dev nD) : ((dats (V m) c).arrAt 6 cfg0.N : S8192x1.Idx → EReal) = fun y => Cert.NPair.rowSum (embW (launch m c)) (labW (launch m c)) (y 0) :=
  final6 (V m) c _ fun t p h => point6 m c t p h
theorem arr7 (c : Dev nD) : ((dats (V m) c).arrAt 7 cfg0.N : S8192x1.Idx → EReal) = fun y => Cert.NPair.rowCnt (labW (launch m c)) (y 0) :=
  final7 (V m) c _ fun t p h => point7 m c t p h

/-- The specification's two row vectors. -/
def RS (c : Dev nD) : S8192.Idx → EReal := fun y => Cert.NPair.rowSum (embW (launch m c)) (labW (launch m c)) (y 0)
def RC (c : Dev nD) : S8192.Idx → EReal := fun y => Cert.NPair.rowCnt (labW (launch m c)) (y 0)

/-- The kernel program's result buffer at the return. -/
theorem kernel_result (c : Dev nD) :
    W2 m (dats (V m)) c (Proc.devRef .tc main_v27) = tailFn (RS m c) (RC m c) (launch m c (Proc.devRef .tc main_arg1)) := by
  unfold W2
  rw [tail_eq (W1 m (dats (V m)) c), W1_out6, W1_out7, W1_of_ne m (dats (V m)) c main_arg1 (by decide) (by decide)]
  have e6 : toRow ((dats (V m) c).arrAt 6 cfg0.N : S8192x1.Idx → EReal) = RS m c := by
    funext y; obtain ⟨r, rfl⟩ : ∃ r : Fin 8192, y = ix1 r := ⟨y 0, eq_ix1 y⟩
    rw [toRow_apply, arr6 m c]; rfl
  have e7 : toRow ((dats (V m) c).arrAt 7 cfg0.N : S8192x1.Idx → EReal) = RC m c := by
    funext y; obtain ⟨r, rfl⟩ : ∃ r : Fin 8192, y = ix1 r := ⟨y 0, eq_ix1 y⟩
    rw [toRow_apply, arr7 m c]; rfl
  have e1 : W0 m c (Proc.devRef .tc main_arg1) = launch m c (Proc.devRef .tc main_arg1) := pre_arg1 (launch m c)
  rw [e6, e7, e1]

set_option backward.isDefEq.respectTransparency.types false in
/-- The idealized kernel program's run, with this proof data. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27) = W2 m (dats (V m)) c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_dat (F := Ideal) m ρ (dats (V m)) (fun c w => A_eq (V m) c w) (fun _ => rfl) (fun _ => rfl)
    (fun c w hw => match w, hw with
      | ⟨0, _⟩, h => absurd h (Nat.not_succ_le_zero 1)
      | ⟨1, _⟩, h => absurd h (Nat.not_succ_le_self 1)
      | ⟨_ + 2, _⟩, _ => rfl)
    (fun _ _ => rfl) (fun _ _ => rfl) (fun c => body_obligation (V m) c)

/-- The reference's result. -/
theorem reference_result (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1)) :
    Cert.ReferenceIdeal.Value.res_main_v56 m' c = tailFn (RS m c) (RC m c) (launch m c (Proc.devRef .tc main_arg1)) := by
  rw [Cert.ReferenceIdeal.Read.val_main_v56_eq, ref_tail, h0, h1]
  have e5 : Cert.ReferenceIdeal.Read.val_main_v35 (F := Ideal) (m ((c.tc : Thread nD τ).loc main_arg0)) (m ((c.tc : Thread nD τ).loc main_arg1)) = RS m c := by
    funext y; obtain ⟨r, rfl⟩ : ∃ r : Fin 8192, y = ix1 r := ⟨y 0, eq_ix1 y⟩
    rw [Cert.ReferenceIdeal.Rows.rowSum_eq]; rfl
  have e8 : Cert.ReferenceIdeal.Read.val_main_v38 (F := Ideal) (m ((c.tc : Thread nD τ).loc main_arg1)) = RC m c := by
    funext y; obtain ⟨r, rfl⟩ : ∃ r : Fin 8192, y = ix1 r := ⟨y 0, eq_ix1 y⟩
    rw [Cert.ReferenceIdeal.Rows.rowCnt_eq]; rfl
  rw [e5, e8]

end Cert.KernelIdeal.Final

end
-- ==== Proof.lean ====
/-
  The N-pair loss kernel against its reference, on the extended reals. For embeddings x : 8192 × 128 and labels lab : 8192
  both programs compute, for every anchor row i, the sum over the same-label columns j > i of
  log1p (Z i · exp (−D i j)), where D i j = ‖xᵢ‖² + ‖xⱼ‖² − 2 xᵢ·xⱼ and Z i is the sum over the columns of another label of
  exp (D i j), and the count of those columns; then the same host operations: a sum per label, the mean per label that
  occurs in a pair, the mean of those means. The kernel computes the rows in 32 blocks of 256 anchors, each in two passes
  of eight chunks of 1024 columns over a distance scratch, with the embeddings rounded to bf16 and the count kept as a
  float; the reference in whole 8192 × 8192 arrays with the count as an integer sum. At the ideal instance a change of
  format is the identity, a product into a zero accumulator and a lane sum are plain finite sums, sums regroup freely
  (the extended reals are an additive commutative monoid), and an integer count of at most 8192 ones converts to the same
  real as the sum of ones: so both rows are the specification's rowSum and rowCnt (Proof/Spec.lean), and the results agree.
  Nothing here needs the inputs finite: no distributivity or cancellation is used.
  The frames: each program runs to its end with its two arguments unchanged. The kernel program's pallas_call hands the
  bf16 embeddings to two windows (the anchors' row block and the resident column operand); its frame holds that array's full
  share dealt in halves to the two windows (Proof/IdealLaunch.lean, Proof/BitsLaunch.lean), and its body goes through both
  passes by their invariants, one trip at a symbolic chunk (Proof/IdealRun.lean, Proof/BitsRun.lean). The idealized program
  is the word-level program's own text read at the ideal instance, so the idealization claim is trivial.
-/
import proofs.«119205_j1864015806540_2_alg».proof.Defs
import proofs.«119205_j1864015806540_2_alg».proof.Proof.Gen.Kernel
import proofs.«119205_j1864015806540_2_alg».proof.Proof.Gen.KernelIdeal
import proofs.«119205_j1864015806540_2_alg».proof.Proof.Gen.ReferenceIdeal
import proofs.«119205_j1864015806540_2_alg».proof.Proof.Gen.Pre_finite_inputs
import proofs.«119205_j1864015806540_2_alg».proof.Proof.Frames
import proofs.«119205_j1864015806540_2_alg».proof.Proof.IdealFinal

noncomputable section

namespace Cert.Proof

open Idealize.ShloMosaic Idealize.SL.Sem

/-- At the ideal instance the idealized kernel's result buffer and the reference's hold one function of the arguments: the
    shared host tail of the specification's two row vectors and the labels. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Host.tailFn (Cert.KernelIdeal.Final.RS m c) (Cert.KernelIdeal.Final.RC m c)
      (Cert.KernelIdeal.Final.launch m c (Proc.devRef .tc Cert.KernelIdeal.main_arg1)), ?_, ?_⟩
  · exact (θ_run (Cert.KernelIdeal.defs (F := Ideal)) _ _).mono
      (fun _ h c => ⟨(h c).1.trans (Cert.KernelIdeal.Final.kernel_result m c), (h c).2.1, (h c).2.2⟩)
      (Cert.KernelIdeal.Final.kernel_run m ρ)
  · exact (θ_run (Cert.ReferenceIdeal.defs (F := Ideal)) _ _).mono
      (fun _ h c => ⟨(h c).1.trans (Cert.KernelIdeal.Final.reference_result m m' c (hagree c).1 (hagree c).2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
